-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg12 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg8 : FVec F S64 .f32) (main_arg9 : FVec F S64 .f32) (main_arg10 : FVec F S64 .f32) (main_arg11 : FVec F S128x64 .f32) (main_arg12 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg12 main_v48 main_v49 main_v50

def fn_part1 {F : FTy → Type} [FloatOps F] (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S128x64 .f32) (main_arg12 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x1600000 32) (main_arg2 : FVec F S1600000 .f32) (main_arg3 : FVec F S128x64 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S128x64 .f32) (main_arg12 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S100000x64 : Shape := ⟨2, ![100000, 64]⟩
abbrev S1700000x64 : Shape := ⟨2, ![1700000, 64]⟩
abbrev S1x64 : Shape := ⟨2, ![1, 64]⟩
abbrev S5000x64 : Shape := ⟨2, ![5000, 64]⟩

abbrev nBuf : Space → Nat
  | .hbm => 185
  | .vmem => 32
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S128x64, .f32⟩
  | 12 => ⟨S64, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S100000, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .i1⟩
  | 33 => ⟨S_, .f32⟩
  | 34 => ⟨S_, .f32⟩
  | 35 => ⟨S100000, .f32⟩
  | 36 => ⟨S100000, .f32⟩
  | 37 => ⟨S100000, .f32⟩
  | 38 => ⟨S_, .f32⟩
  | 39 => ⟨S_, .f32⟩
  | 40 => ⟨S100000, .f32⟩
  | 41 => ⟨S100000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000, .f32⟩
  | 61 => ⟨S1700000, .f32⟩
  | 62 => ⟨S128x128, .f32⟩
  | 63 => ⟨S_, .f32⟩
  | 64 => ⟨S64, .f32⟩
  | 65 => ⟨S128, .f32⟩
  | 66 => ⟨S1x128, .f32⟩
  | 67 => ⟨S100000x128, .f32⟩
  | 68 => ⟨S100000x64, .f32⟩
  | 69 => ⟨S100000x64, .f32⟩
  | 70 => ⟨S_, .i32⟩
  | 71 => ⟨S1700000, .i32⟩
  | 72 => ⟨S1700000, .i1⟩
  | 73 => ⟨S_, .i32⟩
  | 74 => ⟨S1700000, .i32⟩
  | 75 => ⟨S1700000, .i32⟩
  | 76 => ⟨S1700000, .i32⟩
  | 77 => ⟨S1700000x1, .i32⟩
  | 78 => ⟨S1700000x64, .f32⟩
  | 79 => ⟨S1700000x1, .f32⟩
  | 80 => ⟨S1700000x64, .f32⟩
  | 81 => ⟨S1700000x64, .f32⟩
  | 82 => ⟨S_, .f32⟩
  | 83 => ⟨S100000x64, .f32⟩
  | 84 => ⟨S1700000x1, .i32⟩
  | 85 => ⟨S100000x64, .f32⟩
  | 86 => ⟨S1x64, .f32⟩
  | 87 => ⟨S100000x64, .f32⟩
  | 88 => ⟨S100000x64, .f32⟩
  | 89 => ⟨S_, .f32⟩
  | 90 => ⟨S64, .f32⟩
  | 91 => ⟨S_, .f32⟩
  | 92 => ⟨S64, .f32⟩
  | 93 => ⟨S64, .f32⟩
  | 94 => ⟨S1x64, .f32⟩
  | 95 => ⟨S_, .i32⟩
  | 96 => ⟨S_, .f32⟩
  | 97 => ⟨S64, .f32⟩
  | 98 => ⟨S1x64, .f32⟩
  | 99 => ⟨S_, .f32⟩
  | 100 => ⟨S1x64, .f32⟩
  | 101 => ⟨S1x64, .f32⟩
  | 102 => ⟨S100000x64, .f32⟩
  | 103 => ⟨S100000x64, .f32⟩
  | 104 => ⟨S100000x64, .f32⟩
  | 105 => ⟨S_, .f32⟩
  | 106 => ⟨S_, .f32⟩
  | 107 => ⟨S_, .f32⟩
  | 108 => ⟨S_, .f32⟩
  | 109 => ⟨S64, .f32⟩
  | 110 => ⟨S64, .f32⟩
  | 111 => ⟨S64, .f32⟩
  | 112 => ⟨S_, .f32⟩
  | 113 => ⟨S_, .i1⟩
  | 114 => ⟨S_, .f32⟩
  | 115 => ⟨S_, .f32⟩
  | 116 => ⟨S64, .f32⟩
  | 117 => ⟨S64, .f32⟩
  | 118 => ⟨S_, .f32⟩
  | 119 => ⟨S64, .f32⟩
  | 120 => ⟨S64, .f32⟩
  | 121 => ⟨S64, .f32⟩
  | 122 => ⟨S1x64, .f32⟩
  | 123 => ⟨S1x64, .f32⟩
  | 124 => ⟨S1x64, .f32⟩
  | 125 => ⟨S100000x64, .f32⟩
  | 126 => ⟨S_, .f32⟩
  | 127 => ⟨S1x64, .f32⟩
  | _ => ⟨S100000x128, .f32⟩

abbrev hbmTy0_1 (i : Nat) : BufTy := match i % 128 with
  | 0 => ⟨S100000x64, .f32⟩
  | 1 => ⟨S_, .i32⟩
  | 2 => ⟨S1700000, .i32⟩
  | 3 => ⟨S1700000, .i1⟩
  | 4 => ⟨S_, .i32⟩
  | 5 => ⟨S1700000, .i32⟩
  | 6 => ⟨S1700000, .i32⟩
  | 7 => ⟨S1700000, .i32⟩
  | 8 => ⟨S1700000x1, .i32⟩
  | 9 => ⟨S1700000x64, .f32⟩
  | 10 => ⟨S1700000x1, .f32⟩
  | 11 => ⟨S1700000x64, .f32⟩
  | 12 => ⟨S1700000x64, .f32⟩
  | 13 => ⟨S_, .f32⟩
  | 14 => ⟨S100000x64, .f32⟩
  | 15 => ⟨S1700000x1, .i32⟩
  | 16 => ⟨S100000x64, .f32⟩
  | 17 => ⟨S1x64, .f32⟩
  | 18 => ⟨S100000x64, .f32⟩
  | 19 => ⟨S100000x64, .f32⟩
  | 20 => ⟨S_, .f32⟩
  | 21 => ⟨S64, .f32⟩
  | 22 => ⟨S_, .f32⟩
  | 23 => ⟨S64, .f32⟩
  | 24 => ⟨S64, .f32⟩
  | 25 => ⟨S1x64, .f32⟩
  | 26 => ⟨S_, .i32⟩
  | 27 => ⟨S_, .f32⟩
  | 28 => ⟨S64, .f32⟩
  | 29 => ⟨S1x64, .f32⟩
  | 30 => ⟨S_, .f32⟩
  | 31 => ⟨S1x64, .f32⟩
  | 32 => ⟨S1x64, .f32⟩
  | 33 => ⟨S100000x64, .f32⟩
  | 34 => ⟨S100000x64, .f32⟩
  | 35 => ⟨S100000x64, .f32⟩
  | 36 => ⟨S_, .f32⟩
  | 37 => ⟨S_, .f32⟩
  | 38 => ⟨S_, .f32⟩
  | 39 => ⟨S_, .f32⟩
  | 40 => ⟨S64, .f32⟩
  | 41 => ⟨S64, .f32⟩
  | 42 => ⟨S64, .f32⟩
  | 43 => ⟨S_, .f32⟩
  | 44 => ⟨S_, .i1⟩
  | 45 => ⟨S_, .f32⟩
  | 46 => ⟨S_, .f32⟩
  | 47 => ⟨S64, .f32⟩
  | 48 => ⟨S64, .f32⟩
  | 49 => ⟨S_, .f32⟩
  | 50 => ⟨S64, .f32⟩
  | 51 => ⟨S64, .f32⟩
  | 52 => ⟨S64, .f32⟩
  | 53 => ⟨S1x64, .f32⟩
  | 54 => ⟨S1x64, .f32⟩
  | 55 => ⟨S1x64, .f32⟩
  | 56 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_v18 : Ref sig .tc := ⟨.hbm, 41, rfl⟩
abbrev main_c : Ref sig .tc := ⟨.hbm, 42, rfl⟩
abbrev main_v19 : Ref sig .tc := ⟨.hbm, 43, rfl⟩
abbrev main_v20 : Ref sig .tc := ⟨.hbm, 44, rfl⟩
abbrev main_c_5 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_6 : Ref sig .tc := ⟨.hbm, 52, rfl⟩
abbrev main_v27 : Ref sig .tc := ⟨.hbm, 53, rfl⟩
abbrev main_v28 : Ref sig .tc := ⟨.hbm, 54, rfl⟩
abbrev main_c_7 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_8 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_9 : Ref sig .tc := ⟨.hbm, 70, rfl⟩
abbrev main_v42 : Ref sig .tc := ⟨.hbm, 71, rfl⟩
abbrev main_v43 : Ref sig .tc := ⟨.hbm, 72, rfl⟩
abbrev main_c_10 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_11 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_12 : Ref sig .tc := ⟨.hbm, 89, rfl⟩
abbrev main_v58 : Ref sig .tc := ⟨.hbm, 90, rfl⟩
abbrev main_cst_13 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_14 : Ref sig .tc := ⟨.hbm, 95, rfl⟩
abbrev main_call2_cst : Ref sig .tc := ⟨.hbm, 96, rfl⟩
abbrev main_call2_v0 : Ref sig .tc := ⟨.hbm, 97, rfl⟩
abbrev main_call2_v1 : Ref sig .tc := ⟨.hbm, 98, rfl⟩
abbrev main_call2_cst_0 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_v7 : Ref sig .tc := ⟨.hbm, 105, rfl⟩
abbrev main_call2_cst_1 : Ref sig .tc := ⟨.hbm, 106, rfl⟩
abbrev main_call2_v8 : Ref sig .tc := ⟨.hbm, 107, rfl⟩
abbrev main_call2_cst_2 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_cst_3 : Ref sig .tc := ⟨.hbm, 112, rfl⟩
abbrev main_call2_v12 : Ref sig .tc := ⟨.hbm, 113, rfl⟩
abbrev main_call2_cst_4 : Ref sig .tc := ⟨.hbm, 114, rfl⟩
abbrev main_call2_call0_v0 : Ref sig .tc := ⟨.hbm, 115, rfl⟩
abbrev main_call2_call0_v1 : Ref sig .tc := ⟨.hbm, 116, rfl⟩
abbrev main_v62 : Ref sig .tc := ⟨.hbm, 117, rfl⟩
abbrev main_cst_15 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_cst_16 : Ref sig .tc := ⟨.hbm, 126, rfl⟩
abbrev main_v70 : Ref sig .tc := ⟨.hbm, 127, rfl⟩
abbrev main_v71 : Ref sig .tc := ⟨.hbm, 128, rfl⟩
abbrev main_c_17 : Ref sig .tc := ⟨.hbm, 129, rfl⟩
abbrev main_v72 : Ref sig .tc := ⟨.hbm, 130, rfl⟩
abbrev main_v73 : Ref sig .tc := ⟨.hbm, 131, rfl⟩
abbrev main_c_18 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_cst_19 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_cst_20 : Ref sig .tc := ⟨.hbm, 148, rfl⟩
abbrev main_v88 : Ref sig .tc := ⟨.hbm, 149, rfl⟩
abbrev main_cst_21 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_c_22 : Ref sig .tc := ⟨.hbm, 154, rfl⟩
abbrev main_call3_cst : Ref sig .tc := ⟨.hbm, 155, rfl⟩
abbrev main_call3_v0 : Ref sig .tc := ⟨.hbm, 156, rfl⟩
abbrev main_call3_v1 : Ref sig .tc := ⟨.hbm, 157, rfl⟩
abbrev main_call3_cst_0 : Ref sig .tc := ⟨.hbm, 158, rfl⟩
abbrev main_call3_v2 : Ref sig .tc := ⟨.hbm, 159, rfl⟩
abbrev main_call3_v3 : Ref sig .tc := ⟨.hbm, 160, rfl⟩
abbrev main_call3_v4 : Ref sig .tc := ⟨.hbm, 161, rfl⟩
abbrev main_call3_v5 : Ref sig .tc := ⟨.hbm, 162, rfl⟩
abbrev main_call3_v6 : Ref sig .tc := ⟨.hbm, 163, rfl⟩
abbrev main_call3_v7 : Ref sig .tc := ⟨.hbm, 164, rfl⟩
abbrev main_call3_cst_1 : Ref sig .tc := ⟨.hbm, 165, rfl⟩
abbrev main_call3_v8 : Ref sig .tc := ⟨.hbm, 166, rfl⟩
abbrev main_call3_cst_2 : Ref sig .tc := ⟨.hbm, 167, rfl⟩
abbrev main_call3_v9 : Ref sig .tc := ⟨.hbm, 168, rfl⟩
abbrev main_call3_v10 : Ref sig .tc := ⟨.hbm, 169, rfl⟩
abbrev main_call3_v11 : Ref sig .tc := ⟨.hbm, 170, rfl⟩
abbrev main_call3_cst_3 : Ref sig .tc := ⟨.hbm, 171, rfl⟩
abbrev main_call3_v12 : Ref sig .tc := ⟨.hbm, 172, rfl⟩
abbrev main_call3_cst_4 : Ref sig .tc := ⟨.hbm, 173, rfl⟩
abbrev main_call3_call0_v0 : Ref sig .tc := ⟨.hbm, 174, rfl⟩
abbrev main_call3_call0_v1 : Ref sig .tc := ⟨.hbm, 175, rfl⟩
abbrev main_v92 : Ref sig .tc := ⟨.hbm, 176, rfl⟩
abbrev main_cst_23 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  concatenates_S128x64_S128x64_S128x128_d1 : Shape.Concatenates [S128x64, S128x64] S128x128 1
  bcast_S_S64 : S_.BroadcastsInDim S64 (![] : Fin 0 → Fin S64.rank)
  concatenates_S64_S64_S128_d0 : Shape.Concatenates [S64, S64] S128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S100000x128_S100000x64_0_0 : S100000x128.Slices ![0, 0] S100000x64
  slices_S100000x128_S100000x64_0_64 : S100000x128.Slices ![0, 64] S100000x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v57) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v61) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v66) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v67) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v68) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v69) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v69) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v87) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v91) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v96) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v97) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v98) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v99) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1x64 : Shape := ⟨2, ![1, 64]⟩
abbrev S1700000x64 : Shape := ⟨2, ![1700000, 64]⟩

abbrev nBuf : Space → Nat
  | .hbm => 202
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S128x64, .f32⟩
  | 12 => ⟨S64, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S100000, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .i1⟩
  | 33 => ⟨S_, .f32⟩
  | 34 => ⟨S_, .f32⟩
  | 35 => ⟨S100000, .f32⟩
  | 36 => ⟨S100000, .f32⟩
  | 37 => ⟨S100000, .f32⟩
  | 38 => ⟨S_, .f32⟩
  | 39 => ⟨S_, .f32⟩
  | 40 => ⟨S100000, .f32⟩
  | 41 => ⟨S100000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000, .f32⟩
  | 61 => ⟨S1700000, .f32⟩
  | 62 => ⟨S100000x64, .f32⟩
  | 63 => ⟨S1x64, .f32⟩
  | 64 => ⟨S100000x64, .f32⟩
  | 65 => ⟨S100000x64, .f32⟩
  | 66 => ⟨S100000x64, .f32⟩
  | 67 => ⟨S_, .i32⟩
  | 68 => ⟨S1700000, .i32⟩
  | 69 => ⟨S1700000, .i1⟩
  | 70 => ⟨S_, .i32⟩
  | 71 => ⟨S1700000, .i32⟩
  | 72 => ⟨S1700000, .i32⟩
  | 73 => ⟨S1700000, .i32⟩
  | 74 => ⟨S1700000x1, .i32⟩
  | 75 => ⟨S1700000x64, .f32⟩
  | 76 => ⟨S1700000x1, .f32⟩
  | 77 => ⟨S1700000x64, .f32⟩
  | 78 => ⟨S1700000x64, .f32⟩
  | 79 => ⟨S_, .f32⟩
  | 80 => ⟨S100000x64, .f32⟩
  | 81 => ⟨S1700000x1, .i32⟩
  | 82 => ⟨S100000x64, .f32⟩
  | 83 => ⟨S1x64, .f32⟩
  | 84 => ⟨S100000x64, .f32⟩
  | 85 => ⟨S100000x64, .f32⟩
  | 86 => ⟨S_, .f32⟩
  | 87 => ⟨S64, .f32⟩
  | 88 => ⟨S_, .f32⟩
  | 89 => ⟨S64, .f32⟩
  | 90 => ⟨S64, .f32⟩
  | 91 => ⟨S_, .i32⟩
  | 92 => ⟨S_, .f32⟩
  | 93 => ⟨S64, .f32⟩
  | 94 => ⟨S1x64, .f32⟩
  | 95 => ⟨S_, .f32⟩
  | 96 => ⟨S1x64, .f32⟩
  | 97 => ⟨S1x64, .f32⟩
  | 98 => ⟨S100000x64, .f32⟩
  | 99 => ⟨S100000x64, .f32⟩
  | 100 => ⟨S100000x64, .f32⟩
  | 101 => ⟨S_, .f32⟩
  | 102 => ⟨S_, .f32⟩
  | 103 => ⟨S_, .f32⟩
  | 104 => ⟨S_, .f32⟩
  | 105 => ⟨S64, .f32⟩
  | 106 => ⟨S64, .f32⟩
  | 107 => ⟨S64, .f32⟩
  | 108 => ⟨S_, .f32⟩
  | 109 => ⟨S_, .i1⟩
  | 110 => ⟨S_, .f32⟩
  | 111 => ⟨S_, .f32⟩
  | 112 => ⟨S64, .f32⟩
  | 113 => ⟨S64, .f32⟩
  | 114 => ⟨S1x64, .f32⟩
  | 115 => ⟨S100000x64, .f32⟩
  | 116 => ⟨S100000x64, .f32⟩
  | 117 => ⟨S1x64, .f32⟩
  | 118 => ⟨S100000x64, .f32⟩
  | 119 => ⟨S100000x64, .f32⟩
  | 120 => ⟨S_, .f32⟩
  | 121 => ⟨S64, .f32⟩
  | 122 => ⟨S64, .f32⟩
  | 123 => ⟨S64, .f32⟩
  | 124 => ⟨S1x64, .f32⟩
  | 125 => ⟨S100000x64, .f32⟩
  | 126 => ⟨S100000x64, .f32⟩
  | 127 => ⟨S1x64, .f32⟩
  | _ => ⟨S100000x128, .f32⟩

abbrev hbmTy0_1 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .f32⟩
  | 5 => ⟨S100000x64, .f32⟩
  | 6 => ⟨S100000x64, .f32⟩
  | 7 => ⟨S_, .i32⟩
  | 8 => ⟨S1700000, .i32⟩
  | 9 => ⟨S1700000, .i1⟩
  | 10 => ⟨S_, .i32⟩
  | 11 => ⟨S1700000, .i32⟩
  | 12 => ⟨S1700000, .i32⟩
  | 13 => ⟨S1700000, .i32⟩
  | 14 => ⟨S1700000x1, .i32⟩
  | 15 => ⟨S1700000x64, .f32⟩
  | 16 => ⟨S1700000x1, .f32⟩
  | 17 => ⟨S1700000x64, .f32⟩
  | 18 => ⟨S1700000x64, .f32⟩
  | 19 => ⟨S_, .f32⟩
  | 20 => ⟨S100000x64, .f32⟩
  | 21 => ⟨S1700000x1, .i32⟩
  | 22 => ⟨S100000x64, .f32⟩
  | 23 => ⟨S1x64, .f32⟩
  | 24 => ⟨S100000x64, .f32⟩
  | 25 => ⟨S100000x64, .f32⟩
  | 26 => ⟨S_, .f32⟩
  | 27 => ⟨S64, .f32⟩
  | 28 => ⟨S_, .f32⟩
  | 29 => ⟨S64, .f32⟩
  | 30 => ⟨S64, .f32⟩
  | 31 => ⟨S_, .i32⟩
  | 32 => ⟨S_, .f32⟩
  | 33 => ⟨S64, .f32⟩
  | 34 => ⟨S1x64, .f32⟩
  | 35 => ⟨S_, .f32⟩
  | 36 => ⟨S1x64, .f32⟩
  | 37 => ⟨S1x64, .f32⟩
  | 38 => ⟨S100000x64, .f32⟩
  | 39 => ⟨S100000x64, .f32⟩
  | 40 => ⟨S100000x64, .f32⟩
  | 41 => ⟨S_, .f32⟩
  | 42 => ⟨S_, .f32⟩
  | 43 => ⟨S_, .f32⟩
  | 44 => ⟨S_, .f32⟩
  | 45 => ⟨S64, .f32⟩
  | 46 => ⟨S64, .f32⟩
  | 47 => ⟨S64, .f32⟩
  | 48 => ⟨S_, .f32⟩
  | 49 => ⟨S_, .i1⟩
  | 50 => ⟨S_, .f32⟩
  | 51 => ⟨S_, .f32⟩
  | 52 => ⟨S64, .f32⟩
  | 53 => ⟨S64, .f32⟩
  | 54 => ⟨S1x64, .f32⟩
  | 55 => ⟨S100000x64, .f32⟩
  | 56 => ⟨S100000x64, .f32⟩
  | 57 => ⟨S1x64, .f32⟩
  | 58 => ⟨S100000x64, .f32⟩
  | 59 => ⟨S100000x64, .f32⟩
  | 60 => ⟨S_, .f32⟩
  | 61 => ⟨S64, .f32⟩
  | 62 => ⟨S64, .f32⟩
  | 63 => ⟨S64, .f32⟩
  | 64 => ⟨S1x64, .f32⟩
  | 65 => ⟨S100000x64, .f32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_v18 : Ref sig .tc := ⟨.hbm, 41, rfl⟩
abbrev main_c : Ref sig .tc := ⟨.hbm, 42, rfl⟩
abbrev main_v19 : Ref sig .tc := ⟨.hbm, 43, rfl⟩
abbrev main_v20 : Ref sig .tc := ⟨.hbm, 44, rfl⟩
abbrev main_c_5 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_6 : Ref sig .tc := ⟨.hbm, 52, rfl⟩
abbrev main_v27 : Ref sig .tc := ⟨.hbm, 53, rfl⟩
abbrev main_v28 : Ref sig .tc := ⟨.hbm, 54, rfl⟩
abbrev main_c_7 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_8 : Ref sig .tc := ⟨.hbm, 67, rfl⟩
abbrev main_v40 : Ref sig .tc := ⟨.hbm, 68, rfl⟩
abbrev main_v41 : Ref sig .tc := ⟨.hbm, 69, rfl⟩
abbrev main_c_9 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_cst_12 : Ref sig .tc := ⟨.hbm, 88, rfl⟩
abbrev main_v57 : Ref sig .tc := ⟨.hbm, 89, rfl⟩
abbrev main_v58 : Ref sig .tc := ⟨.hbm, 90, rfl⟩
abbrev main_c_13 : Ref sig .tc := ⟨.hbm, 91, rfl⟩
abbrev main_call2_cst : Ref sig .tc := ⟨.hbm, 92, rfl⟩
abbrev main_call2_v0 : Ref sig .tc := ⟨.hbm, 93, rfl⟩
abbrev main_call2_v1 : Ref sig .tc := ⟨.hbm, 94, rfl⟩
abbrev main_call2_cst_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_v7 : Ref sig .tc := ⟨.hbm, 101, rfl⟩
abbrev main_call2_cst_1 : Ref sig .tc := ⟨.hbm, 102, rfl⟩
abbrev main_call2_v8 : Ref sig .tc := ⟨.hbm, 103, rfl⟩
abbrev main_call2_cst_2 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_cst_3 : Ref sig .tc := ⟨.hbm, 108, rfl⟩
abbrev main_call2_v12 : Ref sig .tc := ⟨.hbm, 109, rfl⟩
abbrev main_call2_cst_4 : Ref sig .tc := ⟨.hbm, 110, rfl⟩
abbrev main_call2_call0_v0 : Ref sig .tc := ⟨.hbm, 111, rfl⟩
abbrev main_call2_call0_v1 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_cst_14 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_call3_cst : Ref sig .tc := ⟨.hbm, 130, rfl⟩
abbrev main_call3_v0 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_c_15 : Ref sig .tc := ⟨.hbm, 135, rfl⟩
abbrev main_v78 : Ref sig .tc := ⟨.hbm, 136, rfl⟩
abbrev main_v79 : Ref sig .tc := ⟨.hbm, 137, rfl⟩
abbrev main_c_16 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_cst_17 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_cst_18 : Ref sig .tc := ⟨.hbm, 154, rfl⟩
abbrev main_v94 : Ref sig .tc := ⟨.hbm, 155, rfl⟩
abbrev main_cst_19 : Ref sig .tc := ⟨.hbm, 156, rfl⟩
abbrev main_v95 : Ref sig .tc := ⟨.hbm, 157, rfl⟩
abbrev main_v96 : Ref sig .tc := ⟨.hbm, 158, rfl⟩
abbrev main_c_20 : Ref sig .tc := ⟨.hbm, 159, rfl⟩
abbrev main_call4_cst : Ref sig .tc := ⟨.hbm, 160, rfl⟩
abbrev main_call4_v0 : Ref sig .tc := ⟨.hbm, 161, rfl⟩
abbrev main_call4_v1 : Ref sig .tc := ⟨.hbm, 162, rfl⟩
abbrev main_call4_cst_0 : Ref sig .tc := ⟨.hbm, 163, rfl⟩
abbrev main_call4_v2 : Ref sig .tc := ⟨.hbm, 164, rfl⟩
abbrev main_call4_v3 : Ref sig .tc := ⟨.hbm, 165, rfl⟩
abbrev main_call4_v4 : Ref sig .tc := ⟨.hbm, 166, rfl⟩
abbrev main_call4_v5 : Ref sig .tc := ⟨.hbm, 167, rfl⟩
abbrev main_call4_v6 : Ref sig .tc := ⟨.hbm, 168, rfl⟩
abbrev main_call4_v7 : Ref sig .tc := ⟨.hbm, 169, rfl⟩
abbrev main_call4_cst_1 : Ref sig .tc := ⟨.hbm, 170, rfl⟩
abbrev main_call4_v8 : Ref sig .tc := ⟨.hbm, 171, rfl⟩
abbrev main_call4_cst_2 : Ref sig .tc := ⟨.hbm, 172, rfl⟩
abbrev main_call4_v9 : Ref sig .tc := ⟨.hbm, 173, rfl⟩
abbrev main_call4_v10 : Ref sig .tc := ⟨.hbm, 174, rfl⟩
abbrev main_call4_v11 : Ref sig .tc := ⟨.hbm, 175, rfl⟩
abbrev main_call4_cst_3 : Ref sig .tc := ⟨.hbm, 176, rfl⟩
abbrev main_call4_v12 : Ref sig .tc := ⟨.hbm, 177, rfl⟩
abbrev main_call4_cst_4 : Ref sig .tc := ⟨.hbm, 178, rfl⟩
abbrev main_call4_call0_v0 : Ref sig .tc := ⟨.hbm, 179, rfl⟩
abbrev main_call4_call0_v1 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_cst_21 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_call5_cst : Ref sig .tc := ⟨.hbm, 198, rfl⟩
abbrev main_call5_v0 : Ref sig .tc := ⟨.hbm, 199, rfl⟩
abbrev main_v113 : Ref sig .tc := ⟨.hbm, 200, rfl⟩
abbrev main_v114 : Ref sig .tc := ⟨.hbm, 201, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The idealized kernel's run with its RESULT named: every weakly fair execution of @main terminates, nothing faulting,
  with the argument arrays as launched and the result array (the fourth region's output) at the contents the chain of
  boundary valuations ends in. The launch theorem over the program's sixteen segments — twelve stretches of host
  operations and four tiled regions — is the one the frame is proved by; here the final valuation is also read at the
  result buffer, which no later segment rewrites.
-/
import proofs.«173734_j34540126994670_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary valuation's contents, the arguments as launched. -/
theorem run_value : θ_run defs (onTc (τ := τ) (main (F := F))) ⟨m, fun _ => 0, ρ⟩ (fun r => ∀ c : Dev nD,
      r.2.mem ((c.tc : Thread nD τ).loc main_v99) = W16 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v99 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c)⟩)

end Cert.KernelIdeal.KRun

end
-- ==== Proof.KStage.lean ====
/-
  The host-side stages of the idealized kernel program, each as ONE function of the arrays it reads — the composed term
  of the program's own host operations, in their order:

  * `rowIx`, `colIx`: the source and target endpoint of every edge, the self loops (node i to node i) appended;
  * `wAll`: the edge weights, the self loops' weight 1 appended;
  * `degV`: the weighted in-degree, the weights summed into their target node (a scatter-add into zeros);
  * `disV`: deg^(-1/2) where the degree is positive, 0 elsewhere;
  * `gIdx`: an index vector made ready for a row lookup (a negative index wraps once, as array indexing does);
  * `normE`: the symmetric normalisation dis[row]·w·dis[col] of every edge;
  * `aggr`: the rows of a node array looked up at the sources, scaled by the edge's normalisation, summed into the targets;
  * `row1`, `rowB`: a vector as a 1×64 row, and that row repeated down the 100000 rows;
  * `meanV`, `varV`, `invstdV`: the column mean, the column variance (about the mean, divided by the count) and
    (variance + ε)^(-1/2);
  * `sliceL`, `sliceR`: the left and right 64 columns of a 100000×128 array; `wCat`, `bCat`: two 128×64 matrices side
    by side, and the row (0 … 0, pb).
-/
import proofs.«173734_j34540126994670_1_alg».proof.KernelIdeal
import Idealize.ShloMosaic.PureOps.Ideal

noncomputable section

namespace Cert.KernelIdeal.KStage

open Cert.KernelIdeal Cert.KernelIdeal.Facts₀ Idealize.ShloMosaic

variable [Cert.KernelIdeal.Facts] {F : FTy → Type} [FloatOps F]

/-- The contents of a buffer of shape `s` and element type `e`, over the float values `F`. -/
abbrev C (F : FTy → Type) (s : Shape) (e : EltTy) : Type := (⟨s, e⟩ : BufTy).Contents (Elt F)

def rowIx (ei : C F S2x1600000 .i32) : C F S1700000 .i32 :=
  concatenate S1700000 0
    [⟨S1600000, (shapeCast S1600000 (extractStridedSlice S1x1600000 ![0, 0] ei slices_S2x1600000_S1x1600000_0_0 : C F S1x1600000 .i32)
        shapeCasts_S1x1600000_S1600000 : C F S1600000 .i32)⟩,
     ⟨S100000, (iotaInDim S100000 32 0 : C F S100000 .i32)⟩] concatenates_S1600000_S100000_S1700000_d0

def colIx (ei : C F S2x1600000 .i32) : C F S1700000 .i32 :=
  concatenate S1700000 0
    [⟨S1600000, (shapeCast S1600000 (extractStridedSlice S1x1600000 ![1, 0] ei slices_S2x1600000_S1x1600000_1_0 : C F S1x1600000 .i32)
        shapeCasts_S1x1600000_S1600000 : C F S1600000 .i32)⟩,
     ⟨S100000, (iotaInDim S100000 32 0 : C F S100000 .i32)⟩] concatenates_S1600000_S100000_S1700000_d0

def wAll (ew : C F S1600000 .f32) : C F S1700000 .f32 :=
  concatenate S1700000 0
    [⟨S1600000, ew⟩,
     ⟨S100000, (broadcastInDim S100000 ![] bcast_S_S100000 (constant (F := F) S_ .f32 0x3F800000#32) : C F S100000 .f32)⟩]
    concatenates_S1600000_S100000_S1700000_d0

def zerosN : C F S100000 .f32 := broadcastInDim S100000 ![] bcast_S_S100000 (constant (F := F) S_ .f32 0x00000000#32)

def degV (c : C F S1700000 .i32) (w : C F S1700000 .f32) : C F S100000 .f32 :=
  Host.scatterAdd scatter_S100000_S1700000x1_S1700000_n_0_0_1 zerosN
    (broadcastInDim S1700000x1 ![0] bcast_S1700000_S1700000x1_0 c : C F S1700000x1 .i32) w

def disV (d : C F S100000 .f32) : C F S100000 .f32 :=
  select (cmpf .ogt d zerosN)
    (Host.rsqrt (select (cmpf .ogt d zerosN) d
      (broadcastInDim S100000 ![] bcast_S_S100000 (id (constant (F := F) S_ .f32 0x3F800000#32)) : C F S100000 .f32)))
    (broadcastInDim S100000 ![] bcast_S_S100000 (id (constant (F := F) S_ .f32 0x00000000#32)) : C F S100000 .f32)

def gIdx (r : C F S1700000 .i32) : C F S1700000x1 .i32 :=
  broadcastInDim S1700000x1 ![0] bcast_S1700000_S1700000x1_0
    (select (cmpi .slt r (broadcastInDim S1700000 ![] bcast_S_S1700000 (constantI S_ 32 0#32) : C F S1700000 .i32))
      (addi r (broadcastInDim S1700000 ![] bcast_S_S1700000 (constantI S_ 32 100000#32) : C F S1700000 .i32)) r)

def normE (r c : C F S1700000 .i32) (w : C F S1700000 .f32) : C F S1700000 .f32 :=
  mulf (mulf (Host.gather gather_S100000_S1700000x1_S1700000_n_0_n_n_0_1_1 (disV (degV c w)) (gIdx r)) w)
    (Host.gather gather_S100000_S1700000x1_S1700000_n_0_n_n_0_1_1 (disV (degV c w)) (gIdx c))

def aggr (hw : C F S100000x64 .f32) (r c : C F S1700000 .i32) (nrm : C F S1700000 .f32) : C F S100000x64 .f32 :=
  Host.scatterAdd scatter_S100000x64_S1700000x1_S1700000x64_1_0_0_1
    (broadcastInDim S100000x64 ![] bcast_S_S100000x64 (constant (F := F) S_ .f32 0x00000000#32) : C F S100000x64 .f32)
    (broadcastInDim S1700000x1 ![0] bcast_S1700000_S1700000x1_0 c : C F S1700000x1 .i32)
    (mulf (Host.gather gather_S100000x64_S1700000x1_S1700000x64_1_0_n_n_0_1_164 hw (gIdx r))
      (broadcastInDim S1700000x64 ![0, 1] bcast_S1700000x1_S1700000x64_0_1
        (broadcastInDim S1700000x1 ![0] bcast_S1700000_S1700000x1_0 nrm : C F S1700000x1 .f32) : C F S1700000x64 .f32))

def row1 (b : C F S64 .f32) : C F S1x64 .f32 := shapeCast S1x64 b shapeCasts_S64_S1x64

def rowB (b : C F S64 .f32) : C F S100000x64 .f32 := broadcastInDim S100000x64 ![0, 1] bcast_S1x64_S100000x64_0_1 (row1 b)

def sumV (a : C F S100000x64 .f32) : C F S64 .f32 :=
  Host.reduceAdd a (constant (F := F) S_ .f32 0x00000000#32) reducesTo_S100000x64_S64_d0 h_S_

def meanV (a : C F S100000x64 .f32) : C F S64 .f32 :=
  Host.divf (sumV a) (broadcastInDim S64 ![] bcast_S_S64 (constant (F := F) S_ .f32 0x47C35000#32) : C F S64 .f32)

/-- The array minus its column means, the means here as the variance computes them (a 1×64 row divided by the count). -/
def centred (a : C F S100000x64 .f32) : C F S100000x64 .f32 :=
  subf a (broadcastInDim S100000x64 ![0, 1] bcast_S1x64_S100000x64_0_1
    (Host.divf (broadcastInDim S1x64 ![1] bcast_S64_S1x64_1 (sumV a) : C F S1x64 .f32)
      (broadcastInDim S1x64 ![] bcast_S_S1x64 (constant (F := F) S_ .f32 0x47C35000#32) : C F S1x64 .f32)) : C F S100000x64 .f32)

/-- The count the sum of squares is divided by: 100000 minus zero degrees of freedom. -/
def cnt : C F S_ .f32 := subf (constant (F := F) S_ .f32 0x47C35000#32) (sitofp .f32 (constantI S_ 32 0#32 : C F S_ .i32))

def varV (a : C F S100000x64 .f32) : C F S64 .f32 :=
  select (broadcastInDim S64 ![] bcast_S_S64 (cmpf .ogt cnt (constant (F := F) S_ .f32 0x00000000#32) : C F S_ .i1) : C F S64 .i1)
    (Host.divf (sumV (mulf (centred a) (centred a))) (broadcastInDim S64 ![] bcast_S_S64 cnt : C F S64 .f32))
    (broadcastInDim S64 ![] bcast_S_S64 (id (constant (F := F) S_ .f32 0x7FC00000#32)) : C F S64 .f32)

def invstdV (a : C F S100000x64 .f32) : C F S64 .f32 :=
  Host.rsqrt (addf (varV a) (broadcastInDim S64 ![] bcast_S_S64 (constant (F := F) S_ .f32 0x3727C5AC#32) : C F S64 .f32))

def sliceL (o : C F S100000x128 .f32) : C F S100000x64 .f32 := extractStridedSlice S100000x64 ![0, 0] o slices_S100000x128_S100000x64_0_0

def sliceR (o : C F S100000x128 .f32) : C F S100000x64 .f32 := extractStridedSlice S100000x64 ![0, 64] o slices_S100000x128_S100000x64_0_64

def wCat (w1 pw : C F S128x64 .f32) : C F S128x128 .f32 :=
  concatenate S128x128 1 [⟨S128x64, w1⟩, ⟨S128x64, pw⟩] concatenates_S128x64_S128x64_S128x128_d1

def bCat (pb : C F S64 .f32) : C F S1x128 .f32 :=
  shapeCast S1x128
    (concatenate S128 0 [⟨S64, (broadcastInDim S64 ![] bcast_S_S64 (constant (F := F) S_ .f32 0x00000000#32) : C F S64 .f32)⟩, ⟨S64, pb⟩]
      concatenates_S64_S64_S128_d0 : C F S128 .f32) shapeCasts_S128_S1x128

def zeroRow : C F S1x64 .f32 := broadcastInDim S1x64 ![] bcast_S_S1x64 (constant (F := F) S_ .f32 0x00000000#32)

end Cert.KernelIdeal.KStage

end
-- ==== Proof.KRead.lean ====
/-
  The kernel program's stretches of host operations read back: from ANY buffer contents `W`, the contents after a
  stretch, at each buffer a later region or stretch reads, is a stage function (KStage) of `W` at the buffers the
  stretch reads; a buffer the stretch does not write keeps its contents.
-/
import proofs.«173734_j34540126994670_1_alg».proof.Proof.Gen.KernelIdeal.Launch
import proofs.«173734_j34540126994670_1_alg».proof.Proof.KStage
import Idealize.ShloMosaic.Lib.StableHlo.Run

set_option maxRecDepth 16384

noncomputable section

namespace Cert.KernelIdeal.KRead

open Cert.KernelIdeal Cert.KernelIdeal.Gen Cert.KernelIdeal.KStage
open Idealize.ShloMosaic Idealize.ShloMosaic.TcCoe Idealize.ShloMosaic.StableHlo

variable {F : FTy → Type} [FloatOps F]

/-- The five stretches before the first region, in order. -/
abbrev E5 (W : Valuation τ sig (Elt F)) : Valuation τ sig (Elt F) :=
  after hostOps0_4 (after hostOps0_3 (after hostOps0_2 (after hostOps0_1 (after hostOps0 W))))
/-- The three stretches between the first and the second region. -/
abbrev E9 (W : Valuation τ sig (Elt F)) : Valuation τ sig (Elt F) :=
  after hostOps1_2 (after hostOps1_1 (after hostOps1 W))
/-- The stretch between the second and the third region. -/
abbrev E11 (W : Valuation τ sig (Elt F)) : Valuation τ sig (Elt F) := after hostOps2 W
/-- The three stretches between the third and the fourth region. -/
abbrev E15 (W : Valuation τ sig (Elt F)) : Valuation τ sig (Elt F) :=
  after hostOps3_2 (after hostOps3_1 (after hostOps3 W))

variable (W : Valuation τ sig (Elt F))

/-! ## Before the first region -/

theorem E5_v3 : E5 W (Proc.devRef .tc main_v3) = rowIx (W (Proc.devRef .tc main_arg1)) := by
  after_results_simp; rfl
theorem E5_v6 : E5 W (Proc.devRef .tc main_v6) = colIx (W (Proc.devRef .tc main_arg1)) := by
  after_results_simp; rfl
theorem E5_v34 : E5 W (Proc.devRef .tc main_v34)
    = normE (rowIx (W (Proc.devRef .tc main_arg1))) (colIx (W (Proc.devRef .tc main_arg1))) (wAll (W (Proc.devRef .tc main_arg2))) := by
  after_results_simp; rfl
theorem E5_v35 : E5 W (Proc.devRef .tc main_v35) = wCat (W (Proc.devRef .tc main_arg3)) (W (Proc.devRef .tc main_arg11)) := by
  after_results_simp; rfl
theorem E5_v38 : E5 W (Proc.devRef .tc main_v38) = bCat (W (Proc.devRef .tc main_arg12)) := by
  after_results_simp; rfl
theorem E5_arg0 : E5 W (Proc.devRef .tc main_arg0) = W (Proc.devRef .tc main_arg0) := by after_results_simp
theorem E5_arg4 : E5 W (Proc.devRef .tc main_arg4) = W (Proc.devRef .tc main_arg4) := by after_results_simp
theorem E5_arg5 : E5 W (Proc.devRef .tc main_arg5) = W (Proc.devRef .tc main_arg5) := by after_results_simp
theorem E5_arg6 : E5 W (Proc.devRef .tc main_arg6) = W (Proc.devRef .tc main_arg6) := by after_results_simp
theorem E5_arg7 : E5 W (Proc.devRef .tc main_arg7) = W (Proc.devRef .tc main_arg7) := by after_results_simp
theorem E5_arg8 : E5 W (Proc.devRef .tc main_arg8) = W (Proc.devRef .tc main_arg8) := by after_results_simp
theorem E5_arg9 : E5 W (Proc.devRef .tc main_arg9) = W (Proc.devRef .tc main_arg9) := by after_results_simp
theorem E5_arg10 : E5 W (Proc.devRef .tc main_arg10) = W (Proc.devRef .tc main_arg10) := by after_results_simp

/-! ## Between the first and the second region -/

/-- The first layer's aggregate plus its bias row, from the contents the first region leaves. -/
def agg1 (W : Valuation τ sig (Elt F)) : C F S100000x64 .f32 :=
  addf (aggr (sliceL (W (Proc.devRef .tc main_v39))) (W (Proc.devRef .tc main_v3)) (W (Proc.devRef .tc main_v6)) (W (Proc.devRef .tc main_v34))) (rowB (W (Proc.devRef .tc main_arg4)))

theorem E9_v57 : E9 W (Proc.devRef .tc main_v57) = agg1 W := by
  after_results_simp; rfl
theorem E9_v41 : E9 W (Proc.devRef .tc main_v41) = sliceR (W (Proc.devRef .tc main_v39)) := by
  after_results_simp; rfl
theorem E9_v61 : E9 W (Proc.devRef .tc main_v61) = row1 (meanV (agg1 W)) := by
  after_results_simp; rfl
theorem E9_v66 : E9 W (Proc.devRef .tc main_v66) = row1 (invstdV (agg1 W)) := by
  after_results_simp; rfl
theorem E9_v67 : E9 W (Proc.devRef .tc main_v67) = row1 (W (Proc.devRef .tc main_arg5)) := by
  after_results_simp; rfl
theorem E9_v68 : E9 W (Proc.devRef .tc main_v68) = row1 (W (Proc.devRef .tc main_arg6)) := by
  after_results_simp; rfl
theorem E9_v3 : E9 W (Proc.devRef .tc main_v3) = W (Proc.devRef .tc main_v3) := by after_results_simp
theorem E9_v6 : E9 W (Proc.devRef .tc main_v6) = W (Proc.devRef .tc main_v6) := by after_results_simp
theorem E9_v34 : E9 W (Proc.devRef .tc main_v34) = W (Proc.devRef .tc main_v34) := by after_results_simp
theorem E9_arg7 : E9 W (Proc.devRef .tc main_arg7) = W (Proc.devRef .tc main_arg7) := by after_results_simp
theorem E9_arg8 : E9 W (Proc.devRef .tc main_arg8) = W (Proc.devRef .tc main_arg8) := by after_results_simp
theorem E9_arg9 : E9 W (Proc.devRef .tc main_arg9) = W (Proc.devRef .tc main_arg9) := by after_results_simp
theorem E9_arg10 : E9 W (Proc.devRef .tc main_arg10) = W (Proc.devRef .tc main_arg10) := by after_results_simp

/-! ## Between the second and the third region -/

theorem E11_v70 : E11 W (Proc.devRef .tc main_v70) = zeroRow := by
  after_results_simp; rfl
theorem E11_v69 : E11 W (Proc.devRef .tc main_v69) = W (Proc.devRef .tc main_v69) := by after_results_simp
theorem E11_v3 : E11 W (Proc.devRef .tc main_v3) = W (Proc.devRef .tc main_v3) := by after_results_simp
theorem E11_v6 : E11 W (Proc.devRef .tc main_v6) = W (Proc.devRef .tc main_v6) := by after_results_simp
theorem E11_v34 : E11 W (Proc.devRef .tc main_v34) = W (Proc.devRef .tc main_v34) := by after_results_simp
theorem E11_arg7 : E11 W (Proc.devRef .tc main_arg7) = W (Proc.devRef .tc main_arg7) := by after_results_simp
theorem E11_arg8 : E11 W (Proc.devRef .tc main_arg8) = W (Proc.devRef .tc main_arg8) := by after_results_simp
theorem E11_arg9 : E11 W (Proc.devRef .tc main_arg9) = W (Proc.devRef .tc main_arg9) := by after_results_simp
theorem E11_arg10 : E11 W (Proc.devRef .tc main_arg10) = W (Proc.devRef .tc main_arg10) := by after_results_simp

/-! ## Between the third and the fourth region -/

/-- The second layer's aggregate plus its bias row, from the contents the third region leaves. -/
def agg2 (W : Valuation τ sig (Elt F)) : C F S100000x64 .f32 :=
  addf (aggr (W (Proc.devRef .tc main_v71)) (W (Proc.devRef .tc main_v3)) (W (Proc.devRef .tc main_v6)) (W (Proc.devRef .tc main_v34))) (rowB (W (Proc.devRef .tc main_arg8)))

theorem E15_v87 : E15 W (Proc.devRef .tc main_v87) = agg2 W := by
  after_results_simp; rfl
theorem E15_v69 : E15 W (Proc.devRef .tc main_v69) = W (Proc.devRef .tc main_v69) := by after_results_simp
theorem E15_v91 : E15 W (Proc.devRef .tc main_v91) = row1 (meanV (agg2 W)) := by
  after_results_simp; rfl
theorem E15_v96 : E15 W (Proc.devRef .tc main_v96) = row1 (invstdV (agg2 W)) := by
  after_results_simp; rfl
theorem E15_v97 : E15 W (Proc.devRef .tc main_v97) = row1 (W (Proc.devRef .tc main_arg9)) := by
  after_results_simp; rfl
theorem E15_v98 : E15 W (Proc.devRef .tc main_v98) = row1 (W (Proc.devRef .tc main_arg10)) := by
  after_results_simp; rfl

end Cert.KernelIdeal.KRead

end
-- ==== Proof.Spec.lean ====
/-
  The two array functions the tiled regions compute, stated entry by entry over the extended reals.

  * `mmBias x w b`: the matrix product of `x` (M×K) and `w` (K×N) with the row `b` (1×N) added to every row:
    entry (r, c) is  ∑ₖ x(r,k)·w(k,c) + b(0,c).
  * `bnReluRes a res mu s g be`: the normalised, rectified array plus a residual: entry (r, c) is
    max (g(0,c)·(a(r,c) − mu(0,c))·s(0,c) + be(0,c)) 0 + res(r,c), the four rows broadcast down the rows.
-/
import Idealize.ShloMosaic.PureOps.Ideal
import Idealize.ShloMosaic.Lib.ValueIdx

noncomputable section

open scoped BigOperators

namespace Cert.GCN

open Idealize.ShloMosaic Idealize.ShloMosaic.ValueIdx

/-- An M×N array of extended reals from its entries by row and column. -/
def ofFn2 {M N : Nat} (g : Fin M → Fin N → EReal) : FVec Ideal ⟨2, ![M, N]⟩ .f32 := fun i => g (i 0) (i 1)

theorem ofFn2_apply {M N : Nat} (g : Fin M → Fin N → EReal) (r : Fin M) (c : Fin N) : ofFn2 g (ix2 r c) = g r c := rfl

/-- `x·w + b`, the row `b` added to every row of the product. -/
def mmBias {M K N : Nat} (x : FVec Ideal ⟨2, ![M, K]⟩ .f32) (w : FVec Ideal ⟨2, ![K, N]⟩ .f32)
    (b : FVec Ideal ⟨2, ![1, N]⟩ .f32) : FVec Ideal ⟨2, ![M, N]⟩ .f32 :=
  ofFn2 fun r c => (∑ k : Fin K, x (ix2 r k) * w (ix2 k c)) + b (ix2 (0 : Fin 1) c)

theorem mmBias_apply {M K N : Nat} (x : FVec Ideal ⟨2, ![M, K]⟩ .f32) (w : FVec Ideal ⟨2, ![K, N]⟩ .f32)
    (b : FVec Ideal ⟨2, ![1, N]⟩ .f32) (r : Fin M) (c : Fin N) :
    mmBias x w b (ix2 r c) = (∑ k : Fin K, x (ix2 r k) * w (ix2 k c)) + b (ix2 (0 : Fin 1) c) := rfl

/-- `max (g·(a − mu)·s + be) 0 + res`, the rows `mu s g be` broadcast down the rows of `a`. -/
def bnReluRes {M N : Nat} (a res : FVec Ideal ⟨2, ![M, N]⟩ .f32) (mu s g be : FVec Ideal ⟨2, ![1, N]⟩ .f32) :
    FVec Ideal ⟨2, ![M, N]⟩ .f32 :=
  ofFn2 fun r c =>
    max (g (ix2 (0 : Fin 1) c) * (a (ix2 r c) - mu (ix2 (0 : Fin 1) c)) * s (ix2 (0 : Fin 1) c) + be (ix2 (0 : Fin 1) c)) 0
      + res (ix2 r c)

theorem bnReluRes_apply {M N : Nat} (a res : FVec Ideal ⟨2, ![M, N]⟩ .f32) (mu s g be : FVec Ideal ⟨2, ![1, N]⟩ .f32)
    (r : Fin M) (c : Fin N) :
    bnReluRes a res mu s g be (ix2 r c)
      = max (g (ix2 (0 : Fin 1) c) * (a (ix2 r c) - mu (ix2 (0 : Fin 1) c)) * s (ix2 (0 : Fin 1) c) + be (ix2 (0 : Fin 1) c)) 0
          + res (ix2 r c) := rfl

end Cert.GCN

end
-- ==== Proof.LibPlainDot.lean ====
/-
  A plain matrix product read at coordinates.

  For the dimension numbers of an `M×K` by `K×N` product (contract the left operand's second axis with the right
  operand's first, no batch axes), the contraction's sum at the output entry `(r, c)` is the textbook
  `∑ k, lhs (r, k) * rhs (k, c)`: the one-axis contraction index is re-indexed by its coordinate.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The dimension numbers `<[1], [0], [0], [1]>` of an `M×K` by `K×N` product, at any witness of their conditions. -/
abbrev dims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's index at output `(r, c)` and contraction index `q` is `(r, q)`. -/
theorem lhsIdx_eq (r : Fin M) (c : Fin N) (k : Fin K) :
    (dims M K N wf).lhsIdx (ix2 r c) ((contrEquiv1 (dims M K N wf) K rfl rfl).symm k) = ix2 r k := by
  have hk := contrEquiv1_symm_val (dims M K N wf) K rfl rfl k
  funext a
  refine Fin.ext ?_
  match a with
  | ⟨0, _⟩ =>
    show ((dims M K N wf).lhsIdx (ix2 r c) _ 0).val = r.val
    unfold DotDims.lhsIdx
    rw [dif_neg (show ¬(0 : Fin 2) ∈ (dims M K N wf).lhsBatch from List.not_mem_nil),
      dif_pos (show (0 : Fin 2) ∈ (dims M K N wf).lhsNonContracting from List.mem_singleton.mpr rfl)]
    rfl
  | ⟨1, _⟩ =>
    exact ((dims M K N wf).lhsIdx_val_of_single rfl (ix2 r c) _).trans hk

/-- The right operand's index at output `(r, c)` and contraction index `q` is `(q, c)`. -/
theorem rhsIdx_eq (r : Fin M) (c : Fin N) (k : Fin K) :
    (dims M K N wf).rhsIdx (ix2 r c) ((contrEquiv1 (dims M K N wf) K rfl rfl).symm k) = ix2 k c := by
  have hk := contrEquiv1_symm_val (dims M K N wf) K rfl rfl k
  funext a
  refine Fin.ext ?_
  match a with
  | ⟨0, _⟩ =>
    exact ((dims M K N wf).rhsIdx_val_of_single rfl (ix2 r c) _).trans hk
  | ⟨1, _⟩ =>
    show ((dims M K N wf).rhsIdx (ix2 r c) _ 1).val = c.val
    unfold DotDims.rhsIdx
    rw [dif_neg (show ¬(1 : Fin 2) ∈ (dims M K N wf).rhsBatch from List.not_mem_nil),
      dif_pos (show (1 : Fin 2) ∈ (dims M K N wf).rhsNonContracting from List.mem_singleton.mpr rfl)]
    rfl

/-- THE CONTRACTION at `(r, c)`: the sum over `k` of `lhs (r, k) * rhs (k, c)`. -/
theorem contraction_apply (lhs : (⟨2, ![M, K]⟩ : Shape).Idx → EReal) (rhs : (⟨2, ![K, N]⟩ : Shape).Idx → EReal)
    (r : Fin M) (c : Fin N) :
    (∑ q : (dims M K N wf).contr.Idx,
        lhs ((dims M K N wf).lhsIdx (ix2 r c) q) * rhs ((dims M K N wf).rhsIdx (ix2 r c) q))
      = ∑ k : Fin K, lhs (ix2 r k) * rhs (ix2 k c) := by
  rw [← Equiv.sum_comp (contrEquiv1 (dims M K N wf) K rfl rfl).symm]
  refine Finset.sum_congr rfl fun k _ => ?_
  rw [lhsIdx_eq wf r c k, rhsIdx_eq wf r c k]

/-- A matrix-unit product into a zero accumulator, at the exact-real instance, read at `(r, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (dims M K N wf) prec lhs rhs (constant ⟨2, ![M, N]⟩ .f32 0x00000000#32) (ix2 r c)
      = ∑ k : Fin K, lhs (ix2 r k) * rhs (ix2 k c) := by
  rw [Ideal.matmul_constant_zero_apply]
  exact contraction_apply wf lhs rhs r c

/-- The host's product, at the exact-real instance, read at `(r, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (dims M K N wf) prec sched lhs rhs (ix2 r c)
      = ∑ k : Fin K, lhs (ix2 r k) * rhs (ix2 k c) := by
  rw [Ideal.dotGeneral_apply]
  exact contraction_apply wf lhs rhs r c

end Idealize.ShloMosaic.PlainDot

end
-- ==== Proof.RegionValues0.lean ====
/-
  The first tiled region (a matrix product plus a bias row), read as one array.

  The region walks 20 blocks of 5000 rows. At block t it loads rows 5000·t … 5000·t + 4999 of the left operand `x`, and the
  weight matrix `w` and the one-row bias `b` whole; it stores, at row r and column c of the block,
  ∑ₖ x(R,k)·w(k,c) + b(0,c) with R = 5000·t + r (the narrowing of the operands' float format before the product is the
  identity on extended reals, and the product accumulates into zero). Every row R of the output lies in exactly the block
  t = R / 5000, so the 20 write-backs leave the whole-array function `Cert.GCN.mmBias` of the three input arrays,
  whatever those arrays hold when the region is entered.
-/
import proofs.«173734_j34540126994670_1_alg».proof.Proof.Gen.KernelIdeal.Frame
import proofs.«173734_j34540126994670_1_alg».proof.Proof.Spec
import proofs.«173734_j34540126994670_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.RegionValues

open Cert.KernelIdeal Cert.KernelIdeal.Gen

/-- The zero offsets of a whole-buffer access, as the constant function. -/
theorem hz0 : (![0, 0] : Fin 2 → Nat) = fun _ => 0 := funext fun a => by fin_cases a <;> rfl

/-- The product-plus-bias payload at row r, column c: the row of x against the column of w, plus the bias row at c.
    The change of float format before the product is the identity on extended reals. -/
theorem mm_pay0_apply (x : Vec Ideal S5000x128 .f32) (w : Vec Ideal S128x128 .f32) (b : Vec Ideal S1x128 .f32)
    (r : Fin 5000) (c : Fin 128) :
    k0_pay1 (F := Ideal) x w b (ix2 r c) = (∑ k : Fin 128, x (ix2 r k) * w (ix2 k c)) + b (ix2 (0 : Fin 1) c) := by
  unfold k0_pay1
  simp only [shapeCast_self]
  rw [addf_apply, broadcastTo_1b_ab_apply]
  refine congrArg (· + b (ix2 (0 : Fin 1) c)) ?_
  have hd : dot_S5000x128_S128x128_S5000x128_1_0_0_1_n_n
      = PlainDot.dims 5000 128 128 Facts₀.dot_S5000x128_S128x128_S5000x128_1_0_0_1_n_n_wf := rfl
  rw [hd]
  exact PlainDot.matmul_zero_apply Facts₀.dot_S5000x128_S128x128_S5000x128_1_0_0_1_n_n_wf none
    (truncf .bf16 x _) (truncf .bf16 w _) r c

/-- An entry of a block's payload is the entry of the whole-array function at the row the block's row stands for,
    once the loaded blocks are known to hold their arrays' entries there. -/
theorem mm_entry0 (X : FVec Ideal ⟨2, ![100000, 128]⟩ .f32) (W : FVec Ideal ⟨2, ![128, 128]⟩ .f32) (B : FVec Ideal ⟨2, ![1, 128]⟩ .f32)
    (x0 : Vec Ideal S5000x128 .f32) (x1 : Vec Ideal S128x128 .f32) (x2 : Vec Ideal S1x128 .f32)
    (r : Fin 5000) (cc : Fin 128) (R : Fin 100000)
    (h0 : ∀ k : Fin 128, x0 (ix2 r k) = X (ix2 R k)) (h1 : ∀ k : Fin 128, x1 (ix2 k cc) = W (ix2 k cc))
    (h2 : x2 (ix2 (0 : Fin 1) cc) = B (ix2 (0 : Fin 1) cc)) :
    k0_pay1 (F := Ideal) x0 x1 x2 (ix2 r cc) = Cert.GCN.mmBias X W B (ix2 R cc) := by
  rw [mm_pay0_apply, Cert.GCN.mmBias_apply, h2]
  exact congrArg (· + B (ix2 (0 : Fin 1) cc)) (Finset.sum_congr rfl fun k _ => by rw [h0 k, h1 k])

variable (V : (c : Dev nD) → (b : Ref sig .tc) → Buf (Elt Ideal) ((c : Thread nD τ).loc b))

/-- The block index maps of region 0 over its 20 points: the row-blocked windows sit at block (t, 0), the weight and the
    bias row at (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Window 0's block at point t holds rows 5000·t … 5000·t + 4999 of the left operand. -/
theorem iblk0_0_apply (c : Dev nD) (t : Fin cfg0.N) (r : Fin 5000) (k : Fin 128) (R : Fin 100000)
    (hR : R.val = t.val * 5000 + r.val) :
    (iblk0 (F := Ideal) V c 0 t : Vec Ideal S5000x128 .f32) (ix2 r k) = (V c main_arg0 : S100000x128.Idx → Elt Ideal .f32) (ix2 R k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 5000 + 1 * r.val = R.val; rw [e0, hR]; omega
  | ⟨1, _⟩ => show win0_0.index t 1 * 128 + 1 * k.val = k.val; rw [e1]; omega

/-- Window 1 holds, at every point, the whole weight matrix. -/
theorem iblk0_1_apply (c : Dev nD) (t : Fin cfg0.N) (k cc : Fin 128) :
    (iblk0 (F := Ideal) V c 1 t : Vec Ideal S128x128 .f32) (ix2 k cc) = (V c main_v35 : S128x128.Idx → Elt Ideal .f32) (ix2 k cc) := by
  obtain ⟨-, -, e0, e1, -⟩ := idx_facts0 t
  unfold iblk0
  rw [View.read_apply]
  show V c main_v35 _ = V c main_v35 _
  congr 1
  funext a
  apply Fin.ext
  match a with
  | ⟨0, _⟩ => show win0_1.index t 0 * 128 + 1 * k.val = k.val; rw [e0]; omega
  | ⟨1, _⟩ => show win0_1.index t 1 * 128 + 1 * cc.val = cc.val; rw [e1]; omega

/-- Window 2 holds, at every point, the whole bias row. -/
theorem iblk0_2_apply (c : Dev nD) (t : Fin cfg0.N) (cc : Fin 128) :
    (iblk0 (F := Ideal) V c 2 t : Vec Ideal S1x128 .f32) (ix2 (0 : Fin 1) cc) = (V c main_v38 : S1x128.Idx → Elt Ideal .f32) (ix2 (0 : Fin 1) cc) := by
  obtain ⟨-, -, -, -, e0, e1, -⟩ := idx_facts0 t
  unfold iblk0
  rw [View.read_apply]
  show V c main_v38 _ = V c main_v38 _
  congr 1
  funext a
  apply Fin.ext
  match a with
  | ⟨0, _⟩ => show win0_2.index t 0 * 1 + 1 * 0 = 0; rw [e0]
  | ⟨1, _⟩ => show win0_2.index t 1 * 128 + 1 * cc.val = cc.val; rw [e1]; omega

/-- WHAT POINT t WRITES BACK: block t of the whole-array function of the region's three input arrays. -/
theorem flushed0_eq (c : Dev nD) (t : Fin cfg0.N) :
    (dat0 (F := Ideal) V c).flushed 3 t = ((cfg0.win 3).blk t).view.read (Elt Ideal)
      (Cert.GCN.mmBias (V c main_arg0) (V c main_v35) (V c main_v38)) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S128x128) hz0, View.ld_unit_zero (S := S1x128) hz0]
  have hN : t.val < 20 := lt_of_lt_of_eq t.isLt N_0
  obtain ⟨-, -, -, -, -, -, e0, e1⟩ := idx_facts0 t
  funext j
  obtain ⟨r, cc, rfl⟩ : ∃ (r : Fin 5000) (cc : Fin 128), j = ix2 r cc := ⟨j 0, j 1, eq_ix2 j⟩
  have hr : ((cfg0.win 3).blk t).view.emb (ix2 r cc) = ix2 (⟨t.val * 5000 + r.val, by have := r.isLt; omega⟩ : Fin 100000) cc := by
    funext a
    apply Fin.ext
    match a with
    | ⟨0, _⟩ => show win0_3.index t 0 * 5000 + 1 * r.val = t.val * 5000 + r.val; rw [e0]; omega
    | ⟨1, _⟩ => show win0_3.index t 1 * 128 + 1 * cc.val = cc.val; rw [e1]; omega
  refine (mm_entry0 (V c main_arg0) (V c main_v35) (V c main_v38)
    (iblk0 V c 0 t) (iblk0 V c 1 t) (iblk0 V c 2 t) r cc
    (⟨t.val * 5000 + r.val, by have := r.isLt; omega⟩ : Fin 100000)
    (fun k => iblk0_0_apply V c t r k _ rfl) (fun k => iblk0_1_apply V c t k cc) (iblk0_2_apply V c t cc)).trans ?_
  exact (congrArg (Cert.GCN.mmBias (V c main_arg0) (V c main_v35) (V c main_v38)) hr).symm

/-- An index of the output array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v39).slice (win0_3.rect t)).set ↔ _
  rw [View.set_slice_whole, Rect.mem_set_unit]
  exact Iff.rfl

/-- Every row of the output lies in the block of the point its row number divided by 5000 names. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hlt : (i 0).val / 5000 < cfg0.N := lt_of_lt_of_eq (show (i 0).val / 5000 < 20 by omega) N_0.symm
  obtain ⟨-, -, -, -, -, -, e0, e1⟩ := idx_facts0 ⟨(i 0).val / 5000, hlt⟩
  refine ⟨⟨(i 0).val / 5000, hlt⟩, flush0_3 _, ?_⟩
  rw [mem_blk0]
  intro a
  match a with
  | ⟨0, _⟩ =>
    show win0_3.index ⟨(i 0).val / 5000, hlt⟩ 0 * 5000 ≤ (i 0).val ∧ (i 0).val < win0_3.index ⟨(i 0).val / 5000, hlt⟩ 0 * 5000 + 5000
    rw [e0]; show (i 0).val / 5000 * 5000 ≤ (i 0).val ∧ (i 0).val < (i 0).val / 5000 * 5000 + 5000; omega
  | ⟨1, _⟩ =>
    show win0_3.index ⟨(i 0).val / 5000, hlt⟩ 1 * 128 ≤ (i 1).val ∧ (i 1).val < win0_3.index ⟨(i 0).val / 5000, hlt⟩ 1 * 128 + 128
    rw [e1]; omega

/-- REGION 0: the array it leaves is the product of its first two input arrays with the bias row added to every row. -/
theorem region0_value (c : Dev nD) :
    (dat0 (F := Ideal) V c).arrAt 3 cfg0.N = Cert.GCN.mmBias (V c main_arg0) (V c main_v35) (V c main_v38) :=
  (dat0 (F := Ideal) V c).arrAt_eq_of_cover 3 _ (fun t _ => flushed0_eq V c t) cover0

end Cert.KernelIdeal.RegionValues

end
-- ==== Proof.RegionValues1.lean ====
/-
  The second tiled region (normalise, rectify, add the residual), read as one array.

  The region walks 20 blocks of 5000 rows. At block t it loads rows 5000·t … 5000·t + 4999 of the array `a` and of the
  residual `res`, and the four one-row arrays `mu`, `s`, `g`, `be` whole; it stores, at row r and column c of the block,
  max (g(0,c)·(a(R,c) − mu(0,c))·s(0,c) + be(0,c)) 0 + res(R,c) with R = 5000·t + r. Every row R of the output lies in
  exactly the block t = R / 5000, so the 20 write-backs leave the whole-array function `Cert.GCN.bnReluRes` of the six
  input arrays, whatever those arrays hold when the region is entered.
-/
import proofs.«173734_j34540126994670_1_alg».proof.Proof.Gen.KernelIdeal.Frame
import proofs.«173734_j34540126994670_1_alg».proof.Proof.Spec
import proofs.«173734_j34540126994670_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.RegionValues

open Cert.KernelIdeal Cert.KernelIdeal.Gen

/-- The zero offsets of a whole-buffer access, as the constant function. -/
theorem hz1 : (![0, 0] : Fin 2 → Nat) = fun _ => 0 := funext fun a => by fin_cases a <;> rfl

/-- The normalise–rectify–add-residual payload at row r, column c. -/
theorem bn_pay1_apply (a : Vec Ideal S5000x64 .f32) (g mu s be : Vec Ideal S1x64 .f32) (res : Vec Ideal S5000x64 .f32)
    (r : Fin 5000) (c : Fin 64) :
    k1_pay1 (F := Ideal) a g mu s be res (ix2 r c)
      = max (g (ix2 (0 : Fin 1) c) * (a (ix2 r c) - mu (ix2 (0 : Fin 1) c)) * s (ix2 (0 : Fin 1) c) + be (ix2 (0 : Fin 1) c)) 0
          + res (ix2 r c) := by
  unfold k1_pay1
  simp only [shapeCast_self]
  rw [addf_apply, maximumf_apply, addf_apply, mulf_apply, mulf_apply, subf_apply, broadcast_apply]
  rw [broadcastTo_1b_ab_apply, broadcastTo_1b_ab_apply, broadcastTo_1b_ab_apply, broadcastTo_1b_ab_apply]
  rw [Ideal.ofBits_def, Ideal.ofBits_zero_f32]

/-- An entry of a block's payload is the entry of the whole-array function at the row the block's row stands for,
    once each loaded block is known to hold its array's entries there. -/
theorem bn_entry1 (A RES : FVec Ideal ⟨2, ![100000, 64]⟩ .f32) (MU SS GG BE : FVec Ideal ⟨2, ![1, 64]⟩ .f32)
    (x0 x1 : Vec Ideal S5000x64 .f32) (x2 x3 x4 x5 : Vec Ideal S1x64 .f32) (r : Fin 5000) (cc : Fin 64) (R : Fin 100000)
    (h0 : x0 (ix2 r cc) = A (ix2 R cc)) (h1 : x1 (ix2 r cc) = RES (ix2 R cc))
    (h2 : x2 (ix2 (0 : Fin 1) cc) = MU (ix2 (0 : Fin 1) cc)) (h3 : x3 (ix2 (0 : Fin 1) cc) = SS (ix2 (0 : Fin 1) cc))
    (h4 : x4 (ix2 (0 : Fin 1) cc) = GG (ix2 (0 : Fin 1) cc)) (h5 : x5 (ix2 (0 : Fin 1) cc) = BE (ix2 (0 : Fin 1) cc)) :
    k1_pay1 (F := Ideal) x0 x4 x2 x3 x5 x1 (ix2 r cc) = Cert.GCN.bnReluRes A RES MU SS GG BE (ix2 R cc) := by
  rw [bn_pay1_apply, Cert.GCN.bnReluRes_apply, h0, h1, h2, h3, h4, h5]

variable (V : (c : Dev nD) → (b : Ref sig .tc) → Buf (Elt Ideal) ((c : Thread nD τ).loc b))

/-- The block index maps of region 1 over its 20 points: the row-blocked windows sit at block (t, 0), the rows at (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Window 0's block at point t holds rows 5000·t … 5000·t + 4999 of the normalised array. -/
theorem iblk1_0_apply (c : Dev nD) (t : Fin cfg1.N) (r : Fin 5000) (cc : Fin 64) (R : Fin 100000)
    (hR : R.val = t.val * 5000 + r.val) :
    (iblk1 (F := Ideal) V c 0 t : Vec Ideal S5000x64 .f32) (ix2 r cc) = (V c main_v57 : S100000x64.Idx → Elt Ideal .f32) (ix2 R cc) := by
  obtain ⟨e0, e1, -⟩ := idx_facts1 t
  unfold iblk1
  rw [View.read_apply]
  show V c main_v57 _ = V c main_v57 _
  congr 1
  funext a
  apply Fin.ext
  match a with
  | ⟨0, _⟩ => show win1_0.index t 0 * 5000 + 1 * r.val = R.val; rw [e0, hR]; omega
  | ⟨1, _⟩ => show win1_0.index t 1 * 64 + 1 * cc.val = cc.val; rw [e1]; omega

/-- Window 1's block at point t holds the same rows of the residual array. -/
theorem iblk1_1_apply (c : Dev nD) (t : Fin cfg1.N) (r : Fin 5000) (cc : Fin 64) (R : Fin 100000)
    (hR : R.val = t.val * 5000 + r.val) :
    (iblk1 (F := Ideal) V c 1 t : Vec Ideal S5000x64 .f32) (ix2 r cc) = (V c main_v41 : S100000x64.Idx → Elt Ideal .f32) (ix2 R cc) := by
  obtain ⟨-, -, e0, e1, -⟩ := idx_facts1 t
  unfold iblk1
  rw [View.read_apply]
  show V c main_v41 _ = V c main_v41 _
  congr 1
  funext a
  apply Fin.ext
  match a with
  | ⟨0, _⟩ => show win1_1.index t 0 * 5000 + 1 * r.val = R.val; rw [e0, hR]; omega
  | ⟨1, _⟩ => show win1_1.index t 1 * 64 + 1 * cc.val = cc.val; rw [e1]; omega

/-- Windows 2 to 5 hold, at every point, the whole of their one-row arrays. -/
theorem iblk1_2_apply (c : Dev nD) (t : Fin cfg1.N) (cc : Fin 64) :
    (iblk1 (F := Ideal) V c 2 t : Vec Ideal S1x64 .f32) (ix2 (0 : Fin 1) cc) = (V c main_v61 : S1x64.Idx → Elt Ideal .f32) (ix2 (0 : Fin 1) cc) := by
  obtain ⟨-, -, -, -, e0, e1, -⟩ := idx_facts1 t
  unfold iblk1
  rw [View.read_apply]
  show V c main_v61 _ = V c main_v61 _
  congr 1
  funext a
  apply Fin.ext
  match a with
  | ⟨0, _⟩ => show win1_2.index t 0 * 1 + 1 * 0 = 0; rw [e0]
  | ⟨1, _⟩ => show win1_2.index t 1 * 64 + 1 * cc.val = cc.val; rw [e1]; omega

theorem iblk1_3_apply (c : Dev nD) (t : Fin cfg1.N) (cc : Fin 64) :
    (iblk1 (F := Ideal) V c 3 t : Vec Ideal S1x64 .f32) (ix2 (0 : Fin 1) cc) = (V c main_v66 : S1x64.Idx → Elt Ideal .f32) (ix2 (0 : Fin 1) cc) := by
  obtain ⟨-, -, -, -, -, -, e0, e1, -⟩ := idx_facts1 t
  unfold iblk1
  rw [View.read_apply]
  show V c main_v66 _ = V c main_v66 _
  congr 1
  funext a
  apply Fin.ext
  match a with
  | ⟨0, _⟩ => show win1_3.index t 0 * 1 + 1 * 0 = 0; rw [e0]
  | ⟨1, _⟩ => show win1_3.index t 1 * 64 + 1 * cc.val = cc.val; rw [e1]; omega

theorem iblk1_4_apply (c : Dev nD) (t : Fin cfg1.N) (cc : Fin 64) :
    (iblk1 (F := Ideal) V c 4 t : Vec Ideal S1x64 .f32) (ix2 (0 : Fin 1) cc) = (V c main_v67 : S1x64.Idx → Elt Ideal .f32) (ix2 (0 : Fin 1) cc) := by
  obtain ⟨-, -, -, -, -, -, -, -, e0, e1, -⟩ := idx_facts1 t
  unfold iblk1
  rw [View.read_apply]
  show V c main_v67 _ = V c main_v67 _
  congr 1
  funext a
  apply Fin.ext
  match a with
  | ⟨0, _⟩ => show win1_4.index t 0 * 1 + 1 * 0 = 0; rw [e0]
  | ⟨1, _⟩ => show win1_4.index t 1 * 64 + 1 * cc.val = cc.val; rw [e1]; omega

theorem iblk1_5_apply (c : Dev nD) (t : Fin cfg1.N) (cc : Fin 64) :
    (iblk1 (F := Ideal) V c 5 t : Vec Ideal S1x64 .f32) (ix2 (0 : Fin 1) cc) = (V c main_v68 : S1x64.Idx → Elt Ideal .f32) (ix2 (0 : Fin 1) cc) := by
  obtain ⟨-, -, -, -, -, -, -, -, -, -, e0, e1, -⟩ := idx_facts1 t
  unfold iblk1
  rw [View.read_apply]
  show V c main_v68 _ = V c main_v68 _
  congr 1
  funext a
  apply Fin.ext
  match a with
  | ⟨0, _⟩ => show win1_5.index t 0 * 1 + 1 * 0 = 0; rw [e0]
  | ⟨1, _⟩ => show win1_5.index t 1 * 64 + 1 * cc.val = cc.val; rw [e1]; omega

/-- WHAT POINT t WRITES BACK: block t of the whole-array function of the region's six input arrays. -/
theorem flushed1_eq (c : Dev nD) (t : Fin cfg1.N) :
    (dat1 (F := Ideal) V c).flushed 6 t = ((cfg1.win 6).blk t).view.read (Elt Ideal)
      (Cert.GCN.bnReluRes (V c main_v57) (V c main_v41) (V c main_v61) (V c main_v66) (V c main_v67) (V c main_v68)) := by
  show (cfg1.win 6).cut (grid1.coords t) ((dat1 V c).after 6 t) = _
  rw [after1_6]
  unfold out1_6
  rw [View.canon_unit_zero hz1]
  simp only [View.ld_unit_zero (S := S5000x64) hz1, View.ld_unit_zero (S := S1x64) hz1]
  have hN : t.val < 20 := lt_of_lt_of_eq t.isLt N_1
  obtain ⟨-, -, -, -, -, -, -, -, -, -, -, -, e0, e1⟩ := idx_facts1 t
  funext j
  obtain ⟨r, cc, rfl⟩ : ∃ (r : Fin 5000) (cc : Fin 64), j = ix2 r cc := ⟨j 0, j 1, eq_ix2 j⟩
  have hr : ((cfg1.win 6).blk t).view.emb (ix2 r cc) = ix2 (⟨t.val * 5000 + r.val, by have := r.isLt; omega⟩ : Fin 100000) cc := by
    funext a
    apply Fin.ext
    match a with
    | ⟨0, _⟩ => show win1_6.index t 0 * 5000 + 1 * r.val = t.val * 5000 + r.val; rw [e0]; omega
    | ⟨1, _⟩ => show win1_6.index t 1 * 64 + 1 * cc.val = cc.val; rw [e1]; omega
  refine (bn_entry1 (V c main_v57) (V c main_v41) (V c main_v61) (V c main_v66) (V c main_v67) (V c main_v68)
    (iblk1 V c 0 t) (iblk1 V c 1 t) (iblk1 V c 2 t) (iblk1 V c 3 t) (iblk1 V c 4 t) (iblk1 V c 5 t) r cc
    (⟨t.val * 5000 + r.val, by have := r.isLt; omega⟩ : Fin 100000)
    (iblk1_0_apply V c t r cc _ rfl) (iblk1_1_apply V c t r cc _ rfl)
    (iblk1_2_apply V c t cc) (iblk1_3_apply V c t cc) (iblk1_4_apply V c t cc) (iblk1_5_apply V c t cc)).trans ?_
  exact (congrArg (Cert.GCN.bnReluRes (V c main_v57) (V c main_v41) (V c main_v61) (V c main_v66) (V c main_v67) (V c main_v68)) hr).symm

/-- An index of the output array is in point t's block iff each coordinate is in the block's range on its axis. -/
theorem mem_blk1 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v69).slice (win1_6.rect t)).set ↔ _
  rw [View.set_slice_whole, Rect.mem_set_unit]
  exact Iff.rfl

/-- Every row of the output lies in the block of the point its row number divided by 5000 names. -/
theorem cover1 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hlt : (i 0).val / 5000 < cfg1.N := lt_of_lt_of_eq (show (i 0).val / 5000 < 20 by omega) N_1.symm
  obtain ⟨-, -, -, -, -, -, -, -, -, -, -, -, e0, e1⟩ := idx_facts1 ⟨(i 0).val / 5000, hlt⟩
  refine ⟨⟨(i 0).val / 5000, hlt⟩, flush1_6 _, ?_⟩
  rw [mem_blk1]
  intro a
  match a with
  | ⟨0, _⟩ =>
    show win1_6.index ⟨(i 0).val / 5000, hlt⟩ 0 * 5000 ≤ (i 0).val ∧ (i 0).val < win1_6.index ⟨(i 0).val / 5000, hlt⟩ 0 * 5000 + 5000
    rw [e0]; show (i 0).val / 5000 * 5000 ≤ (i 0).val ∧ (i 0).val < (i 0).val / 5000 * 5000 + 5000; omega
  | ⟨1, _⟩ =>
    show win1_6.index ⟨(i 0).val / 5000, hlt⟩ 1 * 64 ≤ (i 1).val ∧ (i 1).val < win1_6.index ⟨(i 0).val / 5000, hlt⟩ 1 * 64 + 64
    rw [e1]; omega

/-- REGION 1: the array it leaves is the normalised, rectified input plus the residual, as one whole-array function. -/
theorem region1_value (c : Dev nD) :
    (dat1 (F := Ideal) V c).arrAt 6 cfg1.N
      = Cert.GCN.bnReluRes (V c main_v57) (V c main_v41) (V c main_v61) (V c main_v66) (V c main_v67) (V c main_v68) :=
  (dat1 (F := Ideal) V c).arrAt_eq_of_cover 6 _ (fun t _ => flushed1_eq V c t) cover1

end Cert.KernelIdeal.RegionValues

end
-- ==== Proof.RegionValues2.lean ====
/-
  The third tiled region (a matrix product plus a bias row), read as one array.

  The region walks 20 blocks of 5000 rows. At block t it loads rows 5000·t … 5000·t + 4999 of the left operand `x`, and the
  weight matrix `w` and the one-row bias `b` whole; it stores, at row r and column c of the block,
  ∑ₖ x(R,k)·w(k,c) + b(0,c) with R = 5000·t + r (the narrowing of the operands' float format before the product is the
  identity on extended reals, and the product accumulates into zero). Every row R of the output lies in exactly the block
  t = R / 5000, so the 20 write-backs leave the whole-array function `Cert.GCN.mmBias` of the three input arrays,
  whatever those arrays hold when the region is entered.
-/
import proofs.«173734_j34540126994670_1_alg».proof.Proof.Gen.KernelIdeal.Frame
import proofs.«173734_j34540126994670_1_alg».proof.Proof.Spec
import proofs.«173734_j34540126994670_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.RegionValues

open Cert.KernelIdeal Cert.KernelIdeal.Gen

/-- The zero offsets of a whole-buffer access, as the constant function. -/
theorem hz2 : (![0, 0] : Fin 2 → Nat) = fun _ => 0 := funext fun a => by fin_cases a <;> rfl

/-- The product-plus-bias payload at row r, column c: the row of x against the column of w, plus the bias row at c.
    The change of float format before the product is the identity on extended reals. -/
theorem mm_pay2_apply (x : Vec Ideal S5000x64 .f32) (w : Vec Ideal S64x64 .f32) (b : Vec Ideal S1x64 .f32)
    (r : Fin 5000) (c : Fin 64) :
    k2_pay1 (F := Ideal) x w b (ix2 r c) = (∑ k : Fin 64, x (ix2 r k) * w (ix2 k c)) + b (ix2 (0 : Fin 1) c) := by
  unfold k2_pay1
  simp only [shapeCast_self]
  rw [addf_apply, broadcastTo_1b_ab_apply]
  refine congrArg (· + b (ix2 (0 : Fin 1) c)) ?_
  have hd : dot_S5000x64_S64x64_S5000x64_1_0_0_1_n_n
      = PlainDot.dims 5000 64 64 Facts₀.dot_S5000x64_S64x64_S5000x64_1_0_0_1_n_n_wf := rfl
  rw [hd]
  exact PlainDot.matmul_zero_apply Facts₀.dot_S5000x64_S64x64_S5000x64_1_0_0_1_n_n_wf none
    (truncf .bf16 x _) (truncf .bf16 w _) r c

/-- An entry of a block's payload is the entry of the whole-array function at the row the block's row stands for,
    once the loaded blocks are known to hold their arrays' entries there. -/
theorem mm_entry2 (X : FVec Ideal ⟨2, ![100000, 64]⟩ .f32) (W : FVec Ideal ⟨2, ![64, 64]⟩ .f32) (B : FVec Ideal ⟨2, ![1, 64]⟩ .f32)
    (x0 : Vec Ideal S5000x64 .f32) (x1 : Vec Ideal S64x64 .f32) (x2 : Vec Ideal S1x64 .f32)
    (r : Fin 5000) (cc : Fin 64) (R : Fin 100000)
    (h0 : ∀ k : Fin 64, x0 (ix2 r k) = X (ix2 R k)) (h1 : ∀ k : Fin 64, x1 (ix2 k cc) = W (ix2 k cc))
    (h2 : x2 (ix2 (0 : Fin 1) cc) = B (ix2 (0 : Fin 1) cc)) :
    k2_pay1 (F := Ideal) x0 x1 x2 (ix2 r cc) = Cert.GCN.mmBias X W B (ix2 R cc) := by
  rw [mm_pay2_apply, Cert.GCN.mmBias_apply, h2]
  exact congrArg (· + B (ix2 (0 : Fin 1) cc)) (Finset.sum_congr rfl fun k _ => by rw [h0 k, h1 k])

variable (V : (c : Dev nD) → (b : Ref sig .tc) → Buf (Elt Ideal) ((c : Thread nD τ).loc b))

/-- The block index maps of region 2 over its 20 points: the row-blocked windows sit at block (t, 0), the weight and the
    bias row at (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Window 0's block at point t holds rows 5000·t … 5000·t + 4999 of the left operand. -/
theorem iblk2_0_apply (c : Dev nD) (t : Fin cfg2.N) (r : Fin 5000) (k : Fin 64) (R : Fin 100000)
    (hR : R.val = t.val * 5000 + r.val) :
    (iblk2 (F := Ideal) V c 0 t : Vec Ideal S5000x64 .f32) (ix2 r k) = (V c main_v69 : S100000x64.Idx → Elt Ideal .f32) (ix2 R k) := by
  obtain ⟨e0, e1, -⟩ := idx_facts2 t
  unfold iblk2
  rw [View.read_apply]
  show V c main_v69 _ = V c main_v69 _
  congr 1
  funext a
  apply Fin.ext
  match a with
  | ⟨0, _⟩ => show win2_0.index t 0 * 5000 + 1 * r.val = R.val; rw [e0, hR]; omega
  | ⟨1, _⟩ => show win2_0.index t 1 * 64 + 1 * k.val = k.val; rw [e1]; omega

/-- Window 1 holds, at every point, the whole weight matrix. -/
theorem iblk2_1_apply (c : Dev nD) (t : Fin cfg2.N) (k cc : Fin 64) :
    (iblk2 (F := Ideal) V c 1 t : Vec Ideal S64x64 .f32) (ix2 k cc) = (V c main_arg7 : S64x64.Idx → Elt Ideal .f32) (ix2 k cc) := by
  obtain ⟨-, -, e0, e1, -⟩ := idx_facts2 t
  unfold iblk2
  rw [View.read_apply]
  show V c main_arg7 _ = V c main_arg7 _
  congr 1
  funext a
  apply Fin.ext
  match a with
  | ⟨0, _⟩ => show win2_1.index t 0 * 64 + 1 * k.val = k.val; rw [e0]; omega
  | ⟨1, _⟩ => show win2_1.index t 1 * 64 + 1 * cc.val = cc.val; rw [e1]; omega

/-- Window 2 holds, at every point, the whole bias row. -/
theorem iblk2_2_apply (c : Dev nD) (t : Fin cfg2.N) (cc : Fin 64) :
    (iblk2 (F := Ideal) V c 2 t : Vec Ideal S1x64 .f32) (ix2 (0 : Fin 1) cc) = (V c main_v70 : S1x64.Idx → Elt Ideal .f32) (ix2 (0 : Fin 1) cc) := by
  obtain ⟨-, -, -, -, e0, e1, -⟩ := idx_facts2 t
  unfold iblk2
  rw [View.read_apply]
  show V c main_v70 _ = V c main_v70 _
  congr 1
  funext a
  apply Fin.ext
  match a with
  | ⟨0, _⟩ => show win2_2.index t 0 * 1 + 1 * 0 = 0; rw [e0]
  | ⟨1, _⟩ => show win2_2.index t 1 * 64 + 1 * cc.val = cc.val; rw [e1]; omega

/-- WHAT POINT t WRITES BACK: block t of the whole-array function of the region's three input arrays. -/
theorem flushed2_eq (c : Dev nD) (t : Fin cfg2.N) :
    (dat2 (F := Ideal) V c).flushed 3 t = ((cfg2.win 3).blk t).view.read (Elt Ideal)
      (Cert.GCN.mmBias (V c main_v69) (V c main_arg7) (V c main_v70)) := by
  show (cfg2.win 3).cut (grid2.coords t) ((dat2 V c).after 3 t) = _
  rw [after2_3]
  unfold out2_3
  rw [View.canon_unit_zero hz2]
  simp only [View.ld_unit_zero (S := S5000x64) hz2, View.ld_unit_zero (S := S64x64) hz2, View.ld_unit_zero (S := S1x64) hz2]
  have hN : t.val < 20 := lt_of_lt_of_eq t.isLt N_2
  obtain ⟨-, -, -, -, -, -, e0, e1⟩ := idx_facts2 t
  funext j
  obtain ⟨r, cc, rfl⟩ : ∃ (r : Fin 5000) (cc : Fin 64), j = ix2 r cc := ⟨j 0, j 1, eq_ix2 j⟩
  have hr : ((cfg2.win 3).blk t).view.emb (ix2 r cc) = ix2 (⟨t.val * 5000 + r.val, by have := r.isLt; omega⟩ : Fin 100000) cc := by
    funext a
    apply Fin.ext
    match a with
    | ⟨0, _⟩ => show win2_3.index t 0 * 5000 + 1 * r.val = t.val * 5000 + r.val; rw [e0]; omega
    | ⟨1, _⟩ => show win2_3.index t 1 * 64 + 1 * cc.val = cc.val; rw [e1]; omega
  refine (mm_entry2 (V c main_v69) (V c main_arg7) (V c main_v70)
    (iblk2 V c 0 t) (iblk2 V c 1 t) (iblk2 V c 2 t) r cc
    (⟨t.val * 5000 + r.val, by have := r.isLt; omega⟩ : Fin 100000)
    (fun k => iblk2_0_apply V c t r k _ rfl) (fun k => iblk2_1_apply V c t k cc) (iblk2_2_apply V c t cc)).trans ?_
  exact (congrArg (Cert.GCN.mmBias (V c main_v69) (V c main_arg7) (V c main_v70)) hr).symm

/-- An index of the output array is in point t's block iff each coordinate is in the block's range on its axis. -/
theorem mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v71).slice (win2_3.rect t)).set ↔ _
  rw [View.set_slice_whole, Rect.mem_set_unit]
  exact Iff.rfl

/-- Every row of the output lies in the block of the point its row number divided by 5000 names. -/
theorem cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hlt : (i 0).val / 5000 < cfg2.N := lt_of_lt_of_eq (show (i 0).val / 5000 < 20 by omega) N_2.symm
  obtain ⟨-, -, -, -, -, -, e0, e1⟩ := idx_facts2 ⟨(i 0).val / 5000, hlt⟩
  refine ⟨⟨(i 0).val / 5000, hlt⟩, flush2_3 _, ?_⟩
  rw [mem_blk2]
  intro a
  match a with
  | ⟨0, _⟩ =>
    show win2_3.index ⟨(i 0).val / 5000, hlt⟩ 0 * 5000 ≤ (i 0).val ∧ (i 0).val < win2_3.index ⟨(i 0).val / 5000, hlt⟩ 0 * 5000 + 5000
    rw [e0]; show (i 0).val / 5000 * 5000 ≤ (i 0).val ∧ (i 0).val < (i 0).val / 5000 * 5000 + 5000; omega
  | ⟨1, _⟩ =>
    show win2_3.index ⟨(i 0).val / 5000, hlt⟩ 1 * 64 ≤ (i 1).val ∧ (i 1).val < win2_3.index ⟨(i 0).val / 5000, hlt⟩ 1 * 64 + 64
    rw [e1]; omega

/-- REGION 2: the array it leaves is the product of its first two input arrays with the bias row added to every row. -/
theorem region2_value (c : Dev nD) :
    (dat2 (F := Ideal) V c).arrAt 3 cfg2.N = Cert.GCN.mmBias (V c main_v69) (V c main_arg7) (V c main_v70) :=
  (dat2 (F := Ideal) V c).arrAt_eq_of_cover 3 _ (fun t _ => flushed2_eq V c t) cover2

end Cert.KernelIdeal.RegionValues

end
-- ==== Proof.RegionValues3.lean ====
/-
  The fourth tiled region (normalise, rectify, add the residual), read as one array.

  The region walks 20 blocks of 5000 rows. At block t it loads rows 5000·t … 5000·t + 4999 of the array `a` and of the
  residual `res`, and the four one-row arrays `mu`, `s`, `g`, `be` whole; it stores, at row r and column c of the block,
  max (g(0,c)·(a(R,c) − mu(0,c))·s(0,c) + be(0,c)) 0 + res(R,c) with R = 5000·t + r. Every row R of the output lies in
  exactly the block t = R / 5000, so the 20 write-backs leave the whole-array function `Cert.GCN.bnReluRes` of the six
  input arrays, whatever those arrays hold when the region is entered.
-/
import proofs.«173734_j34540126994670_1_alg».proof.Proof.Gen.KernelIdeal.Frame
import proofs.«173734_j34540126994670_1_alg».proof.Proof.Spec
import proofs.«173734_j34540126994670_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.RegionValues

open Cert.KernelIdeal Cert.KernelIdeal.Gen

/-- The zero offsets of a whole-buffer access, as the constant function. -/
theorem hz3 : (![0, 0] : Fin 2 → Nat) = fun _ => 0 := funext fun a => by fin_cases a <;> rfl

/-- The normalise–rectify–add-residual payload at row r, column c. -/
theorem bn_pay3_apply (a : Vec Ideal S5000x64 .f32) (g mu s be : Vec Ideal S1x64 .f32) (res : Vec Ideal S5000x64 .f32)
    (r : Fin 5000) (c : Fin 64) :
    k3_pay1 (F := Ideal) a g mu s be res (ix2 r c)
      = max (g (ix2 (0 : Fin 1) c) * (a (ix2 r c) - mu (ix2 (0 : Fin 1) c)) * s (ix2 (0 : Fin 1) c) + be (ix2 (0 : Fin 1) c)) 0
          + res (ix2 r c) := by
  unfold k3_pay1
  simp only [shapeCast_self]
  rw [addf_apply, maximumf_apply, addf_apply, mulf_apply, mulf_apply, subf_apply, broadcast_apply]
  rw [broadcastTo_1b_ab_apply, broadcastTo_1b_ab_apply, broadcastTo_1b_ab_apply, broadcastTo_1b_ab_apply]
  rw [Ideal.ofBits_def, Ideal.ofBits_zero_f32]

/-- An entry of a block's payload is the entry of the whole-array function at the row the block's row stands for,
    once each loaded block is known to hold its array's entries there. -/
theorem bn_entry3 (A RES : FVec Ideal ⟨2, ![100000, 64]⟩ .f32) (MU SS GG BE : FVec Ideal ⟨2, ![1, 64]⟩ .f32)
    (x0 x1 : Vec Ideal S5000x64 .f32) (x2 x3 x4 x5 : Vec Ideal S1x64 .f32) (r : Fin 5000) (cc : Fin 64) (R : Fin 100000)
    (h0 : x0 (ix2 r cc) = A (ix2 R cc)) (h1 : x1 (ix2 r cc) = RES (ix2 R cc))
    (h2 : x2 (ix2 (0 : Fin 1) cc) = MU (ix2 (0 : Fin 1) cc)) (h3 : x3 (ix2 (0 : Fin 1) cc) = SS (ix2 (0 : Fin 1) cc))
    (h4 : x4 (ix2 (0 : Fin 1) cc) = GG (ix2 (0 : Fin 1) cc)) (h5 : x5 (ix2 (0 : Fin 1) cc) = BE (ix2 (0 : Fin 1) cc)) :
    k3_pay1 (F := Ideal) x0 x4 x2 x3 x5 x1 (ix2 r cc) = Cert.GCN.bnReluRes A RES MU SS GG BE (ix2 R cc) := by
  rw [bn_pay3_apply, Cert.GCN.bnReluRes_apply, h0, h1, h2, h3, h4, h5]

variable (V : (c : Dev nD) → (b : Ref sig .tc) → Buf (Elt Ideal) ((c : Thread nD τ).loc b))

/-- The block index maps of region 3 over its 20 points: the row-blocked windows sit at block (t, 0), the rows at (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Window 0's block at point t holds rows 5000·t … 5000·t + 4999 of the normalised array. -/
theorem iblk3_0_apply (c : Dev nD) (t : Fin cfg3.N) (r : Fin 5000) (cc : Fin 64) (R : Fin 100000)
    (hR : R.val = t.val * 5000 + r.val) :
    (iblk3 (F := Ideal) V c 0 t : Vec Ideal S5000x64 .f32) (ix2 r cc) = (V c main_v87 : S100000x64.Idx → Elt Ideal .f32) (ix2 R cc) := by
  obtain ⟨e0, e1, -⟩ := idx_facts3 t
  unfold iblk3
  rw [View.read_apply]
  show V c main_v87 _ = V c main_v87 _
  congr 1
  funext a
  apply Fin.ext
  match a with
  | ⟨0, _⟩ => show win3_0.index t 0 * 5000 + 1 * r.val = R.val; rw [e0, hR]; omega
  | ⟨1, _⟩ => show win3_0.index t 1 * 64 + 1 * cc.val = cc.val; rw [e1]; omega

/-- Window 1's block at point t holds the same rows of the residual array. -/
theorem iblk3_1_apply (c : Dev nD) (t : Fin cfg3.N) (r : Fin 5000) (cc : Fin 64) (R : Fin 100000)
    (hR : R.val = t.val * 5000 + r.val) :
    (iblk3 (F := Ideal) V c 1 t : Vec Ideal S5000x64 .f32) (ix2 r cc) = (V c main_v69 : S100000x64.Idx → Elt Ideal .f32) (ix2 R cc) := by
  obtain ⟨-, -, e0, e1, -⟩ := idx_facts3 t
  unfold iblk3
  rw [View.read_apply]
  show V c main_v69 _ = V c main_v69 _
  congr 1
  funext a
  apply Fin.ext
  match a with
  | ⟨0, _⟩ => show win3_1.index t 0 * 5000 + 1 * r.val = R.val; rw [e0, hR]; omega
  | ⟨1, _⟩ => show win3_1.index t 1 * 64 + 1 * cc.val = cc.val; rw [e1]; omega

/-- Windows 2 to 5 hold, at every point, the whole of their one-row arrays. -/
theorem iblk3_2_apply (c : Dev nD) (t : Fin cfg3.N) (cc : Fin 64) :
    (iblk3 (F := Ideal) V c 2 t : Vec Ideal S1x64 .f32) (ix2 (0 : Fin 1) cc) = (V c main_v91 : S1x64.Idx → Elt Ideal .f32) (ix2 (0 : Fin 1) cc) := by
  obtain ⟨-, -, -, -, e0, e1, -⟩ := idx_facts3 t
  unfold iblk3
  rw [View.read_apply]
  show V c main_v91 _ = V c main_v91 _
  congr 1
  funext a
  apply Fin.ext
  match a with
  | ⟨0, _⟩ => show win3_2.index t 0 * 1 + 1 * 0 = 0; rw [e0]
  | ⟨1, _⟩ => show win3_2.index t 1 * 64 + 1 * cc.val = cc.val; rw [e1]; omega

theorem iblk3_3_apply (c : Dev nD) (t : Fin cfg3.N) (cc : Fin 64) :
    (iblk3 (F := Ideal) V c 3 t : Vec Ideal S1x64 .f32) (ix2 (0 : Fin 1) cc) = (V c main_v96 : S1x64.Idx → Elt Ideal .f32) (ix2 (0 : Fin 1) cc) := by
  obtain ⟨-, -, -, -, -, -, e0, e1, -⟩ := idx_facts3 t
  unfold iblk3
  rw [View.read_apply]
  show V c main_v96 _ = V c main_v96 _
  congr 1
  funext a
  apply Fin.ext
  match a with
  | ⟨0, _⟩ => show win3_3.index t 0 * 1 + 1 * 0 = 0; rw [e0]
  | ⟨1, _⟩ => show win3_3.index t 1 * 64 + 1 * cc.val = cc.val; rw [e1]; omega

theorem iblk3_4_apply (c : Dev nD) (t : Fin cfg3.N) (cc : Fin 64) :
    (iblk3 (F := Ideal) V c 4 t : Vec Ideal S1x64 .f32) (ix2 (0 : Fin 1) cc) = (V c main_v97 : S1x64.Idx → Elt Ideal .f32) (ix2 (0 : Fin 1) cc) := by
  obtain ⟨-, -, -, -, -, -, -, -, e0, e1, -⟩ := idx_facts3 t
  unfold iblk3
  rw [View.read_apply]
  show V c main_v97 _ = V c main_v97 _
  congr 1
  funext a
  apply Fin.ext
  match a with
  | ⟨0, _⟩ => show win3_4.index t 0 * 1 + 1 * 0 = 0; rw [e0]
  | ⟨1, _⟩ => show win3_4.index t 1 * 64 + 1 * cc.val = cc.val; rw [e1]; omega

theorem iblk3_5_apply (c : Dev nD) (t : Fin cfg3.N) (cc : Fin 64) :
    (iblk3 (F := Ideal) V c 5 t : Vec Ideal S1x64 .f32) (ix2 (0 : Fin 1) cc) = (V c main_v98 : S1x64.Idx → Elt Ideal .f32) (ix2 (0 : Fin 1) cc) := by
  obtain ⟨-, -, -, -, -, -, -, -, -, -, e0, e1, -⟩ := idx_facts3 t
  unfold iblk3
  rw [View.read_apply]
  show V c main_v98 _ = V c main_v98 _
  congr 1
  funext a
  apply Fin.ext
  match a with
  | ⟨0, _⟩ => show win3_5.index t 0 * 1 + 1 * 0 = 0; rw [e0]
  | ⟨1, _⟩ => show win3_5.index t 1 * 64 + 1 * cc.val = cc.val; rw [e1]; omega

/-- WHAT POINT t WRITES BACK: block t of the whole-array function of the region's six input arrays. -/
theorem flushed3_eq (c : Dev nD) (t : Fin cfg3.N) :
    (dat3 (F := Ideal) V c).flushed 6 t = ((cfg3.win 6).blk t).view.read (Elt Ideal)
      (Cert.GCN.bnReluRes (V c main_v87) (V c main_v69) (V c main_v91) (V c main_v96) (V c main_v97) (V c main_v98)) := by
  show (cfg3.win 6).cut (grid3.coords t) ((dat3 V c).after 6 t) = _
  rw [after3_6]
  unfold out3_6
  rw [View.canon_unit_zero hz3]
  simp only [View.ld_unit_zero (S := S5000x64) hz3, View.ld_unit_zero (S := S1x64) hz3]
  have hN : t.val < 20 := lt_of_lt_of_eq t.isLt N_3
  obtain ⟨-, -, -, -, -, -, -, -, -, -, -, -, e0, e1⟩ := idx_facts3 t
  funext j
  obtain ⟨r, cc, rfl⟩ : ∃ (r : Fin 5000) (cc : Fin 64), j = ix2 r cc := ⟨j 0, j 1, eq_ix2 j⟩
  have hr : ((cfg3.win 6).blk t).view.emb (ix2 r cc) = ix2 (⟨t.val * 5000 + r.val, by have := r.isLt; omega⟩ : Fin 100000) cc := by
    funext a
    apply Fin.ext
    match a with
    | ⟨0, _⟩ => show win3_6.index t 0 * 5000 + 1 * r.val = t.val * 5000 + r.val; rw [e0]; omega
    | ⟨1, _⟩ => show win3_6.index t 1 * 64 + 1 * cc.val = cc.val; rw [e1]; omega
  refine (bn_entry3 (V c main_v87) (V c main_v69) (V c main_v91) (V c main_v96) (V c main_v97) (V c main_v98)
    (iblk3 V c 0 t) (iblk3 V c 1 t) (iblk3 V c 2 t) (iblk3 V c 3 t) (iblk3 V c 4 t) (iblk3 V c 5 t) r cc
    (⟨t.val * 5000 + r.val, by have := r.isLt; omega⟩ : Fin 100000)
    (iblk3_0_apply V c t r cc _ rfl) (iblk3_1_apply V c t r cc _ rfl)
    (iblk3_2_apply V c t cc) (iblk3_3_apply V c t cc) (iblk3_4_apply V c t cc) (iblk3_5_apply V c t cc)).trans ?_
  exact (congrArg (Cert.GCN.bnReluRes (V c main_v87) (V c main_v69) (V c main_v91) (V c main_v96) (V c main_v97) (V c main_v98)) hr).symm

/-- An index of the output array is in point t's block iff each coordinate is in the block's range on its axis. -/
theorem mem_blk3 (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v99).slice (win3_6.rect t)).set ↔ _
  rw [View.set_slice_whole, Rect.mem_set_unit]
  exact Iff.rfl

/-- Every row of the output lies in the block of the point its row number divided by 5000 names. -/
theorem cover3 (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  have hlt : (i 0).val / 5000 < cfg3.N := lt_of_lt_of_eq (show (i 0).val / 5000 < 20 by omega) N_3.symm
  obtain ⟨-, -, -, -, -, -, -, -, -, -, -, -, e0, e1⟩ := idx_facts3 ⟨(i 0).val / 5000, hlt⟩
  refine ⟨⟨(i 0).val / 5000, hlt⟩, flush3_6 _, ?_⟩
  rw [mem_blk3]
  intro a
  match a with
  | ⟨0, _⟩ =>
    show win3_6.index ⟨(i 0).val / 5000, hlt⟩ 0 * 5000 ≤ (i 0).val ∧ (i 0).val < win3_6.index ⟨(i 0).val / 5000, hlt⟩ 0 * 5000 + 5000
    rw [e0]; show (i 0).val / 5000 * 5000 ≤ (i 0).val ∧ (i 0).val < (i 0).val / 5000 * 5000 + 5000; omega
  | ⟨1, _⟩ =>
    show win3_6.index ⟨(i 0).val / 5000, hlt⟩ 1 * 64 ≤ (i 1).val ∧ (i 1).val < win3_6.index ⟨(i 0).val / 5000, hlt⟩ 1 * 64 + 64
    rw [e1]; omega

/-- REGION 3: the array it leaves is the normalised, rectified input plus the residual, as one whole-array function. -/
theorem region3_value (c : Dev nD) :
    (dat3 (F := Ideal) V c).arrAt 6 cfg3.N
      = Cert.GCN.bnReluRes (V c main_v87) (V c main_v69) (V c main_v91) (V c main_v96) (V c main_v97) (V c main_v98) :=
  (dat3 (F := Ideal) V c).arrAt_eq_of_cover 6 _ (fun t _ => flushed3_eq V c t) cover3

end Cert.KernelIdeal.RegionValues

end
-- ==== Proof.RegionValues.lean ====
/-
  The four tiled regions of the program, each read as one whole-array function of its input arrays:
  regions 0 and 2 leave a matrix product with a bias row added to every row (`Cert.GCN.mmBias`), regions 1 and 3 the
  normalised, rectified input plus a residual (`Cert.GCN.bnReluRes`). Each statement holds for any contents of the
  buffers when the region is entered; the four proofs are one per region.
-/
import proofs.«173734_j34540126994670_1_alg».proof.Proof.RegionValues0
import proofs.«173734_j34540126994670_1_alg».proof.Proof.RegionValues1
import proofs.«173734_j34540126994670_1_alg».proof.Proof.RegionValues2
import proofs.«173734_j34540126994670_1_alg».proof.Proof.RegionValues3
-- ==== Proof.KFold.lean ====
/-
  The idealized kernel program's result as ONE function of its thirteen argument arrays.

  The run's boundary valuations are walked from the launch to the return: a stretch of host operations is read by its
  stage functions (KRead), a tiled region by its whole-array function of the arrays it is entered with (RegionValues),
  and a buffer neither writes keeps its contents. The edge data (endpoints, normalisation) and the parameter arrays
  computed before the first region are carried along unchanged (`Live`). The result: with o = x·[W1 | pW] + (0, pb),
  a₁ = aggregate(left half of o) + b1, h₁ = max(g1·(a₁ − mean a₁)·invstd a₁ + be1, 0) + (right half of o),
  a₂ = aggregate(h₁·W2 + 0) + b2, the program returns max(g2·(a₂ − mean a₂)·invstd a₂ + be2, 0) + h₁.
-/
import proofs.«173734_j34540126994670_1_alg».proof.Proof.Gen.KernelIdeal.Frame
import proofs.«173734_j34540126994670_1_alg».proof.Proof.KRead
import proofs.«173734_j34540126994670_1_alg».proof.Proof.Spec
import proofs.«173734_j34540126994670_1_alg».proof.Proof.RegionValues

set_option maxRecDepth 16384

noncomputable section

namespace Cert.KernelIdeal.KFold

open Cert.KernelIdeal Cert.KernelIdeal.Gen Cert.KernelIdeal.KStage Cert.KernelIdeal.KRead Cert.KernelIdeal.RegionValues Cert.GCN
open Idealize.ShloMosaic Idealize.ShloMosaic.TcCoe Idealize.ShloMosaic.StableHlo Idealize.SL.Sem

/-! ## The function -/

/-- The first product: x·[W1 | pW] + (0 … 0, pb). -/
def kO (x : C Ideal S100000x128 .f32) (W1 pW : C Ideal S128x64 .f32) (pb : C Ideal S64 .f32) : C Ideal S100000x128 .f32 :=
  mmBias (M := 100000) (K := 128) (N := 128) x (wCat W1 pW) (bCat pb)

/-- The first layer's aggregate plus its bias. -/
def kA1 (x : C Ideal S100000x128 .f32) (ei : C Ideal S2x1600000 .i32) (ew : C Ideal S1600000 .f32) (W1 : C Ideal S128x64 .f32)
    (b1 : C Ideal S64 .f32) (pW : C Ideal S128x64 .f32) (pb : C Ideal S64 .f32) : C Ideal S100000x64 .f32 :=
  addf (aggr (sliceL (kO x W1 pW pb)) (rowIx ei) (colIx ei) (normE (rowIx ei) (colIx ei) (wAll ew))) (rowB b1)

/-- The first layer's output. -/
def kH1 (x : C Ideal S100000x128 .f32) (ei : C Ideal S2x1600000 .i32) (ew : C Ideal S1600000 .f32) (W1 : C Ideal S128x64 .f32)
    (b1 g1 be1 : C Ideal S64 .f32) (pW : C Ideal S128x64 .f32) (pb : C Ideal S64 .f32) : C Ideal S100000x64 .f32 :=
  bnReluRes (M := 100000) (N := 64) (kA1 x ei ew W1 b1 pW pb) (sliceR (kO x W1 pW pb)) (row1 (meanV (kA1 x ei ew W1 b1 pW pb)))
    (row1 (invstdV (kA1 x ei ew W1 b1 pW pb))) (row1 g1) (row1 be1)

/-- The second layer's aggregate plus its bias. -/
def kA2 (h1 : C Ideal S100000x64 .f32) (ei : C Ideal S2x1600000 .i32) (ew : C Ideal S1600000 .f32) (W2 : C Ideal S64x64 .f32)
    (b2 : C Ideal S64 .f32) : C Ideal S100000x64 .f32 :=
  addf (aggr (mmBias (M := 100000) (K := 64) (N := 64) h1 W2 (zeroRow (F := Ideal))) (rowIx ei) (colIx ei) (normE (rowIx ei) (colIx ei) (wAll ew))) (rowB b2)

/-- The program's result. -/
def kOut (x : C Ideal S100000x128 .f32) (ei : C Ideal S2x1600000 .i32) (ew : C Ideal S1600000 .f32) (W1 : C Ideal S128x64 .f32)
    (b1 g1 be1 : C Ideal S64 .f32) (W2 : C Ideal S64x64 .f32) (b2 g2 be2 : C Ideal S64 .f32) (pW : C Ideal S128x64 .f32)
    (pb : C Ideal S64 .f32) : C Ideal S100000x64 .f32 :=
  bnReluRes (M := 100000) (N := 64) (kA2 (kH1 x ei ew W1 b1 g1 be1 pW pb) ei ew W2 b2) (kH1 x ei ew W1 b1 g1 be1 pW pb)
    (row1 (meanV (kA2 (kH1 x ei ew W1 b1 g1 be1 pW pb) ei ew W2 b2))) (row1 (invstdV (kA2 (kH1 x ei ew W1 b1 g1 be1 pW pb) ei ew W2 b2)))
    (row1 g2) (row1 be2)

/-! ## The walk -/

variable (m : (ℓ : Loc nD τ sig) → Buf (Elt Ideal) ℓ) (ρ : Dev nD → PrngReg) (c : Dev nD)

/-- What every later stretch and region still reads, carried unchanged from before the first region. -/
structure Live (W : Valuation τ sig (Elt Ideal)) : Prop where
  v3 : W (Proc.devRef .tc main_v3) = rowIx (m ((c : Thread nD τ).loc main_arg1))
  v6 : W (Proc.devRef .tc main_v6) = colIx (m ((c : Thread nD τ).loc main_arg1))
  v34 : W (Proc.devRef .tc main_v34) = normE (rowIx (m ((c : Thread nD τ).loc main_arg1))) (colIx (m ((c : Thread nD τ).loc main_arg1))) (wAll (m ((c : Thread nD τ).loc main_arg2)))
  a8 : W (Proc.devRef .tc main_arg8) = (m ((c : Thread nD τ).loc main_arg8))
  a9 : W (Proc.devRef .tc main_arg9) = (m ((c : Thread nD τ).loc main_arg9))
  a10 : W (Proc.devRef .tc main_arg10) = (m ((c : Thread nD τ).loc main_arg10))

theorem live5 : Live m c (W5 m ρ c) :=
  ⟨E5_v3 (W0 m ρ c),
    E5_v6 (W0 m ρ c),
    E5_v34 (W0 m ρ c),
    E5_arg8 (W0 m ρ c),
    E5_arg9 (W0 m ρ c),
    E5_arg10 (W0 m ρ c)⟩

theorem live6 : Live m c (W6 m ρ c) :=
  ⟨(W6_of_ne m ρ c main_v3 (by decide)).trans (live5 m ρ c).v3,
    (W6_of_ne m ρ c main_v6 (by decide)).trans (live5 m ρ c).v6,
    (W6_of_ne m ρ c main_v34 (by decide)).trans (live5 m ρ c).v34,
    (W6_of_ne m ρ c main_arg8 (by decide)).trans (live5 m ρ c).a8,
    (W6_of_ne m ρ c main_arg9 (by decide)).trans (live5 m ρ c).a9,
    (W6_of_ne m ρ c main_arg10 (by decide)).trans (live5 m ρ c).a10⟩

theorem live9 : Live m c (W9 m ρ c) :=
  ⟨(E9_v3 (W6 m ρ c)).trans (live6 m ρ c).v3,
    (E9_v6 (W6 m ρ c)).trans (live6 m ρ c).v6,
    (E9_v34 (W6 m ρ c)).trans (live6 m ρ c).v34,
    (E9_arg8 (W6 m ρ c)).trans (live6 m ρ c).a8,
    (E9_arg9 (W6 m ρ c)).trans (live6 m ρ c).a9,
    (E9_arg10 (W6 m ρ c)).trans (live6 m ρ c).a10⟩

theorem live10 : Live m c (W10 m ρ c) :=
  ⟨(W10_of_ne m ρ c main_v3 (by decide)).trans (live9 m ρ c).v3,
    (W10_of_ne m ρ c main_v6 (by decide)).trans (live9 m ρ c).v6,
    (W10_of_ne m ρ c main_v34 (by decide)).trans (live9 m ρ c).v34,
    (W10_of_ne m ρ c main_arg8 (by decide)).trans (live9 m ρ c).a8,
    (W10_of_ne m ρ c main_arg9 (by decide)).trans (live9 m ρ c).a9,
    (W10_of_ne m ρ c main_arg10 (by decide)).trans (live9 m ρ c).a10⟩

theorem live11 : Live m c (W11 m ρ c) :=
  ⟨(E11_v3 (W10 m ρ c)).trans (live10 m ρ c).v3,
    (E11_v6 (W10 m ρ c)).trans (live10 m ρ c).v6,
    (E11_v34 (W10 m ρ c)).trans (live10 m ρ c).v34,
    (E11_arg8 (W10 m ρ c)).trans (live10 m ρ c).a8,
    (E11_arg9 (W10 m ρ c)).trans (live10 m ρ c).a9,
    (E11_arg10 (W10 m ρ c)).trans (live10 m ρ c).a10⟩

theorem live12 : Live m c (W12 m ρ c) :=
  ⟨(W12_of_ne m ρ c main_v3 (by decide)).trans (live11 m ρ c).v3,
    (W12_of_ne m ρ c main_v6 (by decide)).trans (live11 m ρ c).v6,
    (W12_of_ne m ρ c main_v34 (by decide)).trans (live11 m ρ c).v34,
    (W12_of_ne m ρ c main_arg8 (by decide)).trans (live11 m ρ c).a8,
    (W12_of_ne m ρ c main_arg9 (by decide)).trans (live11 m ρ c).a9,
    (W12_of_ne m ρ c main_arg10 (by decide)).trans (live11 m ρ c).a10⟩

/-- The second layer's weight matrix, at the third region's entry. -/
theorem W11_arg7 : W11 m ρ c (Proc.devRef .tc main_arg7) = (m ((c : Thread nD τ).loc main_arg7)) :=
  (E11_arg7 (W10 m ρ c)).trans ((W10_of_ne m ρ c main_arg7 (by decide)).trans ((E9_arg7 (W6 m ρ c)).trans
    ((W6_of_ne m ρ c main_arg7 (by decide)).trans (E5_arg7 (W0 m ρ c)))))

/-- The first region's output array. -/
theorem W6_v39 : W6 m ρ c (Proc.devRef .tc main_v39) = kO (m ((c : Thread nD τ).loc main_arg0)) (m ((c : Thread nD τ).loc main_arg3)) (m ((c : Thread nD τ).loc main_arg11)) (m ((c : Thread nD τ).loc main_arg12)) := by
  refine (W6_arr m ρ c 3).trans ((region0_value (V5 m ρ) c).trans ?_)
  rw [show V5 m ρ c main_arg0 = (m ((c : Thread nD τ).loc main_arg0)) from E5_arg0 (W0 m ρ c),
    show V5 m ρ c main_v35 = wCat (m ((c : Thread nD τ).loc main_arg3)) (m ((c : Thread nD τ).loc main_arg11)) from E5_v35 (W0 m ρ c),
    show V5 m ρ c main_v38 = bCat (m ((c : Thread nD τ).loc main_arg12)) from E5_v38 (W0 m ρ c)]
  rfl

theorem W6_arg4 : W6 m ρ c (Proc.devRef .tc main_arg4) = (m ((c : Thread nD τ).loc main_arg4)) :=
  (W6_of_ne m ρ c main_arg4 (by decide)).trans (E5_arg4 (W0 m ρ c))
theorem W6_arg5 : W6 m ρ c (Proc.devRef .tc main_arg5) = (m ((c : Thread nD τ).loc main_arg5)) :=
  (W6_of_ne m ρ c main_arg5 (by decide)).trans (E5_arg5 (W0 m ρ c))
theorem W6_arg6 : W6 m ρ c (Proc.devRef .tc main_arg6) = (m ((c : Thread nD τ).loc main_arg6)) :=
  (W6_of_ne m ρ c main_arg6 (by decide)).trans (E5_arg6 (W0 m ρ c))

/-- The first layer's aggregate, at the second region's entry. -/
theorem agg1_W6 : agg1 (W6 m ρ c) = kA1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) := by
  unfold agg1 kA1
  rw [W6_v39 m ρ c, (live6 m ρ c).v3, (live6 m ρ c).v6, (live6 m ρ c).v34, W6_arg4 m ρ c]

/-- The second region's output array: the first layer's output. -/
theorem W10_v69 : W10 m ρ c (Proc.devRef .tc main_v69)
    = kH1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) := by
  refine (W10_arr m ρ c 6).trans ((region1_value (V9 m ρ) c).trans ?_)
  rw [show V9 m ρ c main_v57 = agg1 (W6 m ρ c) from E9_v57 (W6 m ρ c),
    show V9 m ρ c main_v41 = sliceR (W6 m ρ c (Proc.devRef .tc main_v39)) from E9_v41 (W6 m ρ c),
    show V9 m ρ c main_v61 = row1 (meanV (agg1 (W6 m ρ c))) from E9_v61 (W6 m ρ c),
    show V9 m ρ c main_v66 = row1 (invstdV (agg1 (W6 m ρ c))) from E9_v66 (W6 m ρ c),
    show V9 m ρ c main_v67 = row1 (W6 m ρ c (Proc.devRef .tc main_arg5)) from E9_v67 (W6 m ρ c),
    show V9 m ρ c main_v68 = row1 (W6 m ρ c (Proc.devRef .tc main_arg6)) from E9_v68 (W6 m ρ c),
    agg1_W6 m ρ c, W6_v39 m ρ c, W6_arg5 m ρ c, W6_arg6 m ρ c]
  rfl

/-- The third region's output array: the first layer's output times W2, plus the zero row. -/
theorem W12_v71 : W12 m ρ c (Proc.devRef .tc main_v71)
    = mmBias (M := 100000) (K := 64) (N := 64) (kH1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)))
        (m ((c : Thread nD τ).loc main_arg7)) (zeroRow (F := Ideal)) := by
  refine (W12_arr m ρ c 3).trans ((region2_value (V11 m ρ) c).trans ?_)
  rw [show V11 m ρ c main_v69 = W10 m ρ c (Proc.devRef .tc main_v69) from E11_v69 (W10 m ρ c),
    show V11 m ρ c main_arg7 = (m ((c : Thread nD τ).loc main_arg7)) from W11_arg7 m ρ c,
    show V11 m ρ c main_v70 = zeroRow (F := Ideal) from E11_v70 (W10 m ρ c), W10_v69 m ρ c]

/-- The first layer's output is still in its buffer when the fourth region is entered: the third region reads it through
    an input window. -/
theorem W12_v69 : W12 m ρ c (Proc.devRef .tc main_v69)
    = kH1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) :=
  ((W12_arr m ρ c 0).trans (((dat2 (V11 m ρ) c).arrAt_in 0 rfl _).trans (A_eq2 (V11 m ρ) c 0))).trans
    ((E11_v69 (W10 m ρ c)).trans (W10_v69 m ρ c))

/-- The second layer's aggregate, at the fourth region's entry. -/
theorem agg2_W12 : agg2 (W12 m ρ c)
    = kA2 (kH1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)))
        (m ((c : Thread nD τ).loc main_arg1)) (m ((c : Thread nD τ).loc main_arg2)) (m ((c : Thread nD τ).loc main_arg7)) (m ((c : Thread nD τ).loc main_arg8)) := by
  unfold agg2 kA2
  rw [W12_v71 m ρ c, (live12 m ρ c).v3, (live12 m ρ c).v6, (live12 m ρ c).v34, (live12 m ρ c).a8]

/-- THE RESULT: the fourth region's output array is `kOut` of the argument arrays as launched. -/
theorem result : W16 m ρ c (Proc.devRef .tc main_v99)
    = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W16_arr m ρ c 6).trans ((region3_value (V15 m ρ) c).trans ?_)
  rw [show V15 m ρ c main_v87 = agg2 (W12 m ρ c) from E15_v87 (W12 m ρ c),
    show V15 m ρ c main_v69 = W12 m ρ c (Proc.devRef .tc main_v69) from E15_v69 (W12 m ρ c),
    show V15 m ρ c main_v91 = row1 (meanV (agg2 (W12 m ρ c))) from E15_v91 (W12 m ρ c),
    show V15 m ρ c main_v96 = row1 (invstdV (agg2 (W12 m ρ c))) from E15_v96 (W12 m ρ c),
    show V15 m ρ c main_v97 = row1 (W12 m ρ c (Proc.devRef .tc main_arg9)) from E15_v97 (W12 m ρ c),
    show V15 m ρ c main_v98 = row1 (W12 m ρ c (Proc.devRef .tc main_arg10)) from E15_v98 (W12 m ρ c),
    agg2_W12 m ρ c, W12_v69 m ρ c, (live12 m ρ c).a9, (live12 m ρ c).a10]
  rfl

end Cert.KernelIdeal.KFold

end
-- ==== Proof.RStage.lean ====
/-
  The stages of the idealized reference program, each as ONE function of the arrays it reads — the composed term of the
  program's own host operations, in their order. The first ones (the edge endpoints with the self loops appended, the
  weights, the degree, its inverse square root, the normalisation, the aggregation, the column mean, variance and
  (variance + ε)^(-1/2)) are the kernel program's stages word for word; `row1` lays a vector along a 1×64 row by a
  broadcast; `dot128`, `dot64` are the two matrix products; `layer` is one layer after its aggregation:
  max (g·(a − mean a)·invstd a + be) 0 + res with the four vectors repeated down the rows; `refOut` is the program.
-/
import proofs.«173734_j34540126994670_1_alg».proof.ReferenceIdeal
import Idealize.ShloMosaic.PureOps.Ideal

noncomputable section

namespace Cert.ReferenceIdeal.RStage

open Cert.ReferenceIdeal Cert.ReferenceIdeal.Facts₀ Idealize.ShloMosaic

variable [Cert.ReferenceIdeal.Facts] {F : FTy → Type} [FloatOps F]

/-- The contents of a buffer of shape `s` and element type `e`, over the float values `F`. -/
abbrev C (F : FTy → Type) (s : Shape) (e : EltTy) : Type := (⟨s, e⟩ : BufTy).Contents (Elt F)

def rowIx (ei : C F S2x1600000 .i32) : C F S1700000 .i32 :=
  concatenate S1700000 0
    [⟨S1600000, (shapeCast S1600000 (extractStridedSlice S1x1600000 ![0, 0] ei slices_S2x1600000_S1x1600000_0_0 : C F S1x1600000 .i32)
        shapeCasts_S1x1600000_S1600000 : C F S1600000 .i32)⟩,
     ⟨S100000, (iotaInDim S100000 32 0 : C F S100000 .i32)⟩] concatenates_S1600000_S100000_S1700000_d0

def colIx (ei : C F S2x1600000 .i32) : C F S1700000 .i32 :=
  concatenate S1700000 0
    [⟨S1600000, (shapeCast S1600000 (extractStridedSlice S1x1600000 ![1, 0] ei slices_S2x1600000_S1x1600000_1_0 : C F S1x1600000 .i32)
        shapeCasts_S1x1600000_S1600000 : C F S1600000 .i32)⟩,
     ⟨S100000, (iotaInDim S100000 32 0 : C F S100000 .i32)⟩] concatenates_S1600000_S100000_S1700000_d0

def wAll (ew : C F S1600000 .f32) : C F S1700000 .f32 :=
  concatenate S1700000 0
    [⟨S1600000, ew⟩,
     ⟨S100000, (broadcastInDim S100000 ![] bcast_S_S100000 (constant (F := F) S_ .f32 0x3F800000#32) : C F S100000 .f32)⟩]
    concatenates_S1600000_S100000_S1700000_d0

def zerosN : C F S100000 .f32 := broadcastInDim S100000 ![] bcast_S_S100000 (constant (F := F) S_ .f32 0x00000000#32)

def degV (c : C F S1700000 .i32) (w : C F S1700000 .f32) : C F S100000 .f32 :=
  Host.scatterAdd scatter_S100000_S1700000x1_S1700000_n_0_0_1 zerosN
    (broadcastInDim S1700000x1 ![0] bcast_S1700000_S1700000x1_0 c : C F S1700000x1 .i32) w

def disV (d : C F S100000 .f32) : C F S100000 .f32 :=
  select (cmpf .ogt d zerosN)
    (Host.rsqrt (select (cmpf .ogt d zerosN) d
      (broadcastInDim S100000 ![] bcast_S_S100000 (id (constant (F := F) S_ .f32 0x3F800000#32)) : C F S100000 .f32)))
    (broadcastInDim S100000 ![] bcast_S_S100000 (id (constant (F := F) S_ .f32 0x00000000#32)) : C F S100000 .f32)

def gIdx (r : C F S1700000 .i32) : C F S1700000x1 .i32 :=
  broadcastInDim S1700000x1 ![0] bcast_S1700000_S1700000x1_0
    (select (cmpi .slt r (broadcastInDim S1700000 ![] bcast_S_S1700000 (constantI S_ 32 0#32) : C F S1700000 .i32))
      (addi r (broadcastInDim S1700000 ![] bcast_S_S1700000 (constantI S_ 32 100000#32) : C F S1700000 .i32)) r)

def normE (r c : C F S1700000 .i32) (w : C F S1700000 .f32) : C F S1700000 .f32 :=
  mulf (mulf (Host.gather gather_S100000_S1700000x1_S1700000_n_0_n_n_0_1_1 (disV (degV c w)) (gIdx r)) w)
    (Host.gather gather_S100000_S1700000x1_S1700000_n_0_n_n_0_1_1 (disV (degV c w)) (gIdx c))

def aggr (hw : C F S100000x64 .f32) (r c : C F S1700000 .i32) (nrm : C F S1700000 .f32) : C F S100000x64 .f32 :=
  Host.scatterAdd scatter_S100000x64_S1700000x1_S1700000x64_1_0_0_1
    (broadcastInDim S100000x64 ![] bcast_S_S100000x64 (constant (F := F) S_ .f32 0x00000000#32) : C F S100000x64 .f32)
    (broadcastInDim S1700000x1 ![0] bcast_S1700000_S1700000x1_0 c : C F S1700000x1 .i32)
    (mulf (Host.gather gather_S100000x64_S1700000x1_S1700000x64_1_0_n_n_0_1_164 hw (gIdx r))
      (broadcastInDim S1700000x64 ![0, 1] bcast_S1700000x1_S1700000x64_0_1
        (broadcastInDim S1700000x1 ![0] bcast_S1700000_S1700000x1_0 nrm : C F S1700000x1 .f32) : C F S1700000x64 .f32))

def row1 (b : C F S64 .f32) : C F S1x64 .f32 := broadcastInDim S1x64 ![1] bcast_S64_S1x64_1 b

def rowB (b : C F S64 .f32) : C F S100000x64 .f32 := broadcastInDim S100000x64 ![0, 1] bcast_S1x64_S100000x64_0_1 (row1 b)

def sumV (a : C F S100000x64 .f32) : C F S64 .f32 :=
  Host.reduceAdd a (constant (F := F) S_ .f32 0x00000000#32) reducesTo_S100000x64_S64_d0 h_S_

def meanV (a : C F S100000x64 .f32) : C F S64 .f32 :=
  Host.divf (sumV a) (broadcastInDim S64 ![] bcast_S_S64 (constant (F := F) S_ .f32 0x47C35000#32) : C F S64 .f32)

/-- The array minus its column means, the means here as the variance computes them (a 1×64 row divided by the count). -/
def centred (a : C F S100000x64 .f32) : C F S100000x64 .f32 :=
  subf a (broadcastInDim S100000x64 ![0, 1] bcast_S1x64_S100000x64_0_1
    (Host.divf (broadcastInDim S1x64 ![1] bcast_S64_S1x64_1 (sumV a) : C F S1x64 .f32)
      (broadcastInDim S1x64 ![] bcast_S_S1x64 (constant (F := F) S_ .f32 0x47C35000#32) : C F S1x64 .f32)) : C F S100000x64 .f32)

/-- The count the sum of squares is divided by: 100000 minus zero degrees of freedom. -/
def cnt : C F S_ .f32 := subf (constant (F := F) S_ .f32 0x47C35000#32) (sitofp .f32 (constantI S_ 32 0#32 : C F S_ .i32))

def varV (a : C F S100000x64 .f32) : C F S64 .f32 :=
  select (broadcastInDim S64 ![] bcast_S_S64 (cmpf .ogt cnt (constant (F := F) S_ .f32 0x00000000#32) : C F S_ .i1) : C F S64 .i1)
    (Host.divf (sumV (mulf (centred a) (centred a))) (broadcastInDim S64 ![] bcast_S_S64 cnt : C F S64 .f32))
    (broadcastInDim S64 ![] bcast_S_S64 (id (constant (F := F) S_ .f32 0x7FC00000#32)) : C F S64 .f32)

def invstdV (a : C F S100000x64 .f32) : C F S64 .f32 :=
  Host.rsqrt (addf (varV a) (broadcastInDim S64 ![] bcast_S_S64 (constant (F := F) S_ .f32 0x3727C5AC#32) : C F S64 .f32))

def dot128 (x : C F S100000x128 .f32) (w : C F S128x64 .f32) : C F S100000x64 .f32 :=
  Host.dotGeneral dot_S100000x128_S128x64_S100000x64_1_0_0_1_n_n none x w

def dot64 (h : C F S100000x64 .f32) (w : C F S64x64 .f32) : C F S100000x64 .f32 :=
  Host.dotGeneral dot_S100000x64_S64x64_S100000x64_1_0_0_1_n_n none h w

def layer (a res : C F S100000x64 .f32) (g be : C F S64 .f32) : C F S100000x64 .f32 :=
  addf (maximumf (addf (mulf (mulf (rowB g) (subf a (rowB (meanV a)))) (rowB (invstdV a))) (rowB be))
    (broadcastInDim S100000x64 ![] bcast_S_S100000x64 (constant (F := F) S_ .f32 0x00000000#32) : C F S100000x64 .f32)) res

/-- The first layer's output: the aggregate of x·W1 plus b1, normalised and rectified, plus the residual x·pW + pb. -/
def h1Of (x : C F S100000x128 .f32) (ei : C F S2x1600000 .i32) (ew : C F S1600000 .f32) (W1 : C F S128x64 .f32)
    (b1 g1 be1 : C F S64 .f32) (pW : C F S128x64 .f32) (pb : C F S64 .f32) : C F S100000x64 .f32 :=
  layer (addf (aggr (dot128 x W1) (rowIx ei) (colIx ei) (normE (rowIx ei) (colIx ei) (wAll ew))) (rowB b1))
    (addf (dot128 x pW) (rowB pb)) g1 be1

/-- The program: the second layer over the first layer's output, which is also its residual. -/
def refOut (x : C F S100000x128 .f32) (ei : C F S2x1600000 .i32) (ew : C F S1600000 .f32) (W1 : C F S128x64 .f32)
    (b1 g1 be1 : C F S64 .f32) (W2 : C F S64x64 .f32) (b2 g2 be2 : C F S64 .f32) (pW : C F S128x64 .f32) (pb : C F S64 .f32) :
    C F S100000x64 .f32 :=
  layer (addf (aggr (dot64 (h1Of x ei ew W1 b1 g1 be1 pW pb) W2) (rowIx ei) (colIx ei) (normE (rowIx ei) (colIx ei) (wAll ew))) (rowB b2))
    (h1Of x ei ew W1 b1 g1 be1 pW pb) g2 be2

end Cert.ReferenceIdeal.RStage

end
-- ==== Proof.Bridge.lean ====
/-
  The two programs' pieces joined, entry by entry over the extended reals.

  * A vector laid along a 1×64 row is the same row whether by a reshape (the kernel program) or by a broadcast (the
    reference), so the row repeated down the 100000 rows is the same array (`row1_eq`, `rowB_eq`).
  * One layer after its aggregation — max (g·(a − mean a)·invstd a + be) 0 + res — is the tiled region's function
    `bnReluRes` of the same arrays, the four vectors as 1×64 rows (`layer_eq`).
  * The kernel's first product x·[W1 | pW] + (0 … 0, pb), cut into its left and right 64 columns, is the reference's
    x·W1 and x·pW + pb: column c < 64 of the side-by-side matrix is column c of W1 and column 64 + c is column c of pW,
    and adding the zero half of the bias row changes nothing (`sliceL_mm`, `sliceR_mm`); a product plus a zero row is
    the product (`mm_zeroRow`).
-/
import proofs.«173734_j34540126994670_1_alg».proof.Proof.KStage
import proofs.«173734_j34540126994670_1_alg».proof.Proof.RStage
import proofs.«173734_j34540126994670_1_alg».proof.Proof.Spec
import proofs.«173734_j34540126994670_1_alg».proof.Proof.LibPlainDot
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

noncomputable section

open scoped BigOperators

namespace Cert.GCN

open Idealize.ShloMosaic Idealize.ShloMosaic.ValueIdx

variable [Cert.KernelIdeal.Facts] [Cert.ReferenceIdeal.Facts]

abbrev V64 : Type := (⟨1, ![64]⟩ : Shape).Idx → EReal
abbrev M64 : Type := (⟨2, ![100000, 64]⟩ : Shape).Idx → EReal

/-! ## A vector as a row, and the row repeated -/

theorem krow1_apply (b : V64) (u : Fin 1) (c : Fin 64) :
    Cert.KernelIdeal.KStage.row1 (F := Ideal) b (ix2 u c) = b (ix1 c) :=
  shapeCast_a_1a_apply b _ u c

theorem rrow1_apply (b : V64) (u : Fin 1) (c : Fin 64) :
    Cert.ReferenceIdeal.RStage.row1 (F := Ideal) b (ix2 u c) = b (ix1 c) :=
by
  unfold Cert.ReferenceIdeal.RStage.row1
  exact broadcastInDim_apply ![1] _ b (ix2 u c) (ix1 c) (fun a => by
    match a with
    | ⟨0, _⟩ => show c.val = if (64 : ℕ) = 1 then 0 else c.val; rw [if_neg (by decide)])

theorem row1_eq (b : V64) : Cert.ReferenceIdeal.RStage.row1 (F := Ideal) b = Cert.KernelIdeal.KStage.row1 (F := Ideal) b := by
  funext j
  obtain ⟨u, c, rfl⟩ : ∃ (u : Fin 1) (c : Fin 64), j = ix2 u c := ⟨j 0, j 1, eq_ix2 j⟩
  exact (rrow1_apply b u c).trans (krow1_apply b u c).symm

theorem krowB_apply (b : V64) (r : Fin 100000) (c : Fin 64) :
    Cert.KernelIdeal.KStage.rowB (F := Ideal) b (ix2 r c) = b (ix1 c) :=
  (broadcastInDim_oneRow_apply _ _ r c).trans (krow1_apply b 0 c)

theorem rowB_eq (b : V64) : Cert.ReferenceIdeal.RStage.rowB (F := Ideal) b = Cert.KernelIdeal.KStage.rowB (F := Ideal) b := by
  unfold Cert.ReferenceIdeal.RStage.rowB Cert.KernelIdeal.KStage.rowB
  rw [row1_eq]

theorem rrowB_apply (b : V64) (r : Fin 100000) (c : Fin 64) :
    Cert.ReferenceIdeal.RStage.rowB (F := Ideal) b (ix2 r c) = b (ix1 c) := by
  rw [rowB_eq]; exact krowB_apply b r c

/-! ## One layer after its aggregation -/

theorem layer_eq (a res : M64) (g be : V64) :
    Cert.ReferenceIdeal.RStage.layer (F := Ideal) a res g be
      = bnReluRes a res (Cert.KernelIdeal.KStage.row1 (F := Ideal) (Cert.KernelIdeal.KStage.meanV (F := Ideal) a)) (Cert.KernelIdeal.KStage.row1 (F := Ideal) (Cert.KernelIdeal.KStage.invstdV (F := Ideal) a))
          (Cert.KernelIdeal.KStage.row1 (F := Ideal) g) (Cert.KernelIdeal.KStage.row1 (F := Ideal) be) := by
  funext i
  obtain ⟨r, c, rfl⟩ : ∃ (r : Fin 100000) (c : Fin 64), i = ix2 r c := ⟨i 0, i 1, eq_ix2 i⟩
  rw [bnReluRes_apply, krow1_apply, krow1_apply, krow1_apply, krow1_apply]
  unfold Cert.ReferenceIdeal.RStage.layer
  rw [addf_apply, maximumf_apply, addf_apply, mulf_apply, mulf_apply, subf_apply, rrowB_apply, rrowB_apply, rrowB_apply, rrowB_apply,
    broadcastInDim_scalar_apply, constant_apply, Ideal.ofBits_zero_f32]
  rfl

/-! ## The products -/

abbrev M128 : Type := (⟨2, ![100000, 128]⟩ : Shape).Idx → EReal
abbrev W64 : Type := (⟨2, ![128, 64]⟩ : Shape).Idx → EReal

/-- Column `c < 64` of the two matrices side by side is column `c` of the first. -/
theorem wCat_left (W1 pW : W64) (k : Fin 128) (c : Fin 64) (c' : Fin 128) (hc : c'.val = c.val) :
    Cert.KernelIdeal.KStage.wCat (F := Ideal) W1 pW (ix2 k c') = W1 (ix2 k c) :=
  concatenate_pair_apply_left (t := ⟨2, ![128, 128]⟩) (s₁ := ⟨2, ![128, 64]⟩) (s₂ := ⟨2, ![128, 64]⟩) 1 W1 pW _ (ix2 k c') rfl (ix2 k c)
    (fun b => by
      match b with
      | ⟨0, _⟩ => rfl
      | ⟨1, _⟩ => exact hc.symm)

/-- Column `64 + c` of the two matrices side by side is column `c` of the second. -/
theorem wCat_right (W1 pW : W64) (k : Fin 128) (c : Fin 64) (c' : Fin 128) (hc : c'.val = 64 + c.val) :
    Cert.KernelIdeal.KStage.wCat (F := Ideal) W1 pW (ix2 k c') = pW (ix2 k c) :=
  concatenate_pair_apply_right (t := ⟨2, ![128, 128]⟩) (s₁ := ⟨2, ![128, 64]⟩) (s₂ := ⟨2, ![128, 64]⟩) 1 W1 pW _ (ix2 k c') rfl rfl (ix2 k c)
    (fun b hb => by
      match b with
      | ⟨0, _⟩ => rfl
      | ⟨1, _⟩ => exact absurd rfl hb)
    (by show c.val + 64 = c'.val; omega)

/-- The left half of the bias row is zero. -/
theorem bCat_left (pb : V64) (c : Fin 64) (c' : Fin 128) (hc : c'.val = c.val) :
    Cert.KernelIdeal.KStage.bCat (F := Ideal) pb (ix2 (0 : Fin 1) c') = 0 := by
  unfold Cert.KernelIdeal.KStage.bCat
  rw [shapeCast_a_1a_apply]
  rw [concatenate_pair_apply_left (t := ⟨1, ![128]⟩) (s₁ := ⟨1, ![64]⟩) (s₂ := ⟨1, ![64]⟩) 0 _ pb _ (ix1 c') rfl (ix1 c)
    (fun b => by
      match b with
      | ⟨0, _⟩ => exact hc.symm)]
  rw [broadcastInDim_scalar_apply, constant_apply, Ideal.ofBits_zero_f32]

/-- The right half of the bias row is `pb`. -/
theorem bCat_right (pb : V64) (c : Fin 64) (c' : Fin 128) (hc : c'.val = 64 + c.val) :
    Cert.KernelIdeal.KStage.bCat (F := Ideal) pb (ix2 (0 : Fin 1) c') = pb (ix1 c) := by
  unfold Cert.KernelIdeal.KStage.bCat
  rw [shapeCast_a_1a_apply]
  exact concatenate_pair_apply_right (t := ⟨1, ![128]⟩) (s₁ := ⟨1, ![64]⟩) (s₂ := ⟨1, ![64]⟩) 0 _ pb _ (ix1 c') rfl rfl (ix1 c)
    (fun b hb => by
      match b with
      | ⟨0, _⟩ => exact absurd rfl hb)
    (by show c.val + 64 = c'.val; omega)

theorem dot128_apply (x : M128) (w : W64) (r : Fin 100000) (c : Fin 64) :
    Cert.ReferenceIdeal.RStage.dot128 (F := Ideal) x w (ix2 r c) = ∑ k : Fin 128, x (ix2 r k) * w (ix2 k c) :=
  PlainDot.dotGeneral_apply (M := 100000) (K := 128) (N := 64) Cert.ReferenceIdeal.Facts₀.dot_S100000x128_S128x64_S100000x64_1_0_0_1_n_n_wf
    none .single x w r c

theorem dot64_apply (h : M64) (w : (⟨2, ![64, 64]⟩ : Shape).Idx → EReal) (r : Fin 100000) (c : Fin 64) :
    Cert.ReferenceIdeal.RStage.dot64 (F := Ideal) h w (ix2 r c) = ∑ k : Fin 64, h (ix2 r k) * w (ix2 k c) :=
  PlainDot.dotGeneral_apply (M := 100000) (K := 64) (N := 64) Cert.ReferenceIdeal.Facts₀.dot_S100000x64_S64x64_S100000x64_1_0_0_1_n_n_wf
    none .single h w r c

theorem sliceL_mm (x : M128) (W1 pW : W64) (pb : V64) :
    Cert.KernelIdeal.KStage.sliceL (F := Ideal) (mmBias x (Cert.KernelIdeal.KStage.wCat (F := Ideal) W1 pW) (Cert.KernelIdeal.KStage.bCat (F := Ideal) pb)) = Cert.ReferenceIdeal.RStage.dot128 (F := Ideal) x W1 := by
  funext i
  obtain ⟨r, c, rfl⟩ : ∃ (r : Fin 100000) (c : Fin 64), i = ix2 r c := ⟨i 0, i 1, eq_ix2 i⟩
  have hc : c.val < 128 := by have := c.isLt; omega
  refine (slice2_axis1_apply (n0 := 100000) (n1 := 128) (m := 64) 0 _ _ r c ⟨c.val, hc⟩ (Nat.zero_add _).symm).trans ?_
  rw [mmBias_apply, bCat_left pb c ⟨c.val, hc⟩ rfl, add_zero, dot128_apply]
  exact Finset.sum_congr rfl fun k _ => by rw [wCat_left W1 pW k c ⟨c.val, hc⟩ rfl]

theorem sliceR_mm (x : M128) (W1 pW : W64) (pb : V64) :
    Cert.KernelIdeal.KStage.sliceR (F := Ideal) (mmBias x (Cert.KernelIdeal.KStage.wCat (F := Ideal) W1 pW) (Cert.KernelIdeal.KStage.bCat (F := Ideal) pb))
      = addf (F := Ideal) (φ := .f32) (Cert.ReferenceIdeal.RStage.dot128 (F := Ideal) x pW) (Cert.ReferenceIdeal.RStage.rowB (F := Ideal) pb) := by
  funext i
  obtain ⟨r, c, rfl⟩ : ∃ (r : Fin 100000) (c : Fin 64), i = ix2 r c := ⟨i 0, i 1, eq_ix2 i⟩
  have hc : 64 + c.val < 128 := by have := c.isLt; omega
  refine (slice2_axis1_apply (n0 := 100000) (n1 := 128) (m := 64) 64 _ _ r c ⟨64 + c.val, hc⟩ rfl).trans ?_
  rw [mmBias_apply, bCat_right pb c ⟨64 + c.val, hc⟩ rfl, addf_apply, rrowB_apply, dot128_apply]
  exact congrArg (· + pb (ix1 c)) (Finset.sum_congr rfl fun k _ => by rw [wCat_right W1 pW k c ⟨64 + c.val, hc⟩ rfl])

theorem mm_zeroRow (h : M64) (w : (⟨2, ![64, 64]⟩ : Shape).Idx → EReal) :
    mmBias h w (Cert.KernelIdeal.KStage.zeroRow (F := Ideal)) = Cert.ReferenceIdeal.RStage.dot64 (F := Ideal) h w := by
  funext i
  obtain ⟨r, c, rfl⟩ : ∃ (r : Fin 100000) (c : Fin 64), i = ix2 r c := ⟨i 0, i 1, eq_ix2 i⟩
  rw [mmBias_apply, dot64_apply]
  unfold Cert.KernelIdeal.KStage.zeroRow
  rw [broadcastInDim_scalar_apply, constant_apply, Ideal.ofBits_zero_f32, add_zero]

end Cert.GCN

end
-- ==== Proof.Join.lean ====
/-
  The kernel program's function of its arguments IS the reference program's.

  The first layer: the left half of x·[W1 | pW] + (0, pb) is x·W1 and its right half is x·pW + pb; the bias row laid by
  a reshape is the bias row laid by a broadcast; the aggregation, the mean, the variance are the same functions; and
  the tiled normalise-rectify-add-residual region is the reference's layer. The second layer: h₁·W2 + 0 is h₁·W2, and
  the same again with the first layer's output as the residual.
-/
import proofs.«173734_j34540126994670_1_alg».proof.Proof.KFold
import proofs.«173734_j34540126994670_1_alg».proof.Proof.Bridge

noncomputable section

namespace Cert.GCN

open Idealize.ShloMosaic
open Cert.KernelIdeal.KFold

variable [Cert.KernelIdeal.Facts] [Cert.ReferenceIdeal.Facts]

variable (x : M128) (ei : Cert.KernelIdeal.KStage.C Ideal Cert.KernelIdeal.S2x1600000 .i32) (ew : Cert.KernelIdeal.KStage.C Ideal Cert.KernelIdeal.S1600000 .f32)
  (W1 : W64) (b1 g1 be1 : V64) (W2 : (⟨2, ![64, 64]⟩ : Shape).Idx → EReal) (b2 g2 be2 : V64) (pW : W64) (pb : V64)

theorem kA1_eq : kA1 x ei ew W1 b1 pW pb
    = addf (F := Ideal) (φ := .f32)
        (Cert.ReferenceIdeal.RStage.aggr (F := Ideal) (Cert.ReferenceIdeal.RStage.dot128 (F := Ideal) x W1) (Cert.ReferenceIdeal.RStage.rowIx (F := Ideal) ei) (Cert.ReferenceIdeal.RStage.colIx (F := Ideal) ei)
          (Cert.ReferenceIdeal.RStage.normE (F := Ideal) (Cert.ReferenceIdeal.RStage.rowIx (F := Ideal) ei) (Cert.ReferenceIdeal.RStage.colIx (F := Ideal) ei) (Cert.ReferenceIdeal.RStage.wAll (F := Ideal) ew)))
        (Cert.ReferenceIdeal.RStage.rowB (F := Ideal) b1) := by
  unfold kA1 kO
  rw [sliceL_mm, rowB_eq]
  rfl

theorem kH1_eq : kH1 x ei ew W1 b1 g1 be1 pW pb = Cert.ReferenceIdeal.RStage.h1Of (F := Ideal) x ei ew W1 b1 g1 be1 pW pb := by
  unfold kH1
  rw [← layer_eq, kA1_eq]
  unfold kO
  rw [sliceR_mm]
  rfl

theorem kA2_eq (h : M64) : kA2 h ei ew W2 b2
    = addf (F := Ideal) (φ := .f32)
        (Cert.ReferenceIdeal.RStage.aggr (F := Ideal) (Cert.ReferenceIdeal.RStage.dot64 (F := Ideal) h W2) (Cert.ReferenceIdeal.RStage.rowIx (F := Ideal) ei) (Cert.ReferenceIdeal.RStage.colIx (F := Ideal) ei)
          (Cert.ReferenceIdeal.RStage.normE (F := Ideal) (Cert.ReferenceIdeal.RStage.rowIx (F := Ideal) ei) (Cert.ReferenceIdeal.RStage.colIx (F := Ideal) ei) (Cert.ReferenceIdeal.RStage.wAll (F := Ideal) ew)))
        (Cert.ReferenceIdeal.RStage.rowB (F := Ideal) b2) := by
  unfold kA2
  rw [mm_zeroRow, rowB_eq]
  rfl

/-- The two programs compute one function of the thirteen arguments. -/
theorem kOut_eq : kOut x ei ew W1 b1 g1 be1 W2 b2 g2 be2 pW pb = Cert.ReferenceIdeal.RStage.refOut (F := Ideal) x ei ew W1 b1 g1 be1 W2 b2 g2 be2 pW pb := by
  unfold kOut
  rw [← layer_eq, kA2_eq, kH1_eq]
  rfl

end Cert.GCN

end
-- ==== Proof.RefOps.lean ====
/-
  The reference program's @main as a list of its host operations, and its run read back as the fold of
  their results.

  @main is 140 statements in three windows and calls six module-local functions (two masked choices, two
  variances — each of which calls a masked choice of its own —, two rectifications). Unfolding a call is
  substituting the callee's body at the call site over that call's buffers, so @main is one straight line of
  189 operations. It is written here as twenty stretches `s0 … s19`, cut at every call and at the values
  the later reading names; `ops` is their concatenation, `main_eq` says @main is that line, and `run_main`
  that every weakly fair execution ends with each buffer at the fold of the operations' results.
-/
import proofs.«173734_j34540126994670_1_alg».proof.ReferenceIdeal
import proofs.«173734_j34540126994670_1_alg».proof.Proof.Gen.ReferenceIdeal
import Idealize.ShloMosaic.Lib.StableHlo.Run
import Idealize.ShloMosaic.Lib.Pipeline.Regions
import Idealize.ShloMosaic.Lib.Pipeline.Frame

noncomputable section

namespace Cert.RefSide

open Cert.ReferenceIdeal Cert.ReferenceIdeal.Facts₀ Cert.ReferenceIdeal.Facts
open Idealize.ShloMosaic Idealize.ShloMosaic.TcCoe Idealize.SL.Sem

variable {F : FTy → Type} [FloatOps F] [Cert.ReferenceIdeal.Facts]

/-! ## The stretches -/

/-- 21 operations: the two index columns, the weights with unit self-loops, the scattered degree and its two positivity masks. -/
abbrev s0 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S100000 ![] bcast_S_S100000 : (⟨S_, .f32⟩ : BufTy).Contents (Elt F) → (⟨S100000, .f32⟩ : BufTy).Contents (Elt F)),
    StableHlo.binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v6 main_v10 (broadcastInDim S1700000x1 ![0] bcast_S1700000_S1700000x1_0 : (⟨S1700000, .i32⟩ : BufTy).Contents (Elt F) → (⟨S1700000x1, .i32⟩ : BufTy).Contents (Elt F)),
    StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x00000000#32),
    StableHlo.unary main_cst_2 main_v14 (broadcastInDim S100000 ![] bcast_S_S100000 : (⟨S_, .f32⟩ : BufTy).Contents (Elt F) → (⟨S100000, .f32⟩ : BufTy).Contents (Elt F)),
    StableHlo.binary main_v11 main_v14 main_v15 (cmpf .ogt : (⟨S100000, .f32⟩ : BufTy).Contents (Elt F) → (⟨S100000, .f32⟩ : BufTy).Contents (Elt F) → (⟨S100000, .i1⟩ : BufTy).Contents (Elt F)),
    StableHlo.nullary main_cst_3 (constant S_ .f32 0x3F800000#32) ]
theorem s0_sub : (s0 : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub ..⟩
theorem s0_fresh : (s0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- 3 operations: the first masked choice (where the degree is positive keep it, else one). -/
abbrev s1 : List (HloOp τ sig (Elt F)) :=
  [ StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v15 : StableHlo.TRef sig ⟨S100000, .i1⟩) (.of main_v11 : StableHlo.TRef sig ⟨S100000, .f32⟩) (.of main_call0_v1 : StableHlo.TRef sig ⟨S100000, .f32⟩) (.of main_v16 : StableHlo.TRef sig ⟨S100000, .f32⟩) select ]
theorem s1_sub : (s1 : List (HloOp τ sig (Elt F))).Forall fun op => op.bufs ⊆ StableHlo.tcRefs τ sig :=
  ⟨StableHlo.unary_bufs_sub .., StableHlo.unary_bufs_sub .., StableHlo.ternary_bufs_sub ..⟩
theorem s1_fresh : (s1 : List (HloOp τ sig (Elt F))).Forall fun op => op.fresh = ∅ :=
  ⟨rfl, rfl, rfl⟩

/-- 2 operations: its reciprocal square root. -/
abbrev s2 : List (HloOp τ sig (Elt F)) :=
  [ StableHlo.unary main_v16 main_v17 (Host.rsqrt : (⟨S100000, .f32⟩ : BufTy).Contents (Elt F) → (⟨S100000, .f32⟩ : BufTy).Contents (Elt F)),
    StableHlo.nullary main_cst_4 (constant S_ .f32 0x00000000#32) ]
theorem s2_sub : (s2 : List (HloOp τ sig (Elt F))).Forall fun op => op.bufs ⊆ StableHlo.tcRefs τ sig :=
  ⟨StableHlo.unary_bufs_sub .., StableHlo.nullary_bufs_sub ..⟩
theorem s2_fresh : (s2 : List (HloOp τ sig (Elt F))).Forall fun op => op.fresh = ∅ :=
  ⟨rfl, rfl⟩

/-- 3 operations: the second masked choice: the inverse root degree, zero where the degree is not positive. -/
abbrev s3 : List (HloOp τ sig (Elt F)) :=
  [ StableHlo.TRef.unary (.of main_cst_4 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S100000, .f32⟩) (broadcastInDim S100000 ![] bcast_S_S100000),
    StableHlo.TRef.ternary (.of main_v13 : StableHlo.TRef sig ⟨S100000, .i1⟩) (.of main_v17 : StableHlo.TRef sig ⟨S100000, .f32⟩) (.of main_call1_v1 : StableHlo.TRef sig ⟨S100000, .f32⟩) (.of main_v18 : StableHlo.TRef sig ⟨S100000, .f32⟩) select ]
theorem s3_sub : (s3 : List (HloOp τ sig (Elt F))).Forall fun op => op.bufs ⊆ StableHlo.tcRefs τ sig :=
  ⟨StableHlo.unary_bufs_sub .., StableHlo.unary_bufs_sub .., StableHlo.ternary_bufs_sub ..⟩
theorem s3_fresh : (s3 : List (HloOp τ sig (Elt F))).Forall fun op => op.fresh = ∅ :=
  ⟨rfl, rfl, rfl⟩

/-- 20 operations: the wrapped indices, the two gathers of the inverse root degree and the normalised edge weight. -/
abbrev s4 : List (HloOp τ sig (Elt F)) :=
  [ StableHlo.nullary main_c (constantI S_ 32 0#32),
    StableHlo.unary main_c main_v19 (broadcastInDim S1700000 ![] bcast_S_S1700000 : (⟨S_, .i32⟩ : BufTy).Contents (Elt F) → (⟨S1700000, .i32⟩ : BufTy).Contents (Elt F)),
    StableHlo.binary main_v3 main_v19 main_v20 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v21 (broadcastInDim S1700000 ![] bcast_S_S1700000 : (⟨S_, .i32⟩ : BufTy).Contents (Elt F) → (⟨S1700000, .i32⟩ : BufTy).Contents (Elt F)),
    StableHlo.binary main_v3 main_v21 main_v22 (addi : (⟨S1700000, .i32⟩ : BufTy).Contents (Elt F) → (⟨S1700000, .i32⟩ : BufTy).Contents (Elt F) → (⟨S1700000, .i32⟩ : BufTy).Contents (Elt F)),
    StableHlo.ternary main_v20 main_v22 main_v3 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v23 main_v24 (broadcastInDim S1700000x1 ![0] bcast_S1700000_S1700000x1_0 : (⟨S1700000, .i32⟩ : BufTy).Contents (Elt F) → (⟨S1700000x1, .i32⟩ : BufTy).Contents (Elt F)),
    StableHlo.binary main_v18 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v25 main_v8 main_v26 (mulf : (⟨S1700000, .f32⟩ : BufTy).Contents (Elt F) → (⟨S1700000, .f32⟩ : BufTy).Contents (Elt F) → (⟨S1700000, .f32⟩ : BufTy).Contents (Elt F)),
    StableHlo.nullary main_c_6 (constantI S_ 32 0#32),
    StableHlo.unary main_c_6 main_v27 (broadcastInDim S1700000 ![] bcast_S_S1700000 : (⟨S_, .i32⟩ : BufTy).Contents (Elt F) → (⟨S1700000, .i32⟩ : BufTy).Contents (Elt F)),
    StableHlo.binary main_v6 main_v27 main_v28 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v29 (broadcastInDim S1700000 ![] bcast_S_S1700000 : (⟨S_, .i32⟩ : BufTy).Contents (Elt F) → (⟨S1700000, .i32⟩ : BufTy).Contents (Elt F)),
    StableHlo.binary main_v6 main_v29 main_v30 (addi : (⟨S1700000, .i32⟩ : BufTy).Contents (Elt F) → (⟨S1700000, .i32⟩ : BufTy).Contents (Elt F) → (⟨S1700000, .i32⟩ : BufTy).Contents (Elt F)),
    StableHlo.ternary main_v28 main_v30 main_v6 main_v31 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v31 main_v32 (broadcastInDim S1700000x1 ![0] bcast_S1700000_S1700000x1_0 : (⟨S1700000, .i32⟩ : BufTy).Contents (Elt F) → (⟨S1700000x1, .i32⟩ : BufTy).Contents (Elt F)),
    StableHlo.binary main_v18 main_v32 main_v33 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v26 main_v33 main_v34 (mulf : (⟨S1700000, .f32⟩ : BufTy).Contents (Elt F) → (⟨S1700000, .f32⟩ : BufTy).Contents (Elt F) → (⟨S1700000, .f32⟩ : BufTy).Contents (Elt F)) ]
theorem s4_sub : (s4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
theorem s4_fresh : (s4 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- 5 operations: the two products of the features and the bias of the residual. -/
abbrev s5 : List (HloOp τ sig (Elt F)) :=
  [ StableHlo.binary main_arg0 main_arg11 main_v35 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg12 main_v36 (broadcastInDim S1x64 ![1] bcast_S64_S1x64_1 : (⟨S64, .f32⟩ : BufTy).Contents (Elt F) → (⟨S1x64, .f32⟩ : BufTy).Contents (Elt F)),
    StableHlo.unary main_v36 main_v37 (broadcastInDim S100000x64 ![0, 1] bcast_S1x64_S100000x64_0_1 : (⟨S1x64, .f32⟩ : BufTy).Contents (Elt F) → (⟨S100000x64, .f32⟩ : BufTy).Contents (Elt F)),
    StableHlo.binary main_v35 main_v37 main_v38 (addf : (⟨S100000x64, .f32⟩ : BufTy).Contents (Elt F) → (⟨S100000x64, .f32⟩ : BufTy).Contents (Elt F) → (⟨S100000x64, .f32⟩ : BufTy).Contents (Elt F)),
    StableHlo.binary main_arg0 main_arg3 main_v39 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]
theorem s5_sub : (s5 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub ..⟩
theorem s5_fresh : (s5 : List (HloOp τ sig (Elt F))).Forall fun op => op.fresh = ∅ :=
  ⟨rfl, rfl, rfl, rfl, rfl⟩

/-- 10 operations: layer one's wrapped row index, the gathered rows and the edge weight as a column. -/
abbrev s6 : List (HloOp τ sig (Elt F)) :=
  [ StableHlo.nullary main_c_8 (constantI S_ 32 0#32),
    StableHlo.unary main_c_8 main_v40 (broadcastInDim S1700000 ![] bcast_S_S1700000 : (⟨S_, .i32⟩ : BufTy).Contents (Elt F) → (⟨S1700000, .i32⟩ : BufTy).Contents (Elt F)),
    StableHlo.binary main_v3 main_v40 main_v41 (cmpi .slt : (⟨S1700000, .i32⟩ : BufTy).Contents (Elt F) → (⟨S1700000, .i32⟩ : BufTy).Contents (Elt F) → (⟨S1700000, .i1⟩ : BufTy).Contents (Elt F)),
    StableHlo.nullary main_c_9 (constantI S_ 32 100000#32),
    StableHlo.unary main_c_9 main_v42 (broadcastInDim S1700000 ![] bcast_S_S1700000 : (⟨S_, .i32⟩ : BufTy).Contents (Elt F) → (⟨S1700000, .i32⟩ : BufTy).Contents (Elt F)),
    StableHlo.binary main_v3 main_v42 main_v43 (addi : (⟨S1700000, .i32⟩ : BufTy).Contents (Elt F) → (⟨S1700000, .i32⟩ : BufTy).Contents (Elt F) → (⟨S1700000, .i32⟩ : BufTy).Contents (Elt F)),
    StableHlo.ternary main_v41 main_v43 main_v3 main_v44 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v44 main_v45 (broadcastInDim S1700000x1 ![0] bcast_S1700000_S1700000x1_0 : (⟨S1700000, .i32⟩ : BufTy).Contents (Elt F) → (⟨S1700000x1, .i32⟩ : BufTy).Contents (Elt F)),
    StableHlo.binary main_v39 main_v45 main_v46 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v34 main_v47 (broadcastInDim S1700000x1 ![0] bcast_S1700000_S1700000x1_0 : (⟨S1700000, .f32⟩ : BufTy).Contents (Elt F) → (⟨S1700000x1, .f32⟩ : BufTy).Contents (Elt F)) ]
theorem s6_sub : (s6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub ..⟩
theorem s6_fresh : (s6 : List (HloOp τ sig (Elt F))).Forall fun op => op.fresh = ∅ :=
  ⟨rfl, rfl, rfl, rfl, rfl, rfl, rfl, rfl, rfl, rfl⟩

/-- 9 operations: the weighted rows scattered and summed by column index, plus the bias. -/
abbrev s7 : List (HloOp τ sig (Elt F)) :=
  [ StableHlo.unary main_v47 main_v48 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v46 main_v48 main_v49 (mulf : (⟨S1700000x64, .f32⟩ : BufTy).Contents (Elt F) → (⟨S1700000x64, .f32⟩ : BufTy).Contents (Elt F) → (⟨S1700000x64, .f32⟩ : BufTy).Contents (Elt F)),
    StableHlo.nullary main_cst_10 (constant S_ .f32 0x00000000#32),
    StableHlo.unary main_cst_10 main_v50 (broadcastInDim S100000x64 ![] bcast_S_S100000x64 : (⟨S_, .f32⟩ : BufTy).Contents (Elt F) → (⟨S100000x64, .f32⟩ : BufTy).Contents (Elt F)),
    StableHlo.unary main_v6 main_v51 (broadcastInDim S1700000x1 ![0] bcast_S1700000_S1700000x1_0 : (⟨S1700000, .i32⟩ : BufTy).Contents (Elt F) → (⟨S1700000x1, .i32⟩ : BufTy).Contents (Elt F)),
    StableHlo.ternary main_v50 main_v51 main_v49 main_v52 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg4 main_v53 (broadcastInDim S1x64 ![1] bcast_S64_S1x64_1 : (⟨S64, .f32⟩ : BufTy).Contents (Elt F) → (⟨S1x64, .f32⟩ : BufTy).Contents (Elt F)),
    StableHlo.unary main_v53 main_v54 (broadcastInDim S100000x64 ![0, 1] bcast_S1x64_S100000x64_0_1 : (⟨S1x64, .f32⟩ : BufTy).Contents (Elt F) → (⟨S100000x64, .f32⟩ : BufTy).Contents (Elt F)),
    StableHlo.binary main_v52 main_v54 main_v55 (addf : (⟨S100000x64, .f32⟩ : BufTy).Contents (Elt F) → (⟨S100000x64, .f32⟩ : BufTy).Contents (Elt F) → (⟨S100000x64, .f32⟩ : BufTy).Contents (Elt F)) ]
theorem s7_sub : (s7 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩
theorem s7_fresh : (s7 : List (HloOp τ sig (Elt F))).Forall fun op => op.fresh = ∅ :=
  ⟨rfl, rfl, rfl, rfl, rfl, rfl, rfl, rfl, rfl⟩

/-- 6 operations: the column means. -/
abbrev s8 : List (HloOp τ sig (Elt F)) :=
  [ StableHlo.nullary main_cst_11 (constant S_ .f32 0x00000000#32),
    StableHlo.binary main_v55 main_cst_11 main_v56 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_12 (constant S_ .f32 0x47C35000#32),
    StableHlo.unary main_cst_12 main_v57 (broadcastInDim S64 ![] bcast_S_S64 : (⟨S_, .f32⟩ : BufTy).Contents (Elt F) → (⟨S64, .f32⟩ : BufTy).Contents (Elt F)),
    StableHlo.binary main_v56 main_v57 main_v58 (Host.divf : (⟨S64, .f32⟩ : BufTy).Contents (Elt F) → (⟨S64, .f32⟩ : BufTy).Contents (Elt F) → (⟨S64, .f32⟩ : BufTy).Contents (Elt F)),
    StableHlo.nullary main_c_13 (constantI S_ 32 0#32) ]
theorem s8_sub : (s8 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub ..⟩
theorem s8_fresh : (s8 : List (HloOp τ sig (Elt F))).Forall fun op => op.fresh = ∅ :=
  ⟨rfl, rfl, rfl, rfl, rfl, rfl⟩

/-- 22 operations: the column variances. -/
abbrev s9 : List (HloOp τ sig (Elt F)) :=
  [ StableHlo.TRef.nullary (.of main_call2_cst : StableHlo.TRef sig ⟨S_, .f32⟩) (constant S_ .f32 0x00000000#32),
    StableHlo.TRef.binary (.of main_v55 : StableHlo.TRef sig ⟨S100000x64, .f32⟩) (.of main_call2_cst : StableHlo.TRef sig ⟨S_, .f32⟩) (.of main_call2_v0 : StableHlo.TRef sig ⟨S64, .f32⟩) (fun x v => Host.reduceAdd x v reducesTo_S100000x64_S64_d0 h_S_),
    StableHlo.TRef.unary (.of main_call2_v0 : StableHlo.TRef sig ⟨S64, .f32⟩) (.of main_call2_v1 : StableHlo.TRef sig ⟨S1x64, .f32⟩) (broadcastInDim S1x64 ![1] bcast_S64_S1x64_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x64, .f32⟩) (broadcastInDim S1x64 ![] bcast_S_S1x64),
    StableHlo.TRef.binary (.of main_call2_v1 : StableHlo.TRef sig ⟨S1x64, .f32⟩) (.of main_call2_v2 : StableHlo.TRef sig ⟨S1x64, .f32⟩) (.of main_call2_v3 : StableHlo.TRef sig ⟨S1x64, .f32⟩) Host.divf,
    StableHlo.TRef.unary (.of main_call2_v3 : StableHlo.TRef sig ⟨S1x64, .f32⟩) (.of main_call2_v4 : StableHlo.TRef sig ⟨S100000x64, .f32⟩) (broadcastInDim S100000x64 ![0, 1] bcast_S1x64_S100000x64_0_1),
    StableHlo.TRef.binary (.of main_v55 : StableHlo.TRef sig ⟨S100000x64, .f32⟩) (.of main_call2_v4 : StableHlo.TRef sig ⟨S100000x64, .f32⟩) (.of main_call2_v5 : StableHlo.TRef sig ⟨S100000x64, .f32⟩) subf,
    StableHlo.TRef.binary (.of main_call2_v5 : StableHlo.TRef sig ⟨S100000x64, .f32⟩) (.of main_call2_v5 : StableHlo.TRef sig ⟨S100000x64, .f32⟩) (.of main_call2_v6 : StableHlo.TRef sig ⟨S100000x64, .f32⟩) mulf,
    StableHlo.TRef.unary (.of main_c_13 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x64, .f32⟩) (.of main_call2_cst_2 : StableHlo.TRef sig ⟨S_, .f32⟩) (.of main_call2_v9 : StableHlo.TRef sig ⟨S64, .f32⟩) (fun x v => Host.reduceAdd x v reducesTo_S100000x64_S64_d0 h_S_),
    StableHlo.TRef.unary (.of main_call2_v8 : StableHlo.TRef sig ⟨S_, .f32⟩) (.of main_call2_v10 : StableHlo.TRef sig ⟨S64, .f32⟩) (broadcastInDim S64 ![] bcast_S_S64),
    StableHlo.TRef.binary (.of main_call2_v9 : StableHlo.TRef sig ⟨S64, .f32⟩) (.of main_call2_v10 : StableHlo.TRef sig ⟨S64, .f32⟩) (.of main_call2_v11 : StableHlo.TRef sig ⟨S64, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S64, .f32⟩) (broadcastInDim S64 ![] bcast_S_S64),
    StableHlo.TRef.ternary (.of main_call2_v12 : StableHlo.TRef sig ⟨S_, .i1⟩) (.of main_call2_v11 : StableHlo.TRef sig ⟨S64, .f32⟩) (.of main_call2_call0_v1 : StableHlo.TRef sig ⟨S64, .f32⟩) (.of main_v59 : StableHlo.TRef sig ⟨S64, .f32⟩) (fun p a b => select (broadcastInDim S64 ![] bcast_S_S64 p) a b) ]
theorem s9_sub : (s9 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem s9_fresh : (s9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- 16 operations: normalise, scale and shift. -/
abbrev s10 : List (HloOp τ sig (Elt F)) :=
  [ StableHlo.unary main_v58 main_v60 (broadcastInDim S1x64 ![1] bcast_S64_S1x64_1 : (⟨S64, .f32⟩ : BufTy).Contents (Elt F) → (⟨S1x64, .f32⟩ : BufTy).Contents (Elt F)),
    StableHlo.unary main_v60 main_v61 (broadcastInDim S100000x64 ![0, 1] bcast_S1x64_S100000x64_0_1 : (⟨S1x64, .f32⟩ : BufTy).Contents (Elt F) → (⟨S100000x64, .f32⟩ : BufTy).Contents (Elt F)),
    StableHlo.binary main_v55 main_v61 main_v62 (subf : (⟨S100000x64, .f32⟩ : BufTy).Contents (Elt F) → (⟨S100000x64, .f32⟩ : BufTy).Contents (Elt F) → (⟨S100000x64, .f32⟩ : BufTy).Contents (Elt F)),
    StableHlo.unary main_arg5 main_v63 (broadcastInDim S1x64 ![1] bcast_S64_S1x64_1 : (⟨S64, .f32⟩ : BufTy).Contents (Elt F) → (⟨S1x64, .f32⟩ : BufTy).Contents (Elt F)),
    StableHlo.unary main_v63 main_v64 (broadcastInDim S100000x64 ![0, 1] bcast_S1x64_S100000x64_0_1 : (⟨S1x64, .f32⟩ : BufTy).Contents (Elt F) → (⟨S100000x64, .f32⟩ : BufTy).Contents (Elt F)),
    StableHlo.binary main_v64 main_v62 main_v65 (mulf : (⟨S100000x64, .f32⟩ : BufTy).Contents (Elt F) → (⟨S100000x64, .f32⟩ : BufTy).Contents (Elt F) → (⟨S100000x64, .f32⟩ : BufTy).Contents (Elt F)),
    StableHlo.nullary main_cst_14 (constant S_ .f32 0x3727C5AC#32),
    StableHlo.unary main_cst_14 main_v66 (broadcastInDim S64 ![] bcast_S_S64 : (⟨S_, .f32⟩ : BufTy).Contents (Elt F) → (⟨S64, .f32⟩ : BufTy).Contents (Elt F)),
    StableHlo.binary main_v59 main_v66 main_v67 (addf : (⟨S64, .f32⟩ : BufTy).Contents (Elt F) → (⟨S64, .f32⟩ : BufTy).Contents (Elt F) → (⟨S64, .f32⟩ : BufTy).Contents (Elt F)),
    StableHlo.unary main_v67 main_v68 (Host.rsqrt : (⟨S64, .f32⟩ : BufTy).Contents (Elt F) → (⟨S64, .f32⟩ : BufTy).Contents (Elt F)),
    StableHlo.unary main_v68 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S100000x64 ![0, 1] bcast_S1x64_S100000x64_0_1 : (⟨S1x64, .f32⟩ : BufTy).Contents (Elt F) → (⟨S100000x64, .f32⟩ : BufTy).Contents (Elt F)),
    StableHlo.binary main_v65 main_v70 main_v71 (mulf : (⟨S100000x64, .f32⟩ : BufTy).Contents (Elt F) → (⟨S100000x64, .f32⟩ : BufTy).Contents (Elt F) → (⟨S100000x64, .f32⟩ : BufTy).Contents (Elt F)),
    StableHlo.unary main_arg6 main_v72 (broadcastInDim S1x64 ![1] bcast_S64_S1x64_1 : (⟨S64, .f32⟩ : BufTy).Contents (Elt F) → (⟨S1x64, .f32⟩ : BufTy).Contents (Elt F)),
    StableHlo.unary main_v72 main_v73 (broadcastInDim S100000x64 ![0, 1] bcast_S1x64_S100000x64_0_1 : (⟨S1x64, .f32⟩ : BufTy).Contents (Elt F) → (⟨S100000x64, .f32⟩ : BufTy).Contents (Elt F)),
    StableHlo.binary main_v71 main_v73 main_v74 (addf : (⟨S100000x64, .f32⟩ : BufTy).Contents (Elt F) → (⟨S100000x64, .f32⟩ : BufTy).Contents (Elt F) → (⟨S100000x64, .f32⟩ : BufTy).Contents (Elt F)) ]
theorem s10_sub : (s10 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub ..⟩
theorem s10_fresh : (s10 : List (HloOp τ sig (Elt F))).Forall fun op => op.fresh = ∅ :=
  ⟨rfl, rfl, rfl, rfl, rfl, rfl, rfl, rfl, rfl, rfl, rfl, rfl, rfl, rfl, rfl, rfl⟩

/-- 3 operations: rectify. -/
abbrev s11 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x64, .f32⟩) (broadcastInDim S100000x64 ![] bcast_S_S100000x64),
    StableHlo.TRef.binary (.of main_v74 : StableHlo.TRef sig ⟨S100000x64, .f32⟩) (.of main_call3_v0 : StableHlo.TRef sig ⟨S100000x64, .f32⟩) (.of main_v75 : StableHlo.TRef sig ⟨S100000x64, .f32⟩) maximumf ]
theorem s11_sub : (s11 : List (HloOp τ sig (Elt F))).Forall fun op => op.bufs ⊆ StableHlo.tcRefs τ sig :=
  ⟨StableHlo.nullary_bufs_sub .., StableHlo.unary_bufs_sub .., StableHlo.binary_bufs_sub ..⟩
theorem s11_fresh : (s11 : List (HloOp τ sig (Elt F))).Forall fun op => op.fresh = ∅ :=
  ⟨rfl, rfl, rfl⟩

/-- 1 operation: add the residual. -/
abbrev s12 : List (HloOp τ sig (Elt F)) :=
  [ StableHlo.binary main_v75 main_v38 main_v76 (addf : (⟨S100000x64, .f32⟩ : BufTy).Contents (Elt F) → (⟨S100000x64, .f32⟩ : BufTy).Contents (Elt F) → (⟨S100000x64, .f32⟩ : BufTy).Contents (Elt F)) ]
theorem s12_sub : (s12 : List (HloOp τ sig (Elt F))).Forall fun op => op.bufs ⊆ StableHlo.tcRefs τ sig :=
  StableHlo.binary_bufs_sub ..
theorem s12_fresh : (s12 : List (HloOp τ sig (Elt F))).Forall fun op => op.fresh = ∅ :=
  rfl

/-- 1 operation: the product with the second weight matrix. -/
abbrev s13 : List (HloOp τ sig (Elt F)) :=
  [ StableHlo.binary main_v76 main_arg7 main_v77 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]
theorem s13_sub : (s13 : List (HloOp τ sig (Elt F))).Forall fun op => op.bufs ⊆ StableHlo.tcRefs τ sig :=
  StableHlo.binary_bufs_sub ..
theorem s13_fresh : (s13 : List (HloOp τ sig (Elt F))).Forall fun op => op.fresh = ∅ :=
  rfl

/-- 19 operations: layer two's aggregation plus the bias. -/
abbrev s14 : List (HloOp τ sig (Elt F)) :=
  [ StableHlo.nullary main_c_15 (constantI S_ 32 0#32),
    StableHlo.unary main_c_15 main_v78 (broadcastInDim S1700000 ![] bcast_S_S1700000 : (⟨S_, .i32⟩ : BufTy).Contents (Elt F) → (⟨S1700000, .i32⟩ : BufTy).Contents (Elt F)),
    StableHlo.binary main_v3 main_v78 main_v79 (cmpi .slt : (⟨S1700000, .i32⟩ : BufTy).Contents (Elt F) → (⟨S1700000, .i32⟩ : BufTy).Contents (Elt F) → (⟨S1700000, .i1⟩ : BufTy).Contents (Elt F)),
    StableHlo.nullary main_c_16 (constantI S_ 32 100000#32),
    StableHlo.unary main_c_16 main_v80 (broadcastInDim S1700000 ![] bcast_S_S1700000 : (⟨S_, .i32⟩ : BufTy).Contents (Elt F) → (⟨S1700000, .i32⟩ : BufTy).Contents (Elt F)),
    StableHlo.binary main_v3 main_v80 main_v81 (addi : (⟨S1700000, .i32⟩ : BufTy).Contents (Elt F) → (⟨S1700000, .i32⟩ : BufTy).Contents (Elt F) → (⟨S1700000, .i32⟩ : BufTy).Contents (Elt F)),
    StableHlo.ternary main_v79 main_v81 main_v3 main_v82 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v82 main_v83 (broadcastInDim S1700000x1 ![0] bcast_S1700000_S1700000x1_0 : (⟨S1700000, .i32⟩ : BufTy).Contents (Elt F) → (⟨S1700000x1, .i32⟩ : BufTy).Contents (Elt F)),
    StableHlo.binary main_v77 main_v83 main_v84 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v34 main_v85 (broadcastInDim S1700000x1 ![0] bcast_S1700000_S1700000x1_0 : (⟨S1700000, .f32⟩ : BufTy).Contents (Elt F) → (⟨S1700000x1, .f32⟩ : BufTy).Contents (Elt F)),
    StableHlo.unary main_v85 main_v86 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v84 main_v86 main_v87 (mulf : (⟨S1700000x64, .f32⟩ : BufTy).Contents (Elt F) → (⟨S1700000x64, .f32⟩ : BufTy).Contents (Elt F) → (⟨S1700000x64, .f32⟩ : BufTy).Contents (Elt F)),
    StableHlo.nullary main_cst_17 (constant S_ .f32 0x00000000#32),
    StableHlo.unary main_cst_17 main_v88 (broadcastInDim S100000x64 ![] bcast_S_S100000x64 : (⟨S_, .f32⟩ : BufTy).Contents (Elt F) → (⟨S100000x64, .f32⟩ : BufTy).Contents (Elt F)),
    StableHlo.unary main_v6 main_v89 (broadcastInDim S1700000x1 ![0] bcast_S1700000_S1700000x1_0 : (⟨S1700000, .i32⟩ : BufTy).Contents (Elt F) → (⟨S1700000x1, .i32⟩ : BufTy).Contents (Elt F)),
    StableHlo.ternary main_v88 main_v89 main_v87 main_v90 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg8 main_v91 (broadcastInDim S1x64 ![1] bcast_S64_S1x64_1 : (⟨S64, .f32⟩ : BufTy).Contents (Elt F) → (⟨S1x64, .f32⟩ : BufTy).Contents (Elt F)),
    StableHlo.unary main_v91 main_v92 (broadcastInDim S100000x64 ![0, 1] bcast_S1x64_S100000x64_0_1 : (⟨S1x64, .f32⟩ : BufTy).Contents (Elt F) → (⟨S100000x64, .f32⟩ : BufTy).Contents (Elt F)),
    StableHlo.binary main_v90 main_v92 main_v93 (addf : (⟨S100000x64, .f32⟩ : BufTy).Contents (Elt F) → (⟨S100000x64, .f32⟩ : BufTy).Contents (Elt F) → (⟨S100000x64, .f32⟩ : BufTy).Contents (Elt F)) ]
theorem s14_sub : (s14 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩
theorem s14_fresh : (s14 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- 6 operations: its column means. -/
abbrev s15 : List (HloOp τ sig (Elt F)) :=
  [ StableHlo.nullary main_cst_18 (constant S_ .f32 0x00000000#32),
    StableHlo.binary main_v93 main_cst_18 main_v94 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_19 (constant S_ .f32 0x47C35000#32),
    StableHlo.unary main_cst_19 main_v95 (broadcastInDim S64 ![] bcast_S_S64 : (⟨S_, .f32⟩ : BufTy).Contents (Elt F) → (⟨S64, .f32⟩ : BufTy).Contents (Elt F)),
    StableHlo.binary main_v94 main_v95 main_v96 (Host.divf : (⟨S64, .f32⟩ : BufTy).Contents (Elt F) → (⟨S64, .f32⟩ : BufTy).Contents (Elt F) → (⟨S64, .f32⟩ : BufTy).Contents (Elt F)),
    StableHlo.nullary main_c_20 (constantI S_ 32 0#32) ]
theorem s15_sub : (s15 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub ..⟩
theorem s15_fresh : (s15 : List (HloOp τ sig (Elt F))).Forall fun op => op.fresh = ∅ :=
  ⟨rfl, rfl, rfl, rfl, rfl, rfl⟩

/-- 22 operations: its column variances. -/
abbrev s16 : List (HloOp τ sig (Elt F)) :=
  [ StableHlo.TRef.nullary (.of main_call4_cst : StableHlo.TRef sig ⟨S_, .f32⟩) (constant S_ .f32 0x00000000#32),
    StableHlo.TRef.binary (.of main_v93 : StableHlo.TRef sig ⟨S100000x64, .f32⟩) (.of main_call4_cst : StableHlo.TRef sig ⟨S_, .f32⟩) (.of main_call4_v0 : StableHlo.TRef sig ⟨S64, .f32⟩) (fun x v => Host.reduceAdd x v reducesTo_S100000x64_S64_d0 h_S_),
    StableHlo.TRef.unary (.of main_call4_v0 : StableHlo.TRef sig ⟨S64, .f32⟩) (.of main_call4_v1 : StableHlo.TRef sig ⟨S1x64, .f32⟩) (broadcastInDim S1x64 ![1] bcast_S64_S1x64_1),
    StableHlo.TRef.nullary (.of main_call4_cst_0 : StableHlo.TRef sig ⟨S_, .f32⟩) (constant S_ .f32 0x47C35000#32),
    StableHlo.TRef.unary (.of main_call4_cst_0 : StableHlo.TRef sig ⟨S_, .f32⟩) (.of main_call4_v2 : StableHlo.TRef sig ⟨S1x64, .f32⟩) (broadcastInDim S1x64 ![] bcast_S_S1x64),
    StableHlo.TRef.binary (.of main_call4_v1 : StableHlo.TRef sig ⟨S1x64, .f32⟩) (.of main_call4_v2 : StableHlo.TRef sig ⟨S1x64, .f32⟩) (.of main_call4_v3 : StableHlo.TRef sig ⟨S1x64, .f32⟩) Host.divf,
    StableHlo.TRef.unary (.of main_call4_v3 : StableHlo.TRef sig ⟨S1x64, .f32⟩) (.of main_call4_v4 : StableHlo.TRef sig ⟨S100000x64, .f32⟩) (broadcastInDim S100000x64 ![0, 1] bcast_S1x64_S100000x64_0_1),
    StableHlo.TRef.binary (.of main_v93 : StableHlo.TRef sig ⟨S100000x64, .f32⟩) (.of main_call4_v4 : StableHlo.TRef sig ⟨S100000x64, .f32⟩) (.of main_call4_v5 : StableHlo.TRef sig ⟨S100000x64, .f32⟩) subf,
    StableHlo.TRef.binary (.of main_call4_v5 : StableHlo.TRef sig ⟨S100000x64, .f32⟩) (.of main_call4_v5 : StableHlo.TRef sig ⟨S100000x64, .f32⟩) (.of main_call4_v6 : StableHlo.TRef sig ⟨S100000x64, .f32⟩) mulf,
    StableHlo.TRef.unary (.of main_c_20 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47C35000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S100000x64, .f32⟩) (.of main_call4_cst_2 : StableHlo.TRef sig ⟨S_, .f32⟩) (.of main_call4_v9 : StableHlo.TRef sig ⟨S64, .f32⟩) (fun x v => Host.reduceAdd x v reducesTo_S100000x64_S64_d0 h_S_),
    StableHlo.TRef.unary (.of main_call4_v8 : StableHlo.TRef sig ⟨S_, .f32⟩) (.of main_call4_v10 : StableHlo.TRef sig ⟨S64, .f32⟩) (broadcastInDim S64 ![] bcast_S_S64),
    StableHlo.TRef.binary (.of main_call4_v9 : StableHlo.TRef sig ⟨S64, .f32⟩) (.of main_call4_v10 : StableHlo.TRef sig ⟨S64, .f32⟩) (.of main_call4_v11 : StableHlo.TRef sig ⟨S64, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S64, .f32⟩) (broadcastInDim S64 ![] bcast_S_S64),
    StableHlo.TRef.ternary (.of main_call4_v12 : StableHlo.TRef sig ⟨S_, .i1⟩) (.of main_call4_v11 : StableHlo.TRef sig ⟨S64, .f32⟩) (.of main_call4_call0_v1 : StableHlo.TRef sig ⟨S64, .f32⟩) (.of main_v97 : StableHlo.TRef sig ⟨S64, .f32⟩) (fun p a b => select (broadcastInDim S64 ![] bcast_S_S64 p) a b) ]
theorem s16_sub : (s16 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem s16_fresh : (s16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- 16 operations: normalise, scale and shift. -/
abbrev s17 : List (HloOp τ sig (Elt F)) :=
  [ StableHlo.unary main_v96 main_v98 (broadcastInDim S1x64 ![1] bcast_S64_S1x64_1 : (⟨S64, .f32⟩ : BufTy).Contents (Elt F) → (⟨S1x64, .f32⟩ : BufTy).Contents (Elt F)),
    StableHlo.unary main_v98 main_v99 (broadcastInDim S100000x64 ![0, 1] bcast_S1x64_S100000x64_0_1 : (⟨S1x64, .f32⟩ : BufTy).Contents (Elt F) → (⟨S100000x64, .f32⟩ : BufTy).Contents (Elt F)),
    StableHlo.binary main_v93 main_v99 main_v100 (subf : (⟨S100000x64, .f32⟩ : BufTy).Contents (Elt F) → (⟨S100000x64, .f32⟩ : BufTy).Contents (Elt F) → (⟨S100000x64, .f32⟩ : BufTy).Contents (Elt F)),
    StableHlo.unary main_arg9 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S100000x64 ![0, 1] bcast_S1x64_S100000x64_0_1 : (⟨S1x64, .f32⟩ : BufTy).Contents (Elt F) → (⟨S100000x64, .f32⟩ : BufTy).Contents (Elt F)),
    StableHlo.binary main_v102 main_v100 main_v103 (mulf : (⟨S100000x64, .f32⟩ : BufTy).Contents (Elt F) → (⟨S100000x64, .f32⟩ : BufTy).Contents (Elt F) → (⟨S100000x64, .f32⟩ : BufTy).Contents (Elt F)),
    StableHlo.nullary main_cst_21 (constant S_ .f32 0x3727C5AC#32),
    StableHlo.unary main_cst_21 main_v104 (broadcastInDim S64 ![] bcast_S_S64 : (⟨S_, .f32⟩ : BufTy).Contents (Elt F) → (⟨S64, .f32⟩ : BufTy).Contents (Elt F)),
    StableHlo.binary main_v97 main_v104 main_v105 (addf : (⟨S64, .f32⟩ : BufTy).Contents (Elt F) → (⟨S64, .f32⟩ : BufTy).Contents (Elt F) → (⟨S64, .f32⟩ : BufTy).Contents (Elt F)),
    StableHlo.unary main_v105 main_v106 (Host.rsqrt : (⟨S64, .f32⟩ : BufTy).Contents (Elt F) → (⟨S64, .f32⟩ : BufTy).Contents (Elt F)),
    StableHlo.unary main_v106 main_v107 (broadcastInDim S1x64 ![1] bcast_S64_S1x64_1 : (⟨S64, .f32⟩ : BufTy).Contents (Elt F) → (⟨S1x64, .f32⟩ : BufTy).Contents (Elt F)),
    StableHlo.unary main_v107 main_v108 (broadcastInDim S100000x64 ![0, 1] bcast_S1x64_S100000x64_0_1 : (⟨S1x64, .f32⟩ : BufTy).Contents (Elt F) → (⟨S100000x64, .f32⟩ : BufTy).Contents (Elt F)),
    StableHlo.binary main_v103 main_v108 main_v109 (mulf : (⟨S100000x64, .f32⟩ : BufTy).Contents (Elt F) → (⟨S100000x64, .f32⟩ : BufTy).Contents (Elt F) → (⟨S100000x64, .f32⟩ : BufTy).Contents (Elt F)),
    StableHlo.unary main_arg10 main_v110 (broadcastInDim S1x64 ![1] bcast_S64_S1x64_1 : (⟨S64, .f32⟩ : BufTy).Contents (Elt F) → (⟨S1x64, .f32⟩ : BufTy).Contents (Elt F)),
    StableHlo.unary main_v110 main_v111 (broadcastInDim S100000x64 ![0, 1] bcast_S1x64_S100000x64_0_1 : (⟨S1x64, .f32⟩ : BufTy).Contents (Elt F) → (⟨S100000x64, .f32⟩ : BufTy).Contents (Elt F)),
    StableHlo.binary main_v109 main_v111 main_v112 (addf : (⟨S100000x64, .f32⟩ : BufTy).Contents (Elt F) → (⟨S100000x64, .f32⟩ : BufTy).Contents (Elt F) → (⟨S100000x64, .f32⟩ : BufTy).Contents (Elt F)) ]
theorem s17_sub : (s17 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub ..⟩
theorem s17_fresh : (s17 : List (HloOp τ sig (Elt F))).Forall fun op => op.fresh = ∅ :=
  ⟨rfl, rfl, rfl, rfl, rfl, rfl, rfl, rfl, rfl, rfl, rfl, rfl, rfl, rfl, rfl, rfl⟩

/-- 3 operations: rectify. -/
abbrev s18 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S100000x64, .f32⟩) (broadcastInDim S100000x64 ![] bcast_S_S100000x64),
    StableHlo.TRef.binary (.of main_v112 : StableHlo.TRef sig ⟨S100000x64, .f32⟩) (.of main_call5_v0 : StableHlo.TRef sig ⟨S100000x64, .f32⟩) (.of main_v113 : StableHlo.TRef sig ⟨S100000x64, .f32⟩) maximumf ]
theorem s18_sub : (s18 : List (HloOp τ sig (Elt F))).Forall fun op => op.bufs ⊆ StableHlo.tcRefs τ sig :=
  ⟨StableHlo.nullary_bufs_sub .., StableHlo.unary_bufs_sub .., StableHlo.binary_bufs_sub ..⟩
theorem s18_fresh : (s18 : List (HloOp τ sig (Elt F))).Forall fun op => op.fresh = ∅ :=
  ⟨rfl, rfl, rfl⟩

/-- 1 operation: add the first layer's output. -/
abbrev s19 : List (HloOp τ sig (Elt F)) :=
  [ StableHlo.binary main_v113 main_v76 main_v114 (addf : (⟨S100000x64, .f32⟩ : BufTy).Contents (Elt F) → (⟨S100000x64, .f32⟩ : BufTy).Contents (Elt F) → (⟨S100000x64, .f32⟩ : BufTy).Contents (Elt F)) ]
theorem s19_sub : (s19 : List (HloOp τ sig (Elt F))).Forall fun op => op.bufs ⊆ StableHlo.tcRefs τ sig :=
  StableHlo.binary_bufs_sub ..
theorem s19_fresh : (s19 : List (HloOp τ sig (Elt F))).Forall fun op => op.fresh = ∅ :=
  rfl

/-! ## @main is the line -/

/-- The stretches in order. -/
abbrev stretches : List (List (HloOp τ sig (Elt F))) := [s0, s1, s2, s3, s4, s5, s6, s7, s8, s9, s10, s11, s12, s13, s14, s15, s16, s17, s18, s19]

/-- @main's 189 operations, in order. -/
abbrev ops : List (HloOp τ sig (Elt F)) := (stretches (F := F)).flatten

/-- The first window (statements 1 … 60) is its seven stretches in order, the last in tail position. -/
theorem main_part0_chain (c : Dev nD) : main_part0 (F := F) c = (Pipeline.chainK
  [ StableHlo.seq s0,
    StableHlo.seq s1,
    StableHlo.seq s2,
    StableHlo.seq s3,
    StableHlo.seq s4,
    StableHlo.seq s5 ]
  (StableHlo.seq s6) : Prog (TpuEff nD τ sig (Elt F) (Pipeline.Sig Λ₀ (Fin 0) fun p => (pcfgs (F := F) p).Adm) .tc) PUnit) := by
  chain_rfl

/-- The second window (statements 61 … 120) is its nine stretches in order, the last in tail position. -/
theorem main_part1_chain (c : Dev nD) : main_part1 (F := F) c = (Pipeline.chainK
  [ StableHlo.seq s7,
    StableHlo.seq s8,
    StableHlo.seq s9,
    StableHlo.seq s10,
    StableHlo.seq s11,
    StableHlo.seq s12,
    StableHlo.seq s13,
    StableHlo.seq s14 ]
  (StableHlo.seq s15) : Prog (TpuEff nD τ sig (Elt F) (Pipeline.Sig Λ₀ (Fin 0) fun p => (pcfgs (F := F) p).Adm) .tc) PUnit) := by
  chain_rfl

/-- The last window (statements 121 … 140) is its four stretches in order, then the return. -/
theorem main_part2_chain (c : Dev nD) : main_part2 (F := F) c = (Pipeline.chain
  [ StableHlo.seq s16,
    StableHlo.seq s17,
    StableHlo.seq s18,
    StableHlo.seq s19 ] : Prog (TpuEff nD τ sig (Elt F) (Pipeline.Sig Λ₀ (Fin 0) fun p => (pcfgs (F := F) p).Adm) .tc) PUnit) := by
  chain_rfl

/-- @main is the twenty stretches one after the other. -/
theorem main_chain (c : Dev nD) : main (F := F) c = (Pipeline.chain ((stretches (F := F)).map StableHlo.seq) : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  rfl

/-- Lines run one after the other are their concatenation run as one line. -/
theorem chain_map_seq (L : List (List (HloOp τ sig (Elt F)))) :
    (Pipeline.chain (L.map StableHlo.seq) : Prog (TpuEff nD τ sig (Elt F) (Pipeline.Sig Λ₀ (Fin 0) fun p => (pcfgs (F := F) p).Adm) .tc) PUnit) = StableHlo.seq L.flatten := by
  induction L with
  | nil => rfl
  | cons l L ih => rw [List.map_cons, Pipeline.chain_cons, ih, List.flatten_cons, StableHlo.seq_append]

/-- @main is that straight line. -/
theorem main_eq (c : Dev nD) : main (F := F) c = StableHlo.seq (ops (F := F)) :=
  (main_chain c).trans (chain_map_seq _)

theorem scopedRefs_eq : (Finset.univ.filter fun b : Ref sig .tc => b.isScoped) = ∅ := by decide
theorem scopedSems_eq : (Finset.univ.filter fun sm : SemLoc sig => sm.isScoped .tc) = ∅ := by decide

theorem stretches_sub : (stretches (F := F)).Forall fun l => l.Forall fun op => op.bufs ⊆ StableHlo.tcRefs τ sig :=
  ⟨s0_sub, s1_sub, s2_sub, s3_sub, s4_sub, s5_sub, s6_sub, s7_sub, s8_sub, s9_sub, s10_sub, s11_sub, s12_sub, s13_sub, s14_sub, s15_sub, s16_sub, s17_sub, s18_sub, s19_sub⟩

theorem stretches_fresh : (stretches (F := F)).Forall fun l => l.Forall fun op => op.fresh = ∅ :=
  ⟨s0_fresh, s1_fresh, s2_fresh, s3_fresh, s4_fresh, s5_fresh, s6_fresh, s7_fresh, s8_fresh, s9_fresh, s10_fresh, s11_fresh, s12_fresh, s13_fresh, s14_fresh, s15_fresh, s16_fresh, s17_fresh, s18_fresh, s19_fresh⟩

/-- Each operation touches TensorCore references only. -/
theorem ops_sub : (ops : List (HloOp τ sig (Elt F))).Forall fun op => op.bufs ⊆ StableHlo.tcRefs τ sig :=
  List.forall_iff_forall_mem.mpr fun op h => by
    obtain ⟨l, hl, hop⟩ := List.mem_flatten.mp h
    exact List.forall_iff_forall_mem.mp (List.forall_iff_forall_mem.mp stretches_sub l hl) op hop

/-- Each operation determines its results. -/
theorem ops_fresh : ∀ op ∈ (ops : List (HloOp τ sig (Elt F))), op.fresh = ∅ := fun op h => by
  obtain ⟨l, hl, hop⟩ := List.mem_flatten.mp h
  exact List.forall_iff_forall_mem.mp (List.forall_iff_forall_mem.mp stretches_fresh l hl) op hop

/-- On every device, for any float values, from any memory with zero counters: every weakly fair execution of @main
    terminates, and every final state has each TensorCore buffer at the fold of the operations' results over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after (ops (F := F)) (StableHlo.launchContents m c) (Proc.devRef .tc b) :=
  StableHlo.run_seq scopedRefs_eq scopedSems_eq defs main (fun _ => ops) main_eq (fun _ => ops_sub) m ρ (fun _ => ops_fresh)

end Cert.RefSide

end
-- ==== Proof.RefRun.lean ====
/-
  The reference program's run read back as ONE function of its thirteen argument arrays.

  The straight line of 189 operations is read in four groups of stretches, each over a VARIABLE valuation `W` of
  the buffers before it: the edge normalisation (the two index vectors with the self loops appended and the
  normalised weights), the two products of the features, the first layer, the second layer. In each group the
  fold of the operations' results at a buffer the group writes is the stage's composed function of what the
  group reads at `W`, and a buffer the group does not write keeps its contents. Chaining the four groups gives
  the result buffer as `refOut` of the arguments' contents and every argument unchanged; with the run of the
  line this is the statement about every weakly fair execution of @main.
-/
import proofs.«173734_j34540126994670_1_alg».proof.Proof.RefOps
import proofs.«173734_j34540126994670_1_alg».proof.Proof.RStage

noncomputable section

namespace Cert.RefSide

open Cert.ReferenceIdeal Cert.ReferenceIdeal.Facts₀ Cert.ReferenceIdeal.Facts Cert.ReferenceIdeal.RStage
open Idealize.ShloMosaic Idealize.ShloMosaic.TcCoe Idealize.SL.Sem Idealize.ShloMosaic.StableHlo

variable {F : FTy → Type} [FloatOps F] [Cert.ReferenceIdeal.Facts]

/-! ## The edge normalisation -/

/-- The contents after the first five stretches: the edge normalisation. -/
abbrev g1 (W : Valuation τ sig (Elt F)) : Valuation τ sig (Elt F) := after s4 (after s3 (after s2 (after s1 (after s0 W))))

/-- The row indices: the first row of the edge list with the self loops appended. -/
theorem g1_v3 (W : Valuation τ sig (Elt F)) : g1 W (Proc.devRef .tc main_v3) = rowIx (W (Proc.devRef .tc main_arg1)) := by
  unfold g1; after_results_simp; rfl

/-- The column indices: the second row of the edge list with the self loops appended. -/
theorem g1_v6 (W : Valuation τ sig (Elt F)) : g1 W (Proc.devRef .tc main_v6) = colIx (W (Proc.devRef .tc main_arg1)) := by
  unfold g1; after_results_simp; rfl

/-- The normalised edge weights: each weight times the inverse root degrees of its two endpoints. -/
theorem g1_v34 (W : Valuation τ sig (Elt F)) : g1 W (Proc.devRef .tc main_v34)
    = normE (rowIx (W (Proc.devRef .tc main_arg1))) (colIx (W (Proc.devRef .tc main_arg1))) (wAll (W (Proc.devRef .tc main_arg2))) := by
  unfold g1; after_results_simp; rfl

theorem g1_arg0 (W : Valuation τ sig (Elt F)) : g1 W (Proc.devRef .tc main_arg0) = W (Proc.devRef .tc main_arg0) := by
  unfold g1; after_results_simp
theorem g1_arg1 (W : Valuation τ sig (Elt F)) : g1 W (Proc.devRef .tc main_arg1) = W (Proc.devRef .tc main_arg1) := by
  unfold g1; after_results_simp
theorem g1_arg2 (W : Valuation τ sig (Elt F)) : g1 W (Proc.devRef .tc main_arg2) = W (Proc.devRef .tc main_arg2) := by
  unfold g1; after_results_simp
theorem g1_arg3 (W : Valuation τ sig (Elt F)) : g1 W (Proc.devRef .tc main_arg3) = W (Proc.devRef .tc main_arg3) := by
  unfold g1; after_results_simp
theorem g1_arg4 (W : Valuation τ sig (Elt F)) : g1 W (Proc.devRef .tc main_arg4) = W (Proc.devRef .tc main_arg4) := by
  unfold g1; after_results_simp
theorem g1_arg5 (W : Valuation τ sig (Elt F)) : g1 W (Proc.devRef .tc main_arg5) = W (Proc.devRef .tc main_arg5) := by
  unfold g1; after_results_simp
theorem g1_arg6 (W : Valuation τ sig (Elt F)) : g1 W (Proc.devRef .tc main_arg6) = W (Proc.devRef .tc main_arg6) := by
  unfold g1; after_results_simp
theorem g1_arg7 (W : Valuation τ sig (Elt F)) : g1 W (Proc.devRef .tc main_arg7) = W (Proc.devRef .tc main_arg7) := by
  unfold g1; after_results_simp
theorem g1_arg8 (W : Valuation τ sig (Elt F)) : g1 W (Proc.devRef .tc main_arg8) = W (Proc.devRef .tc main_arg8) := by
  unfold g1; after_results_simp
theorem g1_arg9 (W : Valuation τ sig (Elt F)) : g1 W (Proc.devRef .tc main_arg9) = W (Proc.devRef .tc main_arg9) := by
  unfold g1; after_results_simp
theorem g1_arg10 (W : Valuation τ sig (Elt F)) : g1 W (Proc.devRef .tc main_arg10) = W (Proc.devRef .tc main_arg10) := by
  unfold g1; after_results_simp
theorem g1_arg11 (W : Valuation τ sig (Elt F)) : g1 W (Proc.devRef .tc main_arg11) = W (Proc.devRef .tc main_arg11) := by
  unfold g1; after_results_simp
theorem g1_arg12 (W : Valuation τ sig (Elt F)) : g1 W (Proc.devRef .tc main_arg12) = W (Proc.devRef .tc main_arg12) := by
  unfold g1; after_results_simp

/-! ## The products of the features -/

/-- The contents after the sixth stretch: the two products of the features. -/
abbrev g2 (W : Valuation τ sig (Elt F)) : Valuation τ sig (Elt F) := after s5 W

/-- The residual: the features times the projection, plus its bias along the rows. -/
theorem g2_v38 (W : Valuation τ sig (Elt F)) : g2 W (Proc.devRef .tc main_v38)
    = addf (dot128 (W (Proc.devRef .tc main_arg0)) (W (Proc.devRef .tc main_arg11))) (rowB (W (Proc.devRef .tc main_arg12))) := by
  unfold g2; after_results_simp; rfl

/-- The features times the first weight matrix. -/
theorem g2_v39 (W : Valuation τ sig (Elt F)) : g2 W (Proc.devRef .tc main_v39) = dot128 (W (Proc.devRef .tc main_arg0)) (W (Proc.devRef .tc main_arg3)) := by
  unfold g2; after_results_simp; rfl

theorem g2_v3 (W : Valuation τ sig (Elt F)) : g2 W (Proc.devRef .tc main_v3) = W (Proc.devRef .tc main_v3) := by
  unfold g2; after_results_simp
theorem g2_v6 (W : Valuation τ sig (Elt F)) : g2 W (Proc.devRef .tc main_v6) = W (Proc.devRef .tc main_v6) := by
  unfold g2; after_results_simp
theorem g2_v34 (W : Valuation τ sig (Elt F)) : g2 W (Proc.devRef .tc main_v34) = W (Proc.devRef .tc main_v34) := by
  unfold g2; after_results_simp
theorem g2_arg0 (W : Valuation τ sig (Elt F)) : g2 W (Proc.devRef .tc main_arg0) = W (Proc.devRef .tc main_arg0) := by
  unfold g2; after_results_simp
theorem g2_arg1 (W : Valuation τ sig (Elt F)) : g2 W (Proc.devRef .tc main_arg1) = W (Proc.devRef .tc main_arg1) := by
  unfold g2; after_results_simp
theorem g2_arg2 (W : Valuation τ sig (Elt F)) : g2 W (Proc.devRef .tc main_arg2) = W (Proc.devRef .tc main_arg2) := by
  unfold g2; after_results_simp
theorem g2_arg3 (W : Valuation τ sig (Elt F)) : g2 W (Proc.devRef .tc main_arg3) = W (Proc.devRef .tc main_arg3) := by
  unfold g2; after_results_simp
theorem g2_arg4 (W : Valuation τ sig (Elt F)) : g2 W (Proc.devRef .tc main_arg4) = W (Proc.devRef .tc main_arg4) := by
  unfold g2; after_results_simp
theorem g2_arg5 (W : Valuation τ sig (Elt F)) : g2 W (Proc.devRef .tc main_arg5) = W (Proc.devRef .tc main_arg5) := by
  unfold g2; after_results_simp
theorem g2_arg6 (W : Valuation τ sig (Elt F)) : g2 W (Proc.devRef .tc main_arg6) = W (Proc.devRef .tc main_arg6) := by
  unfold g2; after_results_simp
theorem g2_arg7 (W : Valuation τ sig (Elt F)) : g2 W (Proc.devRef .tc main_arg7) = W (Proc.devRef .tc main_arg7) := by
  unfold g2; after_results_simp
theorem g2_arg8 (W : Valuation τ sig (Elt F)) : g2 W (Proc.devRef .tc main_arg8) = W (Proc.devRef .tc main_arg8) := by
  unfold g2; after_results_simp
theorem g2_arg9 (W : Valuation τ sig (Elt F)) : g2 W (Proc.devRef .tc main_arg9) = W (Proc.devRef .tc main_arg9) := by
  unfold g2; after_results_simp
theorem g2_arg10 (W : Valuation τ sig (Elt F)) : g2 W (Proc.devRef .tc main_arg10) = W (Proc.devRef .tc main_arg10) := by
  unfold g2; after_results_simp
theorem g2_arg11 (W : Valuation τ sig (Elt F)) : g2 W (Proc.devRef .tc main_arg11) = W (Proc.devRef .tc main_arg11) := by
  unfold g2; after_results_simp
theorem g2_arg12 (W : Valuation τ sig (Elt F)) : g2 W (Proc.devRef .tc main_arg12) = W (Proc.devRef .tc main_arg12) := by
  unfold g2; after_results_simp

/-! ## The first layer -/

/-- The contents after stretches seven to thirteen: the first layer. -/
abbrev g3 (W : Valuation τ sig (Elt F)) : Valuation τ sig (Elt F) := after s12 (after s11 (after s10 (after s9 (after s8 (after s7 (after s6 W))))))

/-- The first layer's output: the aggregate plus its bias, normalised by its column mean and variance, scaled, shifted,
    rectified, plus the residual. -/
theorem g3_v76 (W : Valuation τ sig (Elt F)) : g3 W (Proc.devRef .tc main_v76)
    = layer (addf (aggr (W (Proc.devRef .tc main_v39)) (W (Proc.devRef .tc main_v3)) (W (Proc.devRef .tc main_v6)) (W (Proc.devRef .tc main_v34))) (rowB (W (Proc.devRef .tc main_arg4))))
        (W (Proc.devRef .tc main_v38)) (W (Proc.devRef .tc main_arg5)) (W (Proc.devRef .tc main_arg6)) := by
  unfold g3; after_results_simp; rfl

theorem g3_v3 (W : Valuation τ sig (Elt F)) : g3 W (Proc.devRef .tc main_v3) = W (Proc.devRef .tc main_v3) := by
  unfold g3; after_results_simp
theorem g3_v6 (W : Valuation τ sig (Elt F)) : g3 W (Proc.devRef .tc main_v6) = W (Proc.devRef .tc main_v6) := by
  unfold g3; after_results_simp
theorem g3_v34 (W : Valuation τ sig (Elt F)) : g3 W (Proc.devRef .tc main_v34) = W (Proc.devRef .tc main_v34) := by
  unfold g3; after_results_simp
theorem g3_arg0 (W : Valuation τ sig (Elt F)) : g3 W (Proc.devRef .tc main_arg0) = W (Proc.devRef .tc main_arg0) := by
  unfold g3; after_results_simp
theorem g3_arg1 (W : Valuation τ sig (Elt F)) : g3 W (Proc.devRef .tc main_arg1) = W (Proc.devRef .tc main_arg1) := by
  unfold g3; after_results_simp
theorem g3_arg2 (W : Valuation τ sig (Elt F)) : g3 W (Proc.devRef .tc main_arg2) = W (Proc.devRef .tc main_arg2) := by
  unfold g3; after_results_simp
theorem g3_arg3 (W : Valuation τ sig (Elt F)) : g3 W (Proc.devRef .tc main_arg3) = W (Proc.devRef .tc main_arg3) := by
  unfold g3; after_results_simp
theorem g3_arg4 (W : Valuation τ sig (Elt F)) : g3 W (Proc.devRef .tc main_arg4) = W (Proc.devRef .tc main_arg4) := by
  unfold g3; after_results_simp
theorem g3_arg5 (W : Valuation τ sig (Elt F)) : g3 W (Proc.devRef .tc main_arg5) = W (Proc.devRef .tc main_arg5) := by
  unfold g3; after_results_simp
theorem g3_arg6 (W : Valuation τ sig (Elt F)) : g3 W (Proc.devRef .tc main_arg6) = W (Proc.devRef .tc main_arg6) := by
  unfold g3; after_results_simp
theorem g3_arg7 (W : Valuation τ sig (Elt F)) : g3 W (Proc.devRef .tc main_arg7) = W (Proc.devRef .tc main_arg7) := by
  unfold g3; after_results_simp
theorem g3_arg8 (W : Valuation τ sig (Elt F)) : g3 W (Proc.devRef .tc main_arg8) = W (Proc.devRef .tc main_arg8) := by
  unfold g3; after_results_simp
theorem g3_arg9 (W : Valuation τ sig (Elt F)) : g3 W (Proc.devRef .tc main_arg9) = W (Proc.devRef .tc main_arg9) := by
  unfold g3; after_results_simp
theorem g3_arg10 (W : Valuation τ sig (Elt F)) : g3 W (Proc.devRef .tc main_arg10) = W (Proc.devRef .tc main_arg10) := by
  unfold g3; after_results_simp
theorem g3_arg11 (W : Valuation τ sig (Elt F)) : g3 W (Proc.devRef .tc main_arg11) = W (Proc.devRef .tc main_arg11) := by
  unfold g3; after_results_simp
theorem g3_arg12 (W : Valuation τ sig (Elt F)) : g3 W (Proc.devRef .tc main_arg12) = W (Proc.devRef .tc main_arg12) := by
  unfold g3; after_results_simp

/-! ## The second layer -/

/-- The contents after the last seven stretches: the second layer. -/
abbrev g4 (W : Valuation τ sig (Elt F)) : Valuation τ sig (Elt F) := after s19 (after s18 (after s17 (after s16 (after s15 (after s14 (after s13 W))))))

/-- The program's result: the second layer over the first layer's output, which is also its residual. -/
theorem g4_v114 (W : Valuation τ sig (Elt F)) : g4 W (Proc.devRef .tc main_v114)
    = layer (addf (aggr (dot64 (W (Proc.devRef .tc main_v76)) (W (Proc.devRef .tc main_arg7))) (W (Proc.devRef .tc main_v3)) (W (Proc.devRef .tc main_v6)) (W (Proc.devRef .tc main_v34))) (rowB (W (Proc.devRef .tc main_arg8))))
        (W (Proc.devRef .tc main_v76)) (W (Proc.devRef .tc main_arg9)) (W (Proc.devRef .tc main_arg10)) := by
  unfold g4; after_results_simp; rfl

theorem g4_arg0 (W : Valuation τ sig (Elt F)) : g4 W (Proc.devRef .tc main_arg0) = W (Proc.devRef .tc main_arg0) := by
  unfold g4; after_results_simp
theorem g4_arg1 (W : Valuation τ sig (Elt F)) : g4 W (Proc.devRef .tc main_arg1) = W (Proc.devRef .tc main_arg1) := by
  unfold g4; after_results_simp
theorem g4_arg2 (W : Valuation τ sig (Elt F)) : g4 W (Proc.devRef .tc main_arg2) = W (Proc.devRef .tc main_arg2) := by
  unfold g4; after_results_simp
theorem g4_arg3 (W : Valuation τ sig (Elt F)) : g4 W (Proc.devRef .tc main_arg3) = W (Proc.devRef .tc main_arg3) := by
  unfold g4; after_results_simp
theorem g4_arg4 (W : Valuation τ sig (Elt F)) : g4 W (Proc.devRef .tc main_arg4) = W (Proc.devRef .tc main_arg4) := by
  unfold g4; after_results_simp
theorem g4_arg5 (W : Valuation τ sig (Elt F)) : g4 W (Proc.devRef .tc main_arg5) = W (Proc.devRef .tc main_arg5) := by
  unfold g4; after_results_simp
theorem g4_arg6 (W : Valuation τ sig (Elt F)) : g4 W (Proc.devRef .tc main_arg6) = W (Proc.devRef .tc main_arg6) := by
  unfold g4; after_results_simp
theorem g4_arg7 (W : Valuation τ sig (Elt F)) : g4 W (Proc.devRef .tc main_arg7) = W (Proc.devRef .tc main_arg7) := by
  unfold g4; after_results_simp
theorem g4_arg8 (W : Valuation τ sig (Elt F)) : g4 W (Proc.devRef .tc main_arg8) = W (Proc.devRef .tc main_arg8) := by
  unfold g4; after_results_simp
theorem g4_arg9 (W : Valuation τ sig (Elt F)) : g4 W (Proc.devRef .tc main_arg9) = W (Proc.devRef .tc main_arg9) := by
  unfold g4; after_results_simp
theorem g4_arg10 (W : Valuation τ sig (Elt F)) : g4 W (Proc.devRef .tc main_arg10) = W (Proc.devRef .tc main_arg10) := by
  unfold g4; after_results_simp
theorem g4_arg11 (W : Valuation τ sig (Elt F)) : g4 W (Proc.devRef .tc main_arg11) = W (Proc.devRef .tc main_arg11) := by
  unfold g4; after_results_simp
theorem g4_arg12 (W : Valuation τ sig (Elt F)) : g4 W (Proc.devRef .tc main_arg12) = W (Proc.devRef .tc main_arg12) := by
  unfold g4; after_results_simp

/-! ## The whole line -/

/-- The whole line is the four groups one after the other. -/
theorem after_ops (V : Valuation τ sig (Elt F)) : after (ops (F := F)) V = g4 (g3 (g2 (g1 V))) := by
  simp only [ops, stretches, List.flatten_cons, List.flatten_nil, List.append_nil, after_append, g1, g2, g3, g4]

/-- The result buffer after the whole line is the program's function of the thirteen arguments. -/
theorem out_eq (V : Valuation τ sig (Elt F)) : after (ops (F := F)) V (Proc.devRef .tc main_v114)
    = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [after_ops, g4_v114, g3_v76, g3_v3, g3_v6, g3_v34, g3_arg7, g3_arg8, g3_arg9, g3_arg10,
    g2_v38, g2_v39, g2_v3, g2_v6, g2_v34, g2_arg4, g2_arg5, g2_arg6, g2_arg7, g2_arg8, g2_arg9, g2_arg10,
    g1_v3, g1_v6, g1_v34, g1_arg0, g1_arg3, g1_arg4, g1_arg5, g1_arg6, g1_arg7, g1_arg8, g1_arg9, g1_arg10, g1_arg11, g1_arg12]
  rfl

/-- Argument 0 is written by no operation. -/
theorem arg0_eq (V : Valuation τ sig (Elt F)) : after (ops (F := F)) V (Proc.devRef .tc main_arg0) = V (Proc.devRef .tc main_arg0) := by
  rw [after_ops, g4_arg0, g3_arg0, g2_arg0, g1_arg0]
/-- Argument 1 is written by no operation. -/
theorem arg1_eq (V : Valuation τ sig (Elt F)) : after (ops (F := F)) V (Proc.devRef .tc main_arg1) = V (Proc.devRef .tc main_arg1) := by
  rw [after_ops, g4_arg1, g3_arg1, g2_arg1, g1_arg1]
/-- Argument 2 is written by no operation. -/
theorem arg2_eq (V : Valuation τ sig (Elt F)) : after (ops (F := F)) V (Proc.devRef .tc main_arg2) = V (Proc.devRef .tc main_arg2) := by
  rw [after_ops, g4_arg2, g3_arg2, g2_arg2, g1_arg2]
/-- Argument 3 is written by no operation. -/
theorem arg3_eq (V : Valuation τ sig (Elt F)) : after (ops (F := F)) V (Proc.devRef .tc main_arg3) = V (Proc.devRef .tc main_arg3) := by
  rw [after_ops, g4_arg3, g3_arg3, g2_arg3, g1_arg3]
/-- Argument 4 is written by no operation. -/
theorem arg4_eq (V : Valuation τ sig (Elt F)) : after (ops (F := F)) V (Proc.devRef .tc main_arg4) = V (Proc.devRef .tc main_arg4) := by
  rw [after_ops, g4_arg4, g3_arg4, g2_arg4, g1_arg4]
/-- Argument 5 is written by no operation. -/
theorem arg5_eq (V : Valuation τ sig (Elt F)) : after (ops (F := F)) V (Proc.devRef .tc main_arg5) = V (Proc.devRef .tc main_arg5) := by
  rw [after_ops, g4_arg5, g3_arg5, g2_arg5, g1_arg5]
/-- Argument 6 is written by no operation. -/
theorem arg6_eq (V : Valuation τ sig (Elt F)) : after (ops (F := F)) V (Proc.devRef .tc main_arg6) = V (Proc.devRef .tc main_arg6) := by
  rw [after_ops, g4_arg6, g3_arg6, g2_arg6, g1_arg6]
/-- Argument 7 is written by no operation. -/
theorem arg7_eq (V : Valuation τ sig (Elt F)) : after (ops (F := F)) V (Proc.devRef .tc main_arg7) = V (Proc.devRef .tc main_arg7) := by
  rw [after_ops, g4_arg7, g3_arg7, g2_arg7, g1_arg7]
/-- Argument 8 is written by no operation. -/
theorem arg8_eq (V : Valuation τ sig (Elt F)) : after (ops (F := F)) V (Proc.devRef .tc main_arg8) = V (Proc.devRef .tc main_arg8) := by
  rw [after_ops, g4_arg8, g3_arg8, g2_arg8, g1_arg8]
/-- Argument 9 is written by no operation. -/
theorem arg9_eq (V : Valuation τ sig (Elt F)) : after (ops (F := F)) V (Proc.devRef .tc main_arg9) = V (Proc.devRef .tc main_arg9) := by
  rw [after_ops, g4_arg9, g3_arg9, g2_arg9, g1_arg9]
/-- Argument 10 is written by no operation. -/
theorem arg10_eq (V : Valuation τ sig (Elt F)) : after (ops (F := F)) V (Proc.devRef .tc main_arg10) = V (Proc.devRef .tc main_arg10) := by
  rw [after_ops, g4_arg10, g3_arg10, g2_arg10, g1_arg10]
/-- Argument 11 is written by no operation. -/
theorem arg11_eq (V : Valuation τ sig (Elt F)) : after (ops (F := F)) V (Proc.devRef .tc main_arg11) = V (Proc.devRef .tc main_arg11) := by
  rw [after_ops, g4_arg11, g3_arg11, g2_arg11, g1_arg11]
/-- Argument 12 is written by no operation. -/
theorem arg12_eq (V : Valuation τ sig (Elt F)) : after (ops (F := F)) V (Proc.devRef .tc main_arg12) = V (Proc.devRef .tc main_arg12) := by
  rw [after_ops, g4_arg12, g3_arg12, g2_arg12, g1_arg12]

/-- On every device, for any float values, from any memory with zero counters: every weakly fair execution of @main
    terminates with the result buffer at the program's function of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v114) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v114).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c)),
      (h c main_arg12).trans (arg12_eq (launchContents m c))⟩)
    (run_main m ρ)

end Cert.RefSide

end
-- ==== Proof.lean ====
/-
  The certificate: the kernel program (a graph-convolution encoder: two rounds of "multiply by a weight matrix, gather
  along the edges, scale by the symmetric normalisation, sum into the target nodes, normalise each column, rectify, add
  a residual", the two matrix products and the two normalise-rectify-add steps tiled over 5000-row blocks) against its
  plain reference, over the extended reals.

  * The three frames: the two kernel programs' are the launch theorem over their sixteen segments (generated); the
    reference's is its run with the result forgotten.
  * The ideal pass rewrote nothing, so that conjunct is trivial.
  * Equal results: the idealized kernel's result array is `kOut` of its arguments (KRun, KFold), the reference's is
    `refOut` of its own (RefRun), the arguments agree, and the two functions are one (Join): the first region's
    product of x with [W1 | pW] plus the row (0, pb), cut in two, is x·W1 and x·pW + pb; a bias row laid by a reshape is the
    row laid by a broadcast; the third region's product plus a zero row is the product; the second and fourth regions
    are the reference's normalise-rectify-add layer; and every other stage is the same host operation in both programs.
-/
import proofs.«173734_j34540126994670_1_alg».proof.Defs
import proofs.«173734_j34540126994670_1_alg».proof.Proof.Gen.Kernel
import proofs.«173734_j34540126994670_1_alg».proof.Proof.Gen.Kernel.Frame
import proofs.«173734_j34540126994670_1_alg».proof.Proof.Gen.KernelIdeal
import proofs.«173734_j34540126994670_1_alg».proof.Proof.Gen.KernelIdeal.Frame
import proofs.«173734_j34540126994670_1_alg».proof.Proof.Gen.ReferenceIdeal
import proofs.«173734_j34540126994670_1_alg».proof.Proof.Gen.Pre_finite_inputs
import proofs.«173734_j34540126994670_1_alg».proof.Proof.KRun
import proofs.«173734_j34540126994670_1_alg».proof.Proof.KFold
import proofs.«173734_j34540126994670_1_alg».proof.Proof.Join
import proofs.«173734_j34540126994670_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.RefSide.run m ρ)

/-- Both idealized programs end with the one array `kOut` of the (agreeing) arguments. -/
theorem algebraic : Cert.algebraic_KernelIdeal_ReferenceIdeal := by
  intro m ρ m' ρ' _ hagree
  refine ⟨fun c => Cert.KernelIdeal.KFold.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KFold.result m ρ c), (h c).2⟩)
      (Cert.KernelIdeal.KRun.run_value (F := Ideal) m ρ)
  · refine (θ_run Cert.ReferenceIdeal.defs _ _).mono (fun r h c => ⟨(h c).1.trans ?_, (h c).2⟩) (Cert.RefSide.run m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2.1, (hagree c).2.2.2.2.2.2.2.2.2.2.2.2]
    exact (Cert.GCN.kOut_eq _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
